-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "eps_norm_sq" .f32 0x179ABE15#32 ((5316911940649 / 5316911983139663491615228241121378304 : ℝ) : EReal)
  ∧ IdealRules.named_const.Statement Cert.KernelIdeal.κ "eps_norm_sq" .f32 0x179ABE15#32 ((5316911940649 / 5316911983139663491615228241121378304 : ℝ) : EReal)
  ∧ IdealRules.named_const.Statement Cert.KernelIdeal.κ "eps_norm_sq" .f32 0x179ABE15#32 ((5316911940649 / 5316911983139663491615228241121378304 : ℝ) : EReal)
  ∧ IdealRules.named_const.Statement Cert.KernelIdeal.κ "eps_norm_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S1 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S1 .f32) (main_arg14 : FVec F S128x128 .f32) (main_arg15 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S1 .f32) (main_arg14 : FVec F S128x128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S50000x128 .f32) (main_arg2 : IVec S800000 32) (main_arg3 : IVec S800000 32) (main_arg4 : FVec F S800000 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S1 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S8x128 : Shape := ⟨2, ![8, 128]⟩
abbrev S2000x128 : Shape := ⟨2, ![2000, 128]⟩
abbrev S2000 : Shape := ⟨1, ![2000]⟩
abbrev S2000x1 : Shape := ⟨2, ![2000, 1]⟩
abbrev S1x1 : Shape := ⟨2, ![1, 1]⟩

abbrev nBuf : Space → Nat
  | .hbm => 164
  | .vmem => 63
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S1, .f32⟩
  | 14 => ⟨S128x128, .f32⟩
  | 15 => ⟨S128, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S800000x1, .f32⟩
  | 28 => ⟨S800000x128, .f32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S800000x1, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1x128, .f32⟩
  | 56 => ⟨S50000x128, .f32⟩
  | 57 => ⟨S50000x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1x128, .f32⟩
  | 76 => ⟨S50000x128, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S800000x1, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S1x128, .f32⟩
  | 96 => ⟨S50000x128, .f32⟩
  | 97 => ⟨S50000x128, .f32⟩
  | 98 => ⟨S128, .f32⟩
  | 99 => ⟨S50000x128, .f32⟩
  | 100 => ⟨S_, .f32⟩
  | 101 => ⟨S128, .f32⟩
  | 102 => ⟨S_, .f32⟩
  | 103 => ⟨S128, .f32⟩
  | 104 => ⟨S128, .f32⟩
  | 105 => ⟨S_, .i32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S50000x128, .f32⟩
  | 113 => ⟨S50000x128, .f32⟩
  | 114 => ⟨S50000x128, .f32⟩
  | 115 => ⟨S_, .f32⟩
  | 116 => ⟨S_, .f32⟩
  | 117 => ⟨S_, .f32⟩
  | 118 => ⟨S_, .f32⟩
  | 119 => ⟨S128, .f32⟩
  | 120 => ⟨S128, .f32⟩
  | 121 => ⟨S128, .f32⟩
  | 122 => ⟨S_, .f32⟩
  | 123 => ⟨S_, .i1⟩
  | 124 => ⟨S_, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S50000x128, .f32⟩
  | 15 => ⟨S50000x128, .f32⟩
  | 16 => ⟨S50000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S50000x128, .f32⟩
  | 31 => ⟨S8x128, .f32⟩
  | 32 => ⟨S1x1, .f32⟩
  | 33 => ⟨S_, .f32⟩
  | 34 => ⟨S_, .f32⟩
  | 35 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S8x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_v74 : Ref sig .tc := ⟨.hbm, 104, rfl⟩
abbrev main_c_12 : Ref sig .tc := ⟨.hbm, 105, rfl⟩
abbrev main_call0_cst : Ref sig .tc := ⟨.hbm, 106, rfl⟩
abbrev main_call0_v0 : Ref sig .tc := ⟨.hbm, 107, rfl⟩
abbrev main_call0_v1 : Ref sig .tc := ⟨.hbm, 108, rfl⟩
abbrev main_call0_cst_0 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_v5 : Ref sig .tc := ⟨.hbm, 113, rfl⟩
abbrev main_call0_v6 : Ref sig .tc := ⟨.hbm, 114, rfl⟩
abbrev main_call0_v7 : Ref sig .tc := ⟨.hbm, 115, rfl⟩
abbrev main_call0_cst_1 : Ref sig .tc := ⟨.hbm, 116, rfl⟩
abbrev main_call0_v8 : Ref sig .tc := ⟨.hbm, 117, rfl⟩
abbrev main_call0_cst_2 : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_call0_cst_3 : Ref sig .tc := ⟨.hbm, 122, rfl⟩
abbrev main_call0_v12 : Ref sig .tc := ⟨.hbm, 123, rfl⟩
abbrev main_call0_cst_4 : Ref sig .tc := ⟨.hbm, 124, rfl⟩
abbrev main_call0_call0_v0 : Ref sig .tc := ⟨.hbm, 125, rfl⟩
abbrev main_call0_call0_v1 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_13 : Ref sig .tc := ⟨.hbm, 130, rfl⟩
abbrev main_v78 : Ref sig .tc := ⟨.hbm, 131, rfl⟩
abbrev main_cst_14 : Ref sig .tc := ⟨.hbm, 132, rfl⟩
abbrev main_v79 : Ref sig .tc := ⟨.hbm, 133, rfl⟩
abbrev main_v80 : Ref sig .tc := ⟨.hbm, 134, rfl⟩
abbrev main_c_15 : Ref sig .tc := ⟨.hbm, 135, rfl⟩
abbrev main_call1_cst : Ref sig .tc := ⟨.hbm, 136, rfl⟩
abbrev main_call1_v0 : Ref sig .tc := ⟨.hbm, 137, rfl⟩
abbrev main_call1_v1 : Ref sig .tc := ⟨.hbm, 138, rfl⟩
abbrev main_call1_cst_0 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_v6 : Ref sig .tc := ⟨.hbm, 144, rfl⟩
abbrev main_call1_v7 : Ref sig .tc := ⟨.hbm, 145, rfl⟩
abbrev main_call1_cst_1 : Ref sig .tc := ⟨.hbm, 146, rfl⟩
abbrev main_call1_v8 : Ref sig .tc := ⟨.hbm, 147, rfl⟩
abbrev main_call1_cst_2 : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_cst_3 : Ref sig .tc := ⟨.hbm, 152, rfl⟩
abbrev main_call1_v12 : Ref sig .tc := ⟨.hbm, 153, rfl⟩
abbrev main_call1_cst_4 : Ref sig .tc := ⟨.hbm, 154, rfl⟩
abbrev main_call1_call0_v0 : Ref sig .tc := ⟨.hbm, 155, rfl⟩
abbrev main_call1_call0_v1 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_16 : Ref sig .tc := ⟨.hbm, 162, rfl⟩
abbrev main_v86 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg6_0 : Ref sig .tc := ⟨.vmem, 33, rfl⟩
abbrev cc5_stg7_0 : Ref sig .tc := ⟨.vmem, 34, rfl⟩
abbrev cc5_stg8_0 : Ref sig .tc := ⟨.vmem, 35, rfl⟩
abbrev cc5_stg8_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg3_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc7_stg5_0 : Ref sig .tc := ⟨.vmem, 49, rfl⟩
abbrev cc7_stg6_0 : Ref sig .tc := ⟨.vmem, 50, rfl⟩
abbrev cc7_stg7_0 : Ref sig .tc := ⟨.vmem, 51, rfl⟩
abbrev cc7_stg8_0 : Ref sig .tc := ⟨.vmem, 52, rfl⟩
abbrev cc7_stg8_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc8_stg3_0 : Ref sig .tc := ⟨.vmem, 60, rfl⟩
abbrev cc8_stg3_1 : Ref sig .tc := ⟨.vmem, 61, rfl⟩
abbrev cc8_stg4_0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem6_0 : DmaSem sig := 33
abbrev cc5_sem7_0 : DmaSem sig := 34
abbrev cc5_sem8_0 : DmaSem sig := 35
abbrev cc5_sem8_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem3_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc7_sem4_0 : DmaSem sig := 48
abbrev cc7_sem5_0 : DmaSem sig := 49
abbrev cc7_sem6_0 : DmaSem sig := 50
abbrev cc7_sem7_0 : DmaSem sig := 51
abbrev cc7_sem8_0 : DmaSem sig := 52
abbrev cc7_sem8_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc8_sem3_0 : DmaSem sig := 60
abbrev cc8_sem3_1 : DmaSem sig := 61
abbrev cc8_sem4_0 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S8x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

class Facts₀ : Prop where
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S128_0 : S1.BroadcastsInDim S128 (![0] : Fin 1 → Fin S128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S128_S128 : S128.ShapeCasts S128
  inb_S8x128_S8x128_0_0 : ∀ a, (![0, 0] : Fin 2 → Nat) a + S8x128.size a ≤ S8x128.size a
  h_S8x128 : 0 < S8x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  reduces_S2000x1_S1 : S2000x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S8x128_S1x1_0_0 : S8x128.Slices ![0, 0] S1x1
  shapeCasts_S1x1_S_ : S1x1.ShapeCasts S_
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128.size a ≤ S128.size a
  hwx5_7 : ∀ i : grid5.Coords, EltTy.bits .f32 = 32 ∨ (Rect.block (s := S128) S128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S50000x128.size a
  hwx5_8 : ∀ i : grid5.Coords, EltTy.bits .f32 = 32 ∨ (Rect.block (s := S50000x128) S5000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128.size a ≤ S128.size a
  hwx7_5 : ∀ i : grid7.Coords, EltTy.bits .f32 = 32 ∨ (Rect.block (s := S128) S128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .f32 = 32 ∨ (Rect.block (s := S128x128) S128x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128.size a ≤ S128.size a
  hwx7_7 : ∀ i : grid7.Coords, EltTy.bits .f32 = 32 ∨ (Rect.block (s := S128) S128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S50000x128.size a
  hwx7_8 : ∀ i : grid7.Coords, EltTy.bits .f32 = 32 ∨ (Rect.block (s := S50000x128) S5000x128.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S8x128.size a ≤ S8x128.size a
  hwx8_4 : ∀ i : grid8.Coords, EltTy.bits .f32 = 32 ∨ (Rect.block (s := S8x128) S8x128.size (cc8_transform_4 i) (hinb8_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg14) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg15) S128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v76) S5000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v17) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v77) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v81) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v70) S128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg14) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg15) S128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v82) S5000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v76) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v69) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v82) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v52) S2000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v83) S8x128.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩

abbrev nBuf : Space → Nat
  | .hbm => 299
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S1, .f32⟩
  | 14 => ⟨S128x128, .f32⟩
  | 15 => ⟨S128, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S800000x1, .f32⟩
  | 28 => ⟨S800000x128, .f32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S800000x1, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1x128, .f32⟩
  | 56 => ⟨S50000x128, .f32⟩
  | 57 => ⟨S50000x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1x128, .f32⟩
  | 76 => ⟨S50000x128, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S800000x1, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S1x128, .f32⟩
  | 96 => ⟨S50000x128, .f32⟩
  | 97 => ⟨S50000x128, .f32⟩
  | 98 => ⟨S50000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S1x128, .f32⟩
  | 116 => ⟨S50000x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S_, .f32⟩
  | 125 => ⟨S128, .f32⟩
  | 126 => ⟨S128, .f32⟩
  | 127 => ⟨S_, .i32⟩
  | _ => ⟨S50000x128, .f32⟩

abbrev hbmTy0_1 (i : Nat) : BufTy := match i % 128 with
  | 0 => ⟨S_, .f32⟩
  | 1 => ⟨S128, .f32⟩
  | 2 => ⟨S1x128, .f32⟩
  | 3 => ⟨S_, .f32⟩
  | 4 => ⟨S1x128, .f32⟩
  | 5 => ⟨S1x128, .f32⟩
  | 6 => ⟨S50000x128, .f32⟩
  | 7 => ⟨S50000x128, .f32⟩
  | 8 => ⟨S50000x128, .f32⟩
  | 9 => ⟨S_, .f32⟩
  | 10 => ⟨S_, .f32⟩
  | 11 => ⟨S_, .f32⟩
  | 12 => ⟨S_, .f32⟩
  | 13 => ⟨S128, .f32⟩
  | 14 => ⟨S128, .f32⟩
  | 15 => ⟨S128, .f32⟩
  | 16 => ⟨S_, .f32⟩
  | 17 => ⟨S_, .i1⟩
  | 18 => ⟨S_, .f32⟩
  | 19 => ⟨S_, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S128, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .i1⟩
  | 41 => ⟨S1x1, .f32⟩
  | 42 => ⟨S50000x128, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .i1⟩
  | 100 => ⟨S1x1, .f32⟩
  | 101 => ⟨S50000x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S50000x1, .f32⟩
  | 113 => ⟨S_, .f32⟩
  | 114 => ⟨S50000x1, .f32⟩
  | 115 => ⟨S50000x1, .f32⟩
  | 116 => ⟨S50000x128, .f32⟩
  | 117 => ⟨S50000x128, .f32⟩
  | 118 => ⟨S50000x128, .f32⟩
  | 119 => ⟨S_, .f32⟩
  | 120 => ⟨S50000, .f32⟩
  | 121 => ⟨S50000x1, .f32⟩
  | 122 => ⟨S50000x1, .f32⟩
  | 123 => ⟨S_, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .f32⟩
  | 2 => ⟨S50000, .f32⟩
  | 3 => ⟨S_, .f32⟩
  | 4 => ⟨S50000, .f32⟩
  | 5 => ⟨S50000, .f32⟩
  | 6 => ⟨S_, .f32⟩
  | 7 => ⟨S50000, .f32⟩
  | 8 => ⟨S50000, .f32⟩
  | 9 => ⟨S50000x128, .f32⟩
  | 10 => ⟨S_, .f32⟩
  | 11 => ⟨S50000, .f32⟩
  | 12 => ⟨S50000x1, .f32⟩
  | 13 => ⟨S50000x1, .f32⟩
  | 14 => ⟨S_, .f32⟩
  | 15 => ⟨S50000x1, .f32⟩
  | 16 => ⟨S50000x1, .f32⟩
  | 17 => ⟨S50000x128, .f32⟩
  | 18 => ⟨S50000x128, .f32⟩
  | 19 => ⟨S50000x128, .f32⟩
  | 20 => ⟨S_, .f32⟩
  | 21 => ⟨S50000, .f32⟩
  | 22 => ⟨S50000x1, .f32⟩
  | 23 => ⟨S50000x1, .f32⟩
  | 24 => ⟨S_, .f32⟩
  | 25 => ⟨S50000x1, .f32⟩
  | 26 => ⟨S50000x1, .f32⟩
  | 27 => ⟨S50000x128, .f32⟩
  | 28 => ⟨S50000x128, .f32⟩
  | 29 => ⟨S50000x128, .f32⟩
  | 30 => ⟨S_, .f32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S_, .f32⟩
  | 42 => ⟨S_, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_10 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_13 : Ref sig .tc := ⟨.hbm, 122, rfl⟩
abbrev main_v91 : Ref sig .tc := ⟨.hbm, 123, rfl⟩
abbrev main_cst_14 : Ref sig .tc := ⟨.hbm, 124, rfl⟩
abbrev main_v92 : Ref sig .tc := ⟨.hbm, 125, rfl⟩
abbrev main_v93 : Ref sig .tc := ⟨.hbm, 126, rfl⟩
abbrev main_c_15 : Ref sig .tc := ⟨.hbm, 127, rfl⟩
abbrev main_call0_cst : Ref sig .tc := ⟨.hbm, 128, rfl⟩
abbrev main_call0_v0 : Ref sig .tc := ⟨.hbm, 129, rfl⟩
abbrev main_call0_v1 : Ref sig .tc := ⟨.hbm, 130, rfl⟩
abbrev main_call0_cst_0 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_call0_v5 : Ref sig .tc := ⟨.hbm, 135, rfl⟩
abbrev main_call0_v6 : Ref sig .tc := ⟨.hbm, 136, rfl⟩
abbrev main_call0_v7 : Ref sig .tc := ⟨.hbm, 137, rfl⟩
abbrev main_call0_cst_1 : Ref sig .tc := ⟨.hbm, 138, rfl⟩
abbrev main_call0_v8 : Ref sig .tc := ⟨.hbm, 139, rfl⟩
abbrev main_call0_cst_2 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_call0_cst_3 : Ref sig .tc := ⟨.hbm, 144, rfl⟩
abbrev main_call0_v12 : Ref sig .tc := ⟨.hbm, 145, rfl⟩
abbrev main_call0_cst_4 : Ref sig .tc := ⟨.hbm, 146, rfl⟩
abbrev main_call0_call0_v0 : Ref sig .tc := ⟨.hbm, 147, rfl⟩
abbrev main_call0_call0_v1 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_16 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_17 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_18 : Ref sig .tc := ⟨.hbm, 181, rfl⟩
abbrev main_v124 : Ref sig .tc := ⟨.hbm, 182, rfl⟩
abbrev main_cst_19 : Ref sig .tc := ⟨.hbm, 183, rfl⟩
abbrev main_v125 : Ref sig .tc := ⟨.hbm, 184, rfl⟩
abbrev main_v126 : Ref sig .tc := ⟨.hbm, 185, rfl⟩
abbrev main_c_20 : Ref sig .tc := ⟨.hbm, 186, rfl⟩
abbrev main_call2_cst : Ref sig .tc := ⟨.hbm, 187, rfl⟩
abbrev main_call2_v0 : Ref sig .tc := ⟨.hbm, 188, rfl⟩
abbrev main_call2_v1 : Ref sig .tc := ⟨.hbm, 189, rfl⟩
abbrev main_call2_cst_0 : Ref sig .tc := ⟨.hbm, 190, rfl⟩
abbrev main_call2_v2 : Ref sig .tc := ⟨.hbm, 191, rfl⟩
abbrev main_call2_v3 : Ref sig .tc := ⟨.hbm, 192, rfl⟩
abbrev main_call2_v4 : Ref sig .tc := ⟨.hbm, 193, rfl⟩
abbrev main_call2_v5 : Ref sig .tc := ⟨.hbm, 194, rfl⟩
abbrev main_call2_v6 : Ref sig .tc := ⟨.hbm, 195, rfl⟩
abbrev main_call2_v7 : Ref sig .tc := ⟨.hbm, 196, rfl⟩
abbrev main_call2_cst_1 : Ref sig .tc := ⟨.hbm, 197, rfl⟩
abbrev main_call2_v8 : Ref sig .tc := ⟨.hbm, 198, rfl⟩
abbrev main_call2_cst_2 : Ref sig .tc := ⟨.hbm, 199, rfl⟩
abbrev main_call2_v9 : Ref sig .tc := ⟨.hbm, 200, rfl⟩
abbrev main_call2_v10 : Ref sig .tc := ⟨.hbm, 201, rfl⟩
abbrev main_call2_v11 : Ref sig .tc := ⟨.hbm, 202, rfl⟩
abbrev main_call2_cst_3 : Ref sig .tc := ⟨.hbm, 203, rfl⟩
abbrev main_call2_v12 : Ref sig .tc := ⟨.hbm, 204, rfl⟩
abbrev main_call2_cst_4 : Ref sig .tc := ⟨.hbm, 205, rfl⟩
abbrev main_call2_call0_v0 : Ref sig .tc := ⟨.hbm, 206, rfl⟩
abbrev main_call2_call0_v1 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_21 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_cst_22 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_cst_23 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_cst_24 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_cst_25 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_cst_26 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_cst_27 : Ref sig .tc := ⟨.hbm, 257, rfl⟩
abbrev main_v170 : Ref sig .tc := ⟨.hbm, 258, rfl⟩
abbrev main_cst_28 : Ref sig .tc := ⟨.hbm, 259, rfl⟩
abbrev main_v171 : Ref sig .tc := ⟨.hbm, 260, rfl⟩
abbrev main_v172 : Ref sig .tc := ⟨.hbm, 261, rfl⟩
abbrev main_cst_29 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_cst_30 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_cst_31 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_cst_32 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_cst_33 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_34 : Ref sig .tc := ⟨.hbm, 286, rfl⟩
abbrev main_v192 : Ref sig .tc := ⟨.hbm, 287, rfl⟩
abbrev main_cst_35 : Ref sig .tc := ⟨.hbm, 288, rfl⟩
abbrev main_v193 : Ref sig .tc := ⟨.hbm, 289, rfl⟩
abbrev main_v194 : Ref sig .tc := ⟨.hbm, 290, rfl⟩
abbrev main_cst_36 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_cst_37 : Ref sig .tc := ⟨.hbm, 295, rfl⟩
abbrev main_v198 : Ref sig .tc := ⟨.hbm, 296, rfl⟩
abbrev main_cst_38 : Ref sig .tc := ⟨.hbm, 297, rfl⟩
abbrev main_v199 : Ref sig .tc := ⟨.hbm, 298, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000 : S_.BroadcastsInDim S50000 (![] : Fin 0 → Fin S50000.rank)
  reducesTo_S50000_S_d0 : S50000.ReducesTo [0] S_
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel program's run with its two results NAMED: every weakly fair execution of @main — ten stretches
  of host operations around nine kernel regions — terminates without a fault, the argument arrays end as launched, and
  the two result arrays end at the last boundary's contents (the fold of the stretches and of the regions' write-backs
  from the launch memory).  The launch over the segments is the frame's; only the final reading is stronger.
-/
import proofs.«123214_j35218731827951_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results named: both result arrays at the contents after the last stretch. -/
theorem run : θ_run defs (onTc (τ := τ) (main (F := F))) ⟨m, fun _ => 0, ρ⟩ (fun r => ∀ c : Dev nD,
      r.2.mem ((c.tc : Thread nD τ).loc main_v18) = W19 m ρ c (Proc.devRef .tc main_v18)
      ∧ r.2.mem ((c.tc : Thread nD τ).loc main_v86) = W19 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v18 (by decide)), h c _ (mem_uc main_v86 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c)⟩)

end Cert.KernelIdeal.KRun

end
-- ==== Proof.Spec.lean ====
/-
  The two programs' common mathematics as whole-array functions, spelt with the reference program's shapes and
  dimension records: a graph convolution is a dense product x·W, then for every edge the source row of that product
  scaled by the edge weight, summed into the edge's target row, plus a bias row; the predictor is a dense layer, a
  batch normalisation over the 50000 rows (mean and biased variance per column), a leaky rectifier with one shared
  slope, and a second dense layer; the loss is the mean over rows of 2 − 2·cos for two pairs of arrays, each row
  normalised by max(‖row‖, ε).  The kernel's own spellings of the batch norm (a reciprocal square root in place of the
  quotient by a square root) and of the row normalisation are stated beside the reference's.
-/
import proofs.«123214_j35218731827951_1_alg».proof.ReferenceIdeal

noncomputable section

namespace Cert.Spec

open Idealize.ShloMosaic Cert.ReferenceIdeal

variable {F : FTy → Type} [FloatOps F] [Facts]
open Facts₀ Facts

/-- A 50000×128 array of floats, a 128×128 weight, a 128 vector, an 800000 vector of edge indices or weights. -/
abbrev Mat (F : FTy → Type) := (⟨S50000x128, .f32⟩ : BufTy).Contents (Elt F)
abbrev Wt (F : FTy → Type) := (⟨S128x128, .f32⟩ : BufTy).Contents (Elt F)
abbrev V128 (F : FTy → Type) := (⟨S128, .f32⟩ : BufTy).Contents (Elt F)
abbrev EIdx (F : FTy → Type) := (⟨S800000, .i32⟩ : BufTy).Contents (Elt F)
abbrev EW (F : FTy → Type) := (⟨S800000, .f32⟩ : BufTy).Contents (Elt F)

/-- The dense product x·W. -/
def mm (l : Mat F) (w : Wt F) : Mat F :=
  Host.dotGeneral dot_S50000x128_S128x128_S50000x128_1_0_0_1_n_n none l w

/-- A 128-vector as a row, repeated down the 50000 rows. -/
def rowb (b : V128 F) : Mat F :=
  broadcastInDim S50000x128 ![0, 1] bcast_S1x128_S50000x128_0_1 (broadcastInDim S1x128 ![1] bcast_S128_S1x128_1 b)

/-- x·W + b. -/
def lin (h : Mat F) (w : Wt F) (b : V128 F) : Mat F := addf (mm h w) (rowb b)

/-- Source indices with negative ones wrapped by 50000, as a column. -/
def fixIdx (col : EIdx F) : (⟨S800000x1, .i32⟩ : BufTy).Contents (Elt F) :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- For every edge the source row of h times the edge weight, summed into the edge's target row. -/
def agg (h : Mat F) (row col : EIdx F) (w : EW F) : Mat F :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (Host.gather gather_S50000x128_S800000x1_S800000x128_1_0_n_n_0_1_1128 h (fixIdx col))
      (broadcastInDim S800000x128 ![0, 1] bcast_S800000x1_S800000x128_0_1
        (broadcastInDim S800000x1 ![0] bcast_S800000_S800000x1_0 w)))

/-- The aggregate of a given dense product, plus the bias row. -/
def gcnOf (h : Mat F) (b : V128 F) (row col : EIdx F) (w : EW F) : Mat F := addf (agg h row col w) (rowb b)

/-- A graph convolution: aggregate of x·W plus the bias row. -/
def gcn (x : Mat F) (W : Wt F) (b : V128 F) (row col : EIdx F) (w : EW F) : Mat F := gcnOf (mm x W) b row col w

/-- The column means over the 50000 rows. -/
def mean (h : Mat F) : V128 F :=
  Host.divf (Host.reduceAdd h (constant S_ .f32 0x00000000#32) reducesTo_S50000x128_S128_d0 h_S_)
    (broadcastInDim S128 ![] bcast_S_S128 (constant S_ .f32 0x47435000#32))

/-- The biased column variances over the 50000 rows, as jnp's var prints: the mean of the squared deviations from
    the column mean, the divisor 50000 − 0, selected over a NaN word when that divisor is positive. -/
def var (h : Mat F) : V128 F :=
  have m1 : (⟨S1x128, .f32⟩ : BufTy).Contents (Elt F) :=
    Host.divf (broadcastInDim S1x128 ![1] bcast_S128_S1x128_1
        (Host.reduceAdd h (constant S_ .f32 0x00000000#32) reducesTo_S50000x128_S128_d0 h_S_))
      (broadcastInDim S1x128 ![] bcast_S_S1x128 (constant S_ .f32 0x47435000#32))
  have d : Mat F := subf h (broadcastInDim S50000x128 ![0, 1] bcast_S1x128_S50000x128_0_1 m1)
  have n : (⟨S_, .f32⟩ : BufTy).Contents (Elt F) :=
    subf (constant S_ .f32 0x47435000#32) (sitofp .f32 (constantI S_ 32 0#32))
  have q : V128 F :=
    Host.divf (Host.reduceAdd (mulf d d) (constant S_ .f32 0x00000000#32) reducesTo_S50000x128_S128_d0 h_S_)
      (broadcastInDim S128 ![] bcast_S_S128 n)
  select (broadcastInDim S128 ![] bcast_S_S128 (cmpf .ogt n (constant S_ .f32 0x00000000#32))) q
    (broadcastInDim S128 ![] bcast_S_S128 (constant S_ .f32 0x7FC00000#32))

/-- The batch-norm shift ε = f32(1e-5), one per column. -/
def epsBN : V128 F := broadcastInDim S128 ![] bcast_S_S128 (constant S_ .f32 0x3727C5AC#32)

/-- The zero array. -/
def zeroMat : Mat F := broadcastInDim S50000x128 ![] bcast_S_S50000x128 (constant S_ .f32 0x00000000#32)

/-- Batch normalisation as the reference spells it: ((h − μ) / √(σ² + ε))·γ + β, per column. -/
def bn (h : Mat F) (mu va g beta : V128 F) : Mat F :=
  addf (mulf (Host.divf (subf h (rowb mu)) (rowb (Host.sqrt (addf va epsBN)))) (rowb g)) (rowb beta)

/-- Batch normalisation as the kernel spells it: ((h − μ)·rsqrt(σ² + ε))·γ + β, per column. -/
def bnK (h : Mat F) (mu va g beta : V128 F) : Mat F :=
  addf (mulf (mulf (subf h (rowb mu)) (rowb (rsqrt (addf va epsBN)))) (rowb g)) (rowb beta)

/-- The leaky rectifier with the one shared slope a, as the reference spells it (a spread from its 1-vector). -/
def prelu (n : Mat F) (a : (⟨S1, .f32⟩ : BufTy).Contents (Elt F)) : Mat F :=
  select (cmpf .ogt n zeroMat) n
    (mulf (broadcastInDim S50000x128 ![0, 1] bcast_S1x1_S50000x128_0_1 (broadcastInDim S1x1 ![1] bcast_S1_S1x1_1 a)) n)

/-- The leaky rectifier with a per-column slope vector, as the kernel spells it. -/
def preluK (n : Mat F) (a : V128 F) : Mat F := select (cmpf .ogt n zeroMat) n (mulf (rowb a) n)

/-- The predictor of the reference: dense, batch norm over the rows, leaky rectifier, dense. -/
def predictor (x : Mat F) (W1 : Wt F) (b1 g beta : V128 F) (a : (⟨S1, .f32⟩ : BufTy).Contents (Elt F)) (W2 : Wt F) (b2 : V128 F) : Mat F :=
  lin (prelu (bn (lin x W1 b1) (mean (lin x W1 b1)) (var (lin x W1 b1)) g beta) a) W2 b2

/-- The kernel's predictor tail on a given first layer h with given statistics. -/
def tailK (h : Mat F) (mu va g beta a : V128 F) (W2 : Wt F) (b2 : V128 F) : Mat F :=
  lin (preluK (bnK h mu va g beta) a) W2 b2

/-- The row sums of squares, as a vector. -/
def rowSq (x : Mat F) : (⟨S50000, .f32⟩ : BufTy).Contents (Elt F) :=
  Host.reduceAdd (mulf x x) (constant S_ .f32 0x00000000#32) reducesTo_S50000x128_S50000_d1 h_S_

/-- Each row over max(‖row‖, ε), ε = f32(1e-12). -/
def l2n (x : Mat F) : Mat F :=
  Host.divf x (broadcastInDim S50000x128 ![0, 1] bcast_S50000x1_S50000x128_0_1
    (maximumf (Host.sqrt (broadcastInDim S50000x1 ![0] bcast_S50000_S50000x1_0 (rowSq x)))
      (broadcastInDim S50000x1 ![] bcast_S_S50000x1 (constant S_ .f32 0x2B8CBCCC#32))))

/-- 2 − 2·(normalised p row · normalised t row), per row. -/
def lossRow (p t : Mat F) : (⟨S50000, .f32⟩ : BufTy).Contents (Elt F) :=
  subf (broadcastInDim S50000 ![] bcast_S_S50000 (constant S_ .f32 0x40000000#32))
    (mulf (broadcastInDim S50000 ![] bcast_S_S50000 (constant S_ .f32 0x40000000#32))
      (Host.reduceAdd (mulf (l2n p) (l2n t)) (constant S_ .f32 0x00000000#32) reducesTo_S50000x128_S50000_d1 h_S_))

/-- The mean over the rows of the two row losses. -/
def lossOf (px tx py ty : Mat F) : (⟨S_, .f32⟩ : BufTy).Contents (Elt F) :=
  Host.divf (Host.reduceAdd (addf (lossRow px tx) (lossRow py ty)) (constant S_ .f32 0x00000000#32) reducesTo_S50000_S_d0 h_S_)
    (constant S_ .f32 0x47435000#32)

section Whole
variable (x perb : Mat F) (row col : EIdx F) (w : EW F) (Won : Wt F) (bon : V128 F) (Wtg : Wt F) (btg : V128 F)
  (W1 : Wt F) (b1 g beta : V128 F) (a : (⟨S1, .f32⟩ : BufTy).Contents (Elt F)) (W2 : Wt F) (b2 : V128 F)

/-- The perturbed features. -/
def x2 : Mat F := addf x perb

/-- The first result: the perturbed features plus their online graph convolution. -/
def embed : Mat F := addf (x2 x perb) (gcn (x2 x perb) Won bon row col w)

/-- The second result: the mean row loss of the two predictor outputs against the two targets. -/
def loss : (⟨S_, .f32⟩ : BufTy).Contents (Elt F) :=
  lossOf (predictor (gcn x Won bon row col w) W1 b1 g beta a W2 b2) (gcn (x2 x perb) Wtg btg row col w)
    (predictor (gcn (x2 x perb) Won bon row col w) W1 b1 g beta a W2 b2) (gcn x Wtg btg row col w)

end Whole

end Cert.Spec

end
-- ==== Proof.KChainA.lean ====
/-
  The idealized kernel program's buffers read at each boundary between its stretches of host operations and its kernel
  regions.  A stretch's result is its operation's function of the buffers before it; a region leaves its input arrays
  and every buffer that is not one of its arrays as it found them, and its output array at what its write-backs leave.
  Walking the boundaries from the launch memory, each live value is a whole-array function of the sixteen argument
  arrays: the perturbed features, the four dense products, their four graph convolutions, the two first predictor
  layers with their column means and variances, the two predictor outputs, the loss block and the two results.
-/
import proofs.«123214_j35218731827951_1_alg».proof.Proof.Gen.KernelIdeal.Frame
import proofs.«123214_j35218731827951_1_alg».proof.Proof.Gen.ReferenceIdeal
import proofs.«123214_j35218731827951_1_alg».proof.Proof.Spec
import Idealize.ShloMosaic.Lib.StableHlo.Run
import Idealize.ShloMosaic.Lib.ValueIdx

set_option maxRecDepth 16384
set_option maxHeartbeats 400000

noncomputable section

namespace Cert.KernelIdeal.KChain

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## Each window's array, by name -/

example : Pipeline.arrRef spec0 0 = main_v0 := rfl
example : Pipeline.arrRef spec0 1 = main_arg5 := rfl
example : Pipeline.arrRef spec0 2 = main_v1 := rfl
example : Pipeline.arrRef spec1 0 = main_arg0 := rfl
example : Pipeline.arrRef spec1 1 = main_arg5 := rfl
example : Pipeline.arrRef spec1 2 = main_v19 := rfl
example : Pipeline.arrRef spec2 0 = main_arg0 := rfl
example : Pipeline.arrRef spec2 1 = main_arg7 := rfl
example : Pipeline.arrRef spec2 2 = main_v36 := rfl
example : Pipeline.arrRef spec3 0 = main_v0 := rfl
example : Pipeline.arrRef spec3 1 = main_arg7 := rfl
example : Pipeline.arrRef spec3 2 = main_v53 := rfl
example : Pipeline.arrRef spec4 0 = main_v35 := rfl
example : Pipeline.arrRef spec4 1 = main_arg9 := rfl
example : Pipeline.arrRef spec4 2 = main_arg10 := rfl
example : Pipeline.arrRef spec4 3 = main_v71 := rfl
example : Pipeline.arrRef spec5 0 = main_v71 := rfl
example : Pipeline.arrRef spec5 1 = main_v74 := rfl
example : Pipeline.arrRef spec5 2 = main_v75 := rfl
example : Pipeline.arrRef spec5 3 = main_arg11 := rfl
example : Pipeline.arrRef spec5 4 = main_arg12 := rfl
example : Pipeline.arrRef spec5 5 = main_v70 := rfl
example : Pipeline.arrRef spec5 6 = main_arg14 := rfl
example : Pipeline.arrRef spec5 7 = main_arg15 := rfl
example : Pipeline.arrRef spec5 8 = main_v76 := rfl
example : Pipeline.arrRef spec6 0 = main_v17 := rfl
example : Pipeline.arrRef spec6 1 = main_arg9 := rfl
example : Pipeline.arrRef spec6 2 = main_arg10 := rfl
example : Pipeline.arrRef spec6 3 = main_v77 := rfl
example : Pipeline.arrRef spec7 0 = main_v77 := rfl
example : Pipeline.arrRef spec7 1 = main_v80 := rfl
example : Pipeline.arrRef spec7 2 = main_v81 := rfl
example : Pipeline.arrRef spec7 3 = main_arg11 := rfl
example : Pipeline.arrRef spec7 4 = main_arg12 := rfl
example : Pipeline.arrRef spec7 5 = main_v70 := rfl
example : Pipeline.arrRef spec7 6 = main_arg14 := rfl
example : Pipeline.arrRef spec7 7 = main_arg15 := rfl
example : Pipeline.arrRef spec7 8 = main_v82 := rfl
example : Pipeline.arrRef spec8 0 = main_v76 := rfl
example : Pipeline.arrRef spec8 1 = main_v69 := rfl
example : Pipeline.arrRef spec8 2 = main_v82 := rfl
example : Pipeline.arrRef spec8 3 = main_v52 := rfl
example : Pipeline.arrRef spec8 4 = main_v83 := rfl

/-! ## A region leaves what is not its array, and its input arrays, as it found them -/

theorem W2_ne' (b : Ref sig .tc) (hb : ∀ w, Pipeline.arrRef spec0 w ≠ b) :
    W2 m ρ c (no_index (Proc.devRef .tc b)) = W1 m ρ c (Proc.devRef .tc b) := W2_of_ne m ρ c b hb
theorem W4_ne' (b : Ref sig .tc) (hb : ∀ w, Pipeline.arrRef spec1 w ≠ b) :
    W4 m ρ c (no_index (Proc.devRef .tc b)) = W3 m ρ c (Proc.devRef .tc b) := W4_of_ne m ρ c b hb
theorem W6_ne' (b : Ref sig .tc) (hb : ∀ w, Pipeline.arrRef spec2 w ≠ b) :
    W6 m ρ c (no_index (Proc.devRef .tc b)) = W5 m ρ c (Proc.devRef .tc b) := W6_of_ne m ρ c b hb
theorem W8_ne' (b : Ref sig .tc) (hb : ∀ w, Pipeline.arrRef spec3 w ≠ b) :
    W8 m ρ c (no_index (Proc.devRef .tc b)) = W7 m ρ c (Proc.devRef .tc b) := W8_of_ne m ρ c b hb
theorem W10_ne' (b : Ref sig .tc) (hb : ∀ w, Pipeline.arrRef spec4 w ≠ b) :
    W10 m ρ c (no_index (Proc.devRef .tc b)) = W9 m ρ c (Proc.devRef .tc b) := W10_of_ne m ρ c b hb
theorem W13_ne' (b : Ref sig .tc) (hb : ∀ w, Pipeline.arrRef spec5 w ≠ b) :
    W13 m ρ c (no_index (Proc.devRef .tc b)) = W12 m ρ c (Proc.devRef .tc b) := W13_of_ne m ρ c b hb
theorem W14_ne' (b : Ref sig .tc) (hb : ∀ w, Pipeline.arrRef spec6 w ≠ b) :
    W14 m ρ c (no_index (Proc.devRef .tc b)) = W13 m ρ c (Proc.devRef .tc b) := W14_of_ne m ρ c b hb
theorem W17_ne' (b : Ref sig .tc) (hb : ∀ w, Pipeline.arrRef spec7 w ≠ b) :
    W17 m ρ c (no_index (Proc.devRef .tc b)) = W16 m ρ c (Proc.devRef .tc b) := W17_of_ne m ρ c b hb
theorem W18_ne' (b : Ref sig .tc) (hb : ∀ w, Pipeline.arrRef spec8 w ≠ b) :
    W18 m ρ c (no_index (Proc.devRef .tc b)) = W17 m ρ c (Proc.devRef .tc b) := W18_of_ne m ρ c b hb

theorem W2_in0 : W2 m ρ c (no_index (Proc.devRef .tc main_v0)) = W1 m ρ c (Proc.devRef .tc main_v0) :=
  (W2_arr m ρ c 0).trans (((dat0 (V1 m ρ) c).arrAt_in 0 rfl _).trans (A_eq0 (V1 m ρ) c 0))
theorem W2_in1 : W2 m ρ c (no_index (Proc.devRef .tc main_arg5)) = W1 m ρ c (Proc.devRef .tc main_arg5) :=
  (W2_arr m ρ c 1).trans (((dat0 (V1 m ρ) c).arrAt_in 1 rfl _).trans (A_eq0 (V1 m ρ) c 1))
theorem W4_in0 : W4 m ρ c (no_index (Proc.devRef .tc main_arg0)) = W3 m ρ c (Proc.devRef .tc main_arg0) :=
  (W4_arr m ρ c 0).trans (((dat1 (V3 m ρ) c).arrAt_in 0 rfl _).trans (A_eq1 (V3 m ρ) c 0))
theorem W4_in1 : W4 m ρ c (no_index (Proc.devRef .tc main_arg5)) = W3 m ρ c (Proc.devRef .tc main_arg5) :=
  (W4_arr m ρ c 1).trans (((dat1 (V3 m ρ) c).arrAt_in 1 rfl _).trans (A_eq1 (V3 m ρ) c 1))
theorem W6_in0 : W6 m ρ c (no_index (Proc.devRef .tc main_arg0)) = W5 m ρ c (Proc.devRef .tc main_arg0) :=
  (W6_arr m ρ c 0).trans (((dat2 (V5 m ρ) c).arrAt_in 0 rfl _).trans (A_eq2 (V5 m ρ) c 0))
theorem W6_in1 : W6 m ρ c (no_index (Proc.devRef .tc main_arg7)) = W5 m ρ c (Proc.devRef .tc main_arg7) :=
  (W6_arr m ρ c 1).trans (((dat2 (V5 m ρ) c).arrAt_in 1 rfl _).trans (A_eq2 (V5 m ρ) c 1))
theorem W8_in0 : W8 m ρ c (no_index (Proc.devRef .tc main_v0)) = W7 m ρ c (Proc.devRef .tc main_v0) :=
  (W8_arr m ρ c 0).trans (((dat3 (V7 m ρ) c).arrAt_in 0 rfl _).trans (A_eq3 (V7 m ρ) c 0))
theorem W8_in1 : W8 m ρ c (no_index (Proc.devRef .tc main_arg7)) = W7 m ρ c (Proc.devRef .tc main_arg7) :=
  (W8_arr m ρ c 1).trans (((dat3 (V7 m ρ) c).arrAt_in 1 rfl _).trans (A_eq3 (V7 m ρ) c 1))
theorem W10_in0 : W10 m ρ c (no_index (Proc.devRef .tc main_v35)) = W9 m ρ c (Proc.devRef .tc main_v35) :=
  (W10_arr m ρ c 0).trans (((dat4 (V9 m ρ) c).arrAt_in 0 rfl _).trans (A_eq4 (V9 m ρ) c 0))
theorem W10_in1 : W10 m ρ c (no_index (Proc.devRef .tc main_arg9)) = W9 m ρ c (Proc.devRef .tc main_arg9) :=
  (W10_arr m ρ c 1).trans (((dat4 (V9 m ρ) c).arrAt_in 1 rfl _).trans (A_eq4 (V9 m ρ) c 1))
theorem W10_in2 : W10 m ρ c (no_index (Proc.devRef .tc main_arg10)) = W9 m ρ c (Proc.devRef .tc main_arg10) :=
  (W10_arr m ρ c 2).trans (((dat4 (V9 m ρ) c).arrAt_in 2 rfl _).trans (A_eq4 (V9 m ρ) c 2))
theorem W13_in0 : W13 m ρ c (no_index (Proc.devRef .tc main_v71)) = W12 m ρ c (Proc.devRef .tc main_v71) :=
  (W13_arr m ρ c 0).trans (((dat5 (V12 m ρ) c).arrAt_in 0 rfl _).trans (A_eq5 (V12 m ρ) c 0))
theorem W13_in1 : W13 m ρ c (no_index (Proc.devRef .tc main_v74)) = W12 m ρ c (Proc.devRef .tc main_v74) :=
  (W13_arr m ρ c 1).trans (((dat5 (V12 m ρ) c).arrAt_in 1 rfl _).trans (A_eq5 (V12 m ρ) c 1))
theorem W13_in2 : W13 m ρ c (no_index (Proc.devRef .tc main_v75)) = W12 m ρ c (Proc.devRef .tc main_v75) :=
  (W13_arr m ρ c 2).trans (((dat5 (V12 m ρ) c).arrAt_in 2 rfl _).trans (A_eq5 (V12 m ρ) c 2))
theorem W13_in3 : W13 m ρ c (no_index (Proc.devRef .tc main_arg11)) = W12 m ρ c (Proc.devRef .tc main_arg11) :=
  (W13_arr m ρ c 3).trans (((dat5 (V12 m ρ) c).arrAt_in 3 rfl _).trans (A_eq5 (V12 m ρ) c 3))
theorem W13_in4 : W13 m ρ c (no_index (Proc.devRef .tc main_arg12)) = W12 m ρ c (Proc.devRef .tc main_arg12) :=
  (W13_arr m ρ c 4).trans (((dat5 (V12 m ρ) c).arrAt_in 4 rfl _).trans (A_eq5 (V12 m ρ) c 4))
theorem W13_in5 : W13 m ρ c (no_index (Proc.devRef .tc main_v70)) = W12 m ρ c (Proc.devRef .tc main_v70) :=
  (W13_arr m ρ c 5).trans (((dat5 (V12 m ρ) c).arrAt_in 5 rfl _).trans (A_eq5 (V12 m ρ) c 5))
theorem W13_in6 : W13 m ρ c (no_index (Proc.devRef .tc main_arg14)) = W12 m ρ c (Proc.devRef .tc main_arg14) :=
  (W13_arr m ρ c 6).trans (((dat5 (V12 m ρ) c).arrAt_in 6 rfl _).trans (A_eq5 (V12 m ρ) c 6))
theorem W13_in7 : W13 m ρ c (no_index (Proc.devRef .tc main_arg15)) = W12 m ρ c (Proc.devRef .tc main_arg15) :=
  (W13_arr m ρ c 7).trans (((dat5 (V12 m ρ) c).arrAt_in 7 rfl _).trans (A_eq5 (V12 m ρ) c 7))
theorem W14_in0 : W14 m ρ c (no_index (Proc.devRef .tc main_v17)) = W13 m ρ c (Proc.devRef .tc main_v17) :=
  (W14_arr m ρ c 0).trans (((dat6 (V13 m ρ) c).arrAt_in 0 rfl _).trans (A_eq6 (V13 m ρ) c 0))
theorem W14_in1 : W14 m ρ c (no_index (Proc.devRef .tc main_arg9)) = W13 m ρ c (Proc.devRef .tc main_arg9) :=
  (W14_arr m ρ c 1).trans (((dat6 (V13 m ρ) c).arrAt_in 1 rfl _).trans (A_eq6 (V13 m ρ) c 1))
theorem W14_in2 : W14 m ρ c (no_index (Proc.devRef .tc main_arg10)) = W13 m ρ c (Proc.devRef .tc main_arg10) :=
  (W14_arr m ρ c 2).trans (((dat6 (V13 m ρ) c).arrAt_in 2 rfl _).trans (A_eq6 (V13 m ρ) c 2))
theorem W17_in0 : W17 m ρ c (no_index (Proc.devRef .tc main_v77)) = W16 m ρ c (Proc.devRef .tc main_v77) :=
  (W17_arr m ρ c 0).trans (((dat7 (V16 m ρ) c).arrAt_in 0 rfl _).trans (A_eq7 (V16 m ρ) c 0))
theorem W17_in1 : W17 m ρ c (no_index (Proc.devRef .tc main_v80)) = W16 m ρ c (Proc.devRef .tc main_v80) :=
  (W17_arr m ρ c 1).trans (((dat7 (V16 m ρ) c).arrAt_in 1 rfl _).trans (A_eq7 (V16 m ρ) c 1))
theorem W17_in2 : W17 m ρ c (no_index (Proc.devRef .tc main_v81)) = W16 m ρ c (Proc.devRef .tc main_v81) :=
  (W17_arr m ρ c 2).trans (((dat7 (V16 m ρ) c).arrAt_in 2 rfl _).trans (A_eq7 (V16 m ρ) c 2))
theorem W17_in3 : W17 m ρ c (no_index (Proc.devRef .tc main_arg11)) = W16 m ρ c (Proc.devRef .tc main_arg11) :=
  (W17_arr m ρ c 3).trans (((dat7 (V16 m ρ) c).arrAt_in 3 rfl _).trans (A_eq7 (V16 m ρ) c 3))
theorem W17_in4 : W17 m ρ c (no_index (Proc.devRef .tc main_arg12)) = W16 m ρ c (Proc.devRef .tc main_arg12) :=
  (W17_arr m ρ c 4).trans (((dat7 (V16 m ρ) c).arrAt_in 4 rfl _).trans (A_eq7 (V16 m ρ) c 4))
theorem W17_in5 : W17 m ρ c (no_index (Proc.devRef .tc main_v70)) = W16 m ρ c (Proc.devRef .tc main_v70) :=
  (W17_arr m ρ c 5).trans (((dat7 (V16 m ρ) c).arrAt_in 5 rfl _).trans (A_eq7 (V16 m ρ) c 5))
theorem W17_in6 : W17 m ρ c (no_index (Proc.devRef .tc main_arg14)) = W16 m ρ c (Proc.devRef .tc main_arg14) :=
  (W17_arr m ρ c 6).trans (((dat7 (V16 m ρ) c).arrAt_in 6 rfl _).trans (A_eq7 (V16 m ρ) c 6))
theorem W17_in7 : W17 m ρ c (no_index (Proc.devRef .tc main_arg15)) = W16 m ρ c (Proc.devRef .tc main_arg15) :=
  (W17_arr m ρ c 7).trans (((dat7 (V16 m ρ) c).arrAt_in 7 rfl _).trans (A_eq7 (V16 m ρ) c 7))
theorem W18_in0 : W18 m ρ c (no_index (Proc.devRef .tc main_v76)) = W17 m ρ c (Proc.devRef .tc main_v76) :=
  (W18_arr m ρ c 0).trans (((dat8 (V17 m ρ) c).arrAt_in 0 rfl _).trans (A_eq8 (V17 m ρ) c 0))
theorem W18_in1 : W18 m ρ c (no_index (Proc.devRef .tc main_v69)) = W17 m ρ c (Proc.devRef .tc main_v69) :=
  (W18_arr m ρ c 1).trans (((dat8 (V17 m ρ) c).arrAt_in 1 rfl _).trans (A_eq8 (V17 m ρ) c 1))
theorem W18_in2 : W18 m ρ c (no_index (Proc.devRef .tc main_v82)) = W17 m ρ c (Proc.devRef .tc main_v82) :=
  (W18_arr m ρ c 2).trans (((dat8 (V17 m ρ) c).arrAt_in 2 rfl _).trans (A_eq8 (V17 m ρ) c 2))
theorem W18_in3 : W18 m ρ c (no_index (Proc.devRef .tc main_v52)) = W17 m ρ c (Proc.devRef .tc main_v52) :=
  (W18_arr m ρ c 3).trans (((dat8 (V17 m ρ) c).arrAt_in 3 rfl _).trans (A_eq8 (V17 m ρ) c 3))

/-- The launch memory at a TensorCore buffer. -/
theorem W0_at (b : Ref sig .tc) : W0 m ρ c (no_index (Proc.devRef .tc b)) = m ((c : Thread nD τ).loc b) := rfl

/-! ## A stretch leaves every buffer it does not write as it found it -/

theorem W1_skip (b : Ref sig .tc) (hb : b ∉ ([main_v0] : List (Ref sig .tc))) :
    W1 m ρ c (no_index (Proc.devRef .tc b)) = W0 m ρ c (Proc.devRef .tc b) := by
  have hne : ∀ r ∈ ([main_v0] : List (Ref sig .tc)), b ≠ r := fun r hr e => hb (e ▸ hr)
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W3_skip (b : Ref sig .tc) (hb : b ∉ ([main_c, main_v2, main_v3, main_c_0, main_v4, main_v5, main_v6, main_v7, main_v8, main_v9, main_v10, main_v11, main_cst, main_v12, main_v13, main_v14, main_v15, main_v16, main_v17, main_v18] : List (Ref sig .tc))) :
    W3 m ρ c (no_index (Proc.devRef .tc b)) = W2 m ρ c (Proc.devRef .tc b) := by
  have hne : ∀ r ∈ ([main_c, main_v2, main_v3, main_c_0, main_v4, main_v5, main_v6, main_v7, main_v8, main_v9, main_v10, main_v11, main_cst, main_v12, main_v13, main_v14, main_v15, main_v16, main_v17, main_v18] : List (Ref sig .tc)), b ≠ r := fun r hr e => hb (e ▸ hr)
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W5_skip (b : Ref sig .tc) (hb : b ∉ ([main_c_1, main_v20, main_v21, main_c_2, main_v22, main_v23, main_v24, main_v25, main_v26, main_v27, main_v28, main_v29, main_cst_3, main_v30, main_v31, main_v32, main_v33, main_v34, main_v35] : List (Ref sig .tc))) :
    W5 m ρ c (no_index (Proc.devRef .tc b)) = W4 m ρ c (Proc.devRef .tc b) := by
  have hne : ∀ r ∈ ([main_c_1, main_v20, main_v21, main_c_2, main_v22, main_v23, main_v24, main_v25, main_v26, main_v27, main_v28, main_v29, main_cst_3, main_v30, main_v31, main_v32, main_v33, main_v34, main_v35] : List (Ref sig .tc)), b ≠ r := fun r hr e => hb (e ▸ hr)
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W7_skip (b : Ref sig .tc) (hb : b ∉ ([main_c_4, main_v37, main_v38, main_c_5, main_v39, main_v40, main_v41, main_v42, main_v43, main_v44, main_v45, main_v46, main_cst_6, main_v47, main_v48, main_v49, main_v50, main_v51, main_v52] : List (Ref sig .tc))) :
    W7 m ρ c (no_index (Proc.devRef .tc b)) = W6 m ρ c (Proc.devRef .tc b) := by
  have hne : ∀ r ∈ ([main_c_4, main_v37, main_v38, main_c_5, main_v39, main_v40, main_v41, main_v42, main_v43, main_v44, main_v45, main_v46, main_cst_6, main_v47, main_v48, main_v49, main_v50, main_v51, main_v52] : List (Ref sig .tc)), b ≠ r := fun r hr e => hb (e ▸ hr)
  refine StableHlo.after_of_forall_not_mem (b := Proc.devRef .tc b) _ _ (List.forall_iff_forall_mem.mp ?_)
  simp only [hostOps3, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W9_skip (b : Ref sig .tc) (hb : b ∉ ([main_c_7, main_v54, main_v55, main_c_8, main_v56, main_v57, main_v58, main_v59, main_v60, main_v61, main_v62, main_v63, main_cst_9, main_v64, main_v65, main_v66, main_v67, main_v68, main_v69, main_v70] : List (Ref sig .tc))) :
    W9 m ρ c (no_index (Proc.devRef .tc b)) = W8 m ρ c (Proc.devRef .tc b) := by
  have hne : ∀ r ∈ ([main_c_7, main_v54, main_v55, main_c_8, main_v56, main_v57, main_v58, main_v59, main_v60, main_v61, main_v62, main_v63, main_cst_9, main_v64, main_v65, main_v66, main_v67, main_v68, main_v69, main_v70] : List (Ref sig .tc)), b ≠ r := fun r hr e => hb (e ▸ hr)
  refine StableHlo.after_of_forall_not_mem (b := Proc.devRef .tc b) _ _ (List.forall_iff_forall_mem.mp ?_)
  simp only [hostOps4, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W11_skip (b : Ref sig .tc) (hb : b ∉ ([main_cst_10, main_v72, main_cst_11, main_v73, main_v74, main_c_12] : List (Ref sig .tc))) :
    W11 m ρ c (no_index (Proc.devRef .tc b)) = W10 m ρ c (Proc.devRef .tc b) := by
  have hne : ∀ r ∈ ([main_cst_10, main_v72, main_cst_11, main_v73, main_v74, main_c_12] : List (Ref sig .tc)), b ≠ r := fun r hr e => hb (e ▸ hr)
  refine StableHlo.after_of_forall_not_mem (b := Proc.devRef .tc b) _ _ (List.forall_iff_forall_mem.mp ?_)
  simp only [hostOps5, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W12_skip (b : Ref sig .tc) (hb : b ∉ ([main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v75] : List (Ref sig .tc))) :
    W12 m ρ c (no_index (Proc.devRef .tc b)) = W11 m ρ c (Proc.devRef .tc b) := by
  have hne : ∀ r ∈ ([main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v75] : List (Ref sig .tc)), b ≠ r := fun r hr e => hb (e ▸ hr)
  refine StableHlo.after_of_forall_not_mem (b := Proc.devRef .tc b) _ _ (List.forall_iff_forall_mem.mp ?_)
  simp only [hostOps5_1, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W15_skip (b : Ref sig .tc) (hb : b ∉ ([main_cst_13, main_v78, main_cst_14, main_v79, main_v80, main_c_15] : List (Ref sig .tc))) :
    W15 m ρ c (no_index (Proc.devRef .tc b)) = W14 m ρ c (Proc.devRef .tc b) := by
  have hne : ∀ r ∈ ([main_cst_13, main_v78, main_cst_14, main_v79, main_v80, main_c_15] : List (Ref sig .tc)), b ≠ r := fun r hr e => hb (e ▸ hr)
  refine StableHlo.after_of_forall_not_mem (b := Proc.devRef .tc b) _ _ (List.forall_iff_forall_mem.mp ?_)
  simp only [hostOps7, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W16_skip (b : Ref sig .tc) (hb : b ∉ ([main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v81] : List (Ref sig .tc))) :
    W16 m ρ c (no_index (Proc.devRef .tc b)) = W15 m ρ c (Proc.devRef .tc b) := by
  have hne : ∀ r ∈ ([main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v81] : List (Ref sig .tc)), b ≠ r := fun r hr e => hb (e ▸ hr)
  refine StableHlo.after_of_forall_not_mem (b := Proc.devRef .tc b) _ _ (List.forall_iff_forall_mem.mp ?_)
  simp only [hostOps7_1, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))
theorem W19_skip (b : Ref sig .tc) (hb : b ∉ ([main_v84, main_v85, main_cst_16, main_v86] : List (Ref sig .tc))) :
    W19 m ρ c (no_index (Proc.devRef .tc b)) = W18 m ρ c (Proc.devRef .tc b) := by
  have hne : ∀ r ∈ ([main_v84, main_v85, main_cst_16, main_v86] : List (Ref sig .tc)), b ≠ r := fun r hr e => hb (e ▸ hr)
  refine StableHlo.after_of_forall_not_mem (b := Proc.devRef .tc b) _ _ (List.forall_iff_forall_mem.mp ?_)
  simp only [hostOps9, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (hne _ (by decide))

theorem W1_open (b : DevRef τ sig) : W1 m ρ c b = StableHlo.after hostOps0 (W0 m ρ c) b := rfl
theorem W3_open (b : DevRef τ sig) : W3 m ρ c b = StableHlo.after hostOps1 (W2 m ρ c) b := rfl
theorem W5_open (b : DevRef τ sig) : W5 m ρ c b = StableHlo.after hostOps2 (W4 m ρ c) b := rfl
theorem W7_open (b : DevRef τ sig) : W7 m ρ c b = StableHlo.after hostOps3 (W6 m ρ c) b := rfl
theorem W9_open (b : DevRef τ sig) : W9 m ρ c b = StableHlo.after hostOps4 (W8 m ρ c) b := rfl
theorem W11_open (b : DevRef τ sig) : W11 m ρ c b = StableHlo.after hostOps5 (W10 m ρ c) b := rfl
theorem W12_open (b : DevRef τ sig) : W12 m ρ c b = StableHlo.after hostOps5_1 (W11 m ρ c) b := rfl
theorem W15_open (b : DevRef τ sig) : W15 m ρ c b = StableHlo.after hostOps7 (W14 m ρ c) b := rfl
theorem W16_open (b : DevRef τ sig) : W16 m ρ c b = StableHlo.after hostOps7_1 (W15 m ρ c) b := rfl
theorem W19_open (b : DevRef τ sig) : W19 m ρ c b = StableHlo.after hostOps9 (W18 m ρ c) b := rfl

/-- Read a buffer at a boundary back through the stretches (each operation's result at its own buffer, what was
    there at any other) and through the regions (inputs and foreign buffers as found), down to the launch memory and
    the regions' output arrays. -/
macro "kread" : tactic =>
  `(tactic| simp (disch := decide) only [↓W1_skip, ↓W3_skip, ↓W5_skip, ↓W7_skip, ↓W9_skip, ↓W11_skip, ↓W12_skip, ↓W15_skip, ↓W16_skip, ↓W19_skip,
      W1_open, W3_open, W5_open, W7_open, W9_open, W11_open, W12_open, W15_open, W16_open, W19_open,
      hostOps0, hostOps1, hostOps2, hostOps3, hostOps4, hostOps5, hostOps5_1, hostOps7, hostOps7_1, hostOps9,
      StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne',
      W2_ne', W4_ne', W6_ne', W8_ne', W10_ne', W13_ne', W14_ne', W17_ne', W18_ne',
      W2_in0, W2_in1, W4_in0, W4_in1, W6_in0, W6_in1, W8_in0, W8_in1, W10_in0, W10_in1, W10_in2, W13_in0, W13_in1, W13_in2, W13_in3, W13_in4, W13_in5, W13_in6, W13_in7, W14_in0, W14_in1, W14_in2, W17_in0, W17_in1, W17_in2, W17_in3, W17_in4, W17_in5, W17_in6, W17_in7, W18_in0, W18_in1, W18_in2, W18_in3, W0_at])

/-! ## The values -/

section Values

/-- The sixteen argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)
abbrev A14 := m ((c : Thread nD τ).loc main_arg14)
abbrev A15 := m ((c : Thread nD τ).loc main_arg15)

/-- The perturbed features x + perb. -/
def kx2 := Cert.Spec.x2 (F := Ideal) (A0 m c) (A1 m c)
/-- The four dense products: x₂·W_on, x·W_on, x·W_tg, x₂·W_tg. -/
def kh0 := Cert.Spec.mm (F := Ideal) (kx2 m c) (A5 m c)
def kh1 := Cert.Spec.mm (F := Ideal) (A0 m c) (A5 m c)
def kh2 := Cert.Spec.mm (F := Ideal) (A0 m c) (A7 m c)
def kh3 := Cert.Spec.mm (F := Ideal) (kx2 m c) (A7 m c)
/-- Their graph convolutions: online on x₂ and on x, target on x and on x₂. -/
def k17 := Cert.Spec.gcnOf (F := Ideal) (kh0 m c) (A6 m c) (A2 m c) (A3 m c) (A4 m c)
def k35 := Cert.Spec.gcnOf (F := Ideal) (kh1 m c) (A6 m c) (A2 m c) (A3 m c) (A4 m c)
def k52 := Cert.Spec.gcnOf (F := Ideal) (kh2 m c) (A8 m c) (A2 m c) (A3 m c) (A4 m c)
def k69 := Cert.Spec.gcnOf (F := Ideal) (kh3 m c) (A8 m c) (A2 m c) (A3 m c) (A4 m c)
/-- The first result. -/
def k18 := Cert.Spec.embed (F := Ideal) (A0 m c) (A1 m c) (A2 m c) (A3 m c) (A4 m c) (A5 m c) (A6 m c)
/-- The shared slope spread over the 128 columns. -/
def k70 : (⟨S128, .f32⟩ : BufTy).Contents (Elt Ideal) := broadcastInDim S128 ![0] Facts₀.bcast_S1_S128_0 (A13 m c)
/-- The two first predictor layers, their column means and variances. -/
def k71 := Cert.Spec.lin (F := Ideal) (k35 m c) (A9 m c) (A10 m c)
def k77 := Cert.Spec.lin (F := Ideal) (k17 m c) (A9 m c) (A10 m c)
def k74 := Cert.Spec.mean (F := Ideal) (k71 m c)
def k75 := Cert.Spec.var (F := Ideal) (k71 m c)
def k80 := Cert.Spec.mean (F := Ideal) (k77 m c)
def k81 := Cert.Spec.var (F := Ideal) (k77 m c)
/-- The two predictor outputs, in the kernel's spelling. -/
def k76 := Cert.Spec.tailK (F := Ideal) (k71 m c) (k74 m c) (k75 m c) (A11 m c) (A12 m c) (k70 m c) (A14 m c) (A15 m c)
def k82 := Cert.Spec.tailK (F := Ideal) (k77 m c) (k80 m c) (k81 m c) (A11 m c) (A12 m c) (k70 m c) (A14 m c) (A15 m c)

/-! The argument arrays at the regions' entries. -/
theorem W1_a5 : W1 m ρ c (Proc.devRef .tc main_arg5) = A5 m c := by
  kread
theorem W3_a0 : W3 m ρ c (Proc.devRef .tc main_arg0) = A0 m c := by
  kread
theorem W3_a5 : W3 m ρ c (Proc.devRef .tc main_arg5) = A5 m c := by
  kread
theorem W5_a0 : W5 m ρ c (Proc.devRef .tc main_arg0) = A0 m c := by
  kread
theorem W5_a7 : W5 m ρ c (Proc.devRef .tc main_arg7) = A7 m c := by
  kread
theorem W7_a7 : W7 m ρ c (Proc.devRef .tc main_arg7) = A7 m c := by
  kread
theorem W9_a9 : W9 m ρ c (Proc.devRef .tc main_arg9) = A9 m c := by
  kread
theorem W9_a10 : W9 m ρ c (Proc.devRef .tc main_arg10) = A10 m c := by
  kread
theorem W12_a11 : W12 m ρ c (Proc.devRef .tc main_arg11) = A11 m c := by
  kread
theorem W12_a12 : W12 m ρ c (Proc.devRef .tc main_arg12) = A12 m c := by
  kread
theorem W12_a14 : W12 m ρ c (Proc.devRef .tc main_arg14) = A14 m c := by
  kread
theorem W12_a15 : W12 m ρ c (Proc.devRef .tc main_arg15) = A15 m c := by
  kread
theorem W13_a9 : W13 m ρ c (Proc.devRef .tc main_arg9) = A9 m c := by
  kread
theorem W13_a10 : W13 m ρ c (Proc.devRef .tc main_arg10) = A10 m c := by
  kread
theorem W16_a11 : W16 m ρ c (Proc.devRef .tc main_arg11) = A11 m c := by
  kread
theorem W16_a12 : W16 m ρ c (Proc.devRef .tc main_arg12) = A12 m c := by
  kread
theorem W16_a14 : W16 m ρ c (Proc.devRef .tc main_arg14) = A14 m c := by
  kread
theorem W16_a15 : W16 m ρ c (Proc.devRef .tc main_arg15) = A15 m c := by
  kread

end Values

end Cert.KernelIdeal.KChain

end
-- ==== Proof.RegionFns.lean ====
/-
  The values the eight dense regions leave, written entry by entry over literal shapes: a dense product of a
  50000×128 array with a 128×128 weight; the same plus a bias row; and the predictor's tail, in which each entry of
  the first layer is normalised by its column's mean and variance with a reciprocal square root, scaled, shifted and
  passed through a leaky rectifier before the second dense layer.
-/
import Idealize.ShloMosaic.PureOps.Ideal
import Idealize.ShloMosaic.Lib.ValueIdx

noncomputable section

open scoped BigOperators
open Idealize.ShloMosaic Idealize.ShloMosaic.ValueIdx

namespace Cert.KernelIdeal.RegionVal

/-- The dense product of a 50000×128 array and a 128×128 weight, entry by entry. -/
def Gmm (a : (⟨2, ![50000, 128]⟩ : Shape).Idx → EReal) (w : (⟨2, ![128, 128]⟩ : Shape).Idx → EReal) :
    (⟨2, ![50000, 128]⟩ : Shape).Idx → EReal :=
  fun i => ∑ k : Fin 128, a (ix2 (i 0) k) * w (ix2 k (i 1))

/-- The dense product plus a bias row, entry by entry. -/
def Glin (a : (⟨2, ![50000, 128]⟩ : Shape).Idx → EReal) (w : (⟨2, ![128, 128]⟩ : Shape).Idx → EReal)
    (b : (⟨1, ![128]⟩ : Shape).Idx → EReal) : (⟨2, ![50000, 128]⟩ : Shape).Idx → EReal :=
  fun i => (∑ k : Fin 128, a (ix2 (i 0) k) * w (ix2 k (i 1))) + b (ix1 (i 1))

/-- One entry `h` of the first layer, normalised by its column's mean `mu` and variance `va` with a reciprocal square
    root, scaled by `g` and shifted by `beta`, then kept where positive and multiplied by the column's slope `a`
    elsewhere. -/
def actS (h mu va g beta a : EReal) : EReal :=
  Scalar.select
    (FloatOps.cmpf (F := Ideal) (φ := .f32) .ogt
      ((h - mu) * Ideal.rsqrt (va + Ideal.ofBits .f32 0x3727C5AC#32) * g + beta) (Ideal.ofBits .f32 0x00000000#32))
    ((h - mu) * Ideal.rsqrt (va + Ideal.ofBits .f32 0x3727C5AC#32) * g + beta)
    (a * ((h - mu) * Ideal.rsqrt (va + Ideal.ofBits .f32 0x3727C5AC#32) * g + beta))

/-- The predictor's tail, entry by entry: the activated row against the second weight's column, plus the bias. -/
def Gtail (h : (⟨2, ![50000, 128]⟩ : Shape).Idx → EReal) (mu va g beta a : (⟨1, ![128]⟩ : Shape).Idx → EReal)
    (w : (⟨2, ![128, 128]⟩ : Shape).Idx → EReal) (b : (⟨1, ![128]⟩ : Shape).Idx → EReal) :
    (⟨2, ![50000, 128]⟩ : Shape).Idx → EReal :=
  fun i => (∑ k : Fin 128, actS (h (ix2 (i 0) k)) (mu (ix1 k)) (va (ix1 k)) (g (ix1 k)) (beta (ix1 k)) (a (ix1 k)) * w (ix2 k (i 1)))
    + b (ix1 (i 1))

/-- The reciprocal square root of a vector, read at an entry. -/
theorem rsqrt_apply {s : Shape} {φ : FTy} (v : FVec Ideal s φ) (i : s.Idx) : rsqrt v i = Ideal.rsqrt (v i) := rfl

end Cert.KernelIdeal.RegionVal
-- ==== Proof.RegionOps.lean ====
/-
  The arithmetic of the eight dense kernels' bodies, read at one entry of the stored 5000×128 block: a block product
  into a zero accumulator is the sum over the 128 contracted positions; a vector cast to a row and repeated down the
  block is the vector at the entry's column; the rest of each body is pointwise.
-/
import proofs.«123214_j35218731827951_1_alg».proof.Proof.Gen.KernelIdeal.Skeleton
import proofs.«123214_j35218731827951_1_alg».proof.Proof.RegionFns
import Idealize.ShloMosaic.Lib.ValueIdx
import Idealize.ShloMosaic.Lib.Pipeline.Value
import Idealize.ShloMosaic.Lib.KernelVsHost
import Idealize.ShloMosaic.PureOps.Ideal.Laws

noncomputable section

open scoped BigOperators
open Idealize.ShloMosaic Idealize.ShloMosaic.ValueIdx

namespace Cert.KernelIdeal.RegionVal

open Cert.KernelIdeal Cert.KernelIdeal.Gen

/-! The kernel's dimension record for a 5000×128 block against a 128×128 weight: its operand indices, coordinate by
    coordinate. -/

theorem lhsK_0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl
theorem lhsK_1 (i : S5000x128.Idx) (q : (dot_S5000x128_S128x128_S5000x128_1_0_0_1_n_n).contr.Idx) :
    ((dot_S5000x128_S128x128_S5000x128_1_0_0_1_n_n).lhsIdx i q 1).val = (q ⟨0, by decide⟩).val :=
  (dot_S5000x128_S128x128_S5000x128_1_0_0_1_n_n).lhsIdx_val_of_single rfl i q
theorem rhsK_0 (i : S5000x128.Idx) (q : (dot_S5000x128_S128x128_S5000x128_1_0_0_1_n_n).contr.Idx) :
    ((dot_S5000x128_S128x128_S5000x128_1_0_0_1_n_n).rhsIdx i q 0).val = (q ⟨0, by decide⟩).val :=
  (dot_S5000x128_S128x128_S5000x128_1_0_0_1_n_n).rhsIdx_val_of_single rfl i q
theorem rhsK_1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The block product into a zero accumulator, read at an entry: row `p` of the left block against column `q` of the
    weight, summed over the 128 contracted positions. -/
theorem matmulK_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q) ((contrEquiv1 dot_S5000x128_S128x128_S5000x128_1_0_0_1_n_n 128 rfl rfl).symm k) = ix2 p k :=
    funext fun a => Fin.ext (by
      match a with
      | ⟨0, _⟩ => exact lhsK_0 _ _
      | ⟨1, _⟩ => exact (lhsK_1 _ _).trans hk)
  have er : (dot_S5000x128_S128x128_S5000x128_1_0_0_1_n_n).rhsIdx (ix2 p q) ((contrEquiv1 dot_S5000x128_S128x128_S5000x128_1_0_0_1_n_n 128 rfl rfl).symm k) = ix2 k q :=
    funext fun a => Fin.ext (by
      match a with
      | ⟨0, _⟩ => exact (rhsK_0 _ _).trans hk
      | ⟨1, _⟩ => exact rhsK_1 _ _)
  rw [el, er]

/-- A 128-vector cast to one row and repeated down the block's 5000 rows, read at an entry, is the vector at the
    entry's column. -/
theorem rowK_apply (v : FVec Ideal S128 .f32) (p : Fin 5000) (q : Fin 128) :
    broadcastTo S5000x128 (shapeCast S1x128 v shapeCasts_S128_S1x128) broadcasts_S1x128_S5000x128 (ix2 p q) = v (ix1 q) := by
  rw [broadcastTo_row_eq_broadcastInDim v shapeCasts_S128_S1x128 broadcasts_S1x128_S5000x128 (by decide)]
  refine broadcastInDim_apply ![1] _ v (ix2 p q) (ix1 q) ?_
  intro a
  match a with
  | ⟨0, _⟩ => rfl

/-- The zero offsets of a whole-buffer access, as a function. -/
theorem hz2 : (![0, 0] : Fin 2 → Nat) = fun _ => 0 := funext fun a => by fin_cases a <;> rfl
theorem hz1 : (![0] : Fin 1 → Nat) = fun _ => 0 := funext fun a => by fin_cases a; rfl

/-- Region 0's stored block at an entry: the row of the left block against the column of the weight. -/
theorem pay0_apply (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  unfold k0_pay1
  simp only [shapeCast_self]
  exact matmulK_apply _ _ p q

/-- Region 1's stored block at an entry: the row of the left block against the column of the weight. -/
theorem pay1_apply (x0 : Vec Ideal S5000x128 .f32) (x1 : Vec Ideal S128x128 .f32) (j : S5000x128.Idx) :
    k1_pay1 (F := Ideal) x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  unfold k1_pay1
  exact matmulK_apply _ _ p q

/-- Region 2's stored block at an entry: the row of the left block against the column of the weight. -/
theorem pay2_apply (x0 : Vec Ideal S5000x128 .f32) (x1 : Vec Ideal S128x128 .f32) (j : S5000x128.Idx) :
    k2_pay1 (F := Ideal) x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  unfold k2_pay1
  exact matmulK_apply _ _ p q

/-- Region 3's stored block at an entry: the row of the left block against the column of the weight. -/
theorem pay3_apply (x0 : Vec Ideal S5000x128 .f32) (x1 : Vec Ideal S128x128 .f32) (j : S5000x128.Idx) :
    k3_pay1 (F := Ideal) x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  unfold k3_pay1
  simp only [shapeCast_self]
  exact matmulK_apply _ _ p q

/-- Region 4's stored block at an entry: the product's entry plus the bias at the entry's column. -/
theorem pay4_apply (x0 : Vec Ideal S5000x128 .f32) (x1 : Vec Ideal S128x128 .f32) (b : Vec Ideal S128 .f32) (j : S5000x128.Idx) :
    k4_pay1 (F := Ideal) x0 x1 b j = (∑ k : Fin 128, x0 (ix2 (j 0) k) * x1 (ix2 k (j 1))) + b (ix1 (j 1)) := by
  obtain ⟨p, q, rfl⟩ : ∃ (p : Fin 5000) (q : Fin 128), j = ix2 p q := ⟨j 0, j 1, eq_ix2 j⟩
  unfold k4_pay1
  simp only [shapeCast_self]
  exact congrArg₂ (· + ·) (matmulK_apply _ _ p q) (rowK_apply b p q)

/-- Region 6's stored block at an entry: the product's entry plus the bias at the entry's column. -/
theorem pay6_apply (x0 : Vec Ideal S5000x128 .f32) (x1 : Vec Ideal S128x128 .f32) (b : Vec Ideal S128 .f32) (j : S5000x128.Idx) :
    k6_pay1 (F := Ideal) x0 x1 b j = (∑ k : Fin 128, x0 (ix2 (j 0) k) * x1 (ix2 k (j 1))) + b (ix1 (j 1)) := by
  obtain ⟨p, q, rfl⟩ : ∃ (p : Fin 5000) (q : Fin 128), j = ix2 p q := ⟨j 0, j 1, eq_ix2 j⟩
  unfold k6_pay1
  simp only [shapeCast_self]
  exact congrArg₂ (· + ·) (matmulK_apply _ _ p q) (rowK_apply b p q)

/-- Region 5's stored block at an entry: the activated row of the first layer's block against the column of the
    second weight, plus the bias at the entry's column. -/
theorem pay5_apply (x0 : Vec Ideal S5000x128 .f32) (mu va g beta a : Vec Ideal S128 .f32) (w : Vec Ideal S128x128 .f32)
    (b : Vec Ideal S128 .f32) (j : S5000x128.Idx) :
    k5_pay1 (F := Ideal) x0 mu va g beta a w b j
      = (∑ k : Fin 128, actS (x0 (ix2 (j 0) k)) (mu (ix1 k)) (va (ix1 k)) (g (ix1 k)) (beta (ix1 k)) (a (ix1 k)) * w (ix2 k (j 1)))
        + b (ix1 (j 1)) := by
  obtain ⟨p, q, rfl⟩ : ∃ (p : Fin 5000) (q : Fin 128), j = ix2 p q := ⟨j 0, j 1, eq_ix2 j⟩
  unfold k5_pay1
  refine (congrArg₂ (· + ·) (matmulK_apply _ _ p q) (rowK_apply b p q)).trans ?_
  refine congrArg (· + _) (Finset.sum_congr rfl fun k _ => congrArg (· * _) ?_)
  simp only [truncf_apply, select_apply, cmpf_apply, mulf_apply, addf_apply, subf_apply, shapeCast_self, broadcast_apply,
    rowK_apply, rsqrt_apply]
  rfl

/-- Region 7's stored block at an entry: the activated row of the first layer's block against the column of the
    second weight, plus the bias at the entry's column. -/
theorem pay7_apply (x0 : Vec Ideal S5000x128 .f32) (mu va g beta a : Vec Ideal S128 .f32) (w : Vec Ideal S128x128 .f32)
    (b : Vec Ideal S128 .f32) (j : S5000x128.Idx) :
    k7_pay1 (F := Ideal) x0 mu va g beta a w b j
      = (∑ k : Fin 128, actS (x0 (ix2 (j 0) k)) (mu (ix1 k)) (va (ix1 k)) (g (ix1 k)) (beta (ix1 k)) (a (ix1 k)) * w (ix2 k (j 1)))
        + b (ix1 (j 1)) := by
  obtain ⟨p, q, rfl⟩ : ∃ (p : Fin 5000) (q : Fin 128), j = ix2 p q := ⟨j 0, j 1, eq_ix2 j⟩
  unfold k7_pay1
  refine (congrArg₂ (· + ·) (matmulK_apply _ _ p q) (rowK_apply b p q)).trans ?_
  refine congrArg (· + _) (Finset.sum_congr rfl fun k _ => congrArg (· * _) ?_)
  simp only [truncf_apply, select_apply, cmpf_apply, mulf_apply, addf_apply, subf_apply, shapeCast_self, broadcast_apply,
    rowK_apply, rsqrt_apply]
  rfl

end Cert.KernelIdeal.RegionVal
-- ==== Proof.RegionSpecIdx.lean ====
/-
  The specification's dense product, bias row, dense layer and predictor tail read at one entry (r, q) of the
  50000×128 result, and so as the entry-by-entry functions of the same arrays.
-/
import proofs.«123214_j35218731827951_1_alg».proof.Proof.Spec
import proofs.«123214_j35218731827951_1_alg».proof.Proof.Gen.ReferenceIdeal
import proofs.«123214_j35218731827951_1_alg».proof.Proof.RegionFns
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

open scoped BigOperators
open Idealize.ShloMosaic Idealize.ShloMosaic.ValueIdx

namespace Cert.Spec.AtIdx

open Cert.ReferenceIdeal Cert.ReferenceIdeal.Gen Cert.Spec Cert.KernelIdeal.RegionVal
theorem lhsR_0 (i : S50000x128.Idx) (q : (dot_S50000x128_S128x128_S50000x128_1_0_0_1_n_n).contr.Idx) :
    ((dot_S50000x128_S128x128_S50000x128_1_0_0_1_n_n).lhsIdx i q 0).val = (i 0).val := by
  unfold DotDims.lhsIdx
  rw [dif_neg (show ¬(0 : Fin S50000x128.rank) ∈ (dot_S50000x128_S128x128_S50000x128_1_0_0_1_n_n).lhsBatch by decide),
    dif_pos (show (0 : Fin S50000x128.rank) ∈ (dot_S50000x128_S128x128_S50000x128_1_0_0_1_n_n).lhsNonContracting by decide)]
  rfl
theorem lhsR_1 (i : S50000x128.Idx) (q : (dot_S50000x128_S128x128_S50000x128_1_0_0_1_n_n).contr.Idx) :
    ((dot_S50000x128_S128x128_S50000x128_1_0_0_1_n_n).lhsIdx i q 1).val = (q ⟨0, by decide⟩).val :=
  (dot_S50000x128_S128x128_S50000x128_1_0_0_1_n_n).lhsIdx_val_of_single rfl i q
theorem rhsR_0 (i : S50000x128.Idx) (q : (dot_S50000x128_S128x128_S50000x128_1_0_0_1_n_n).contr.Idx) :
    ((dot_S50000x128_S128x128_S50000x128_1_0_0_1_n_n).rhsIdx i q 0).val = (q ⟨0, by decide⟩).val :=
  (dot_S50000x128_S128x128_S50000x128_1_0_0_1_n_n).rhsIdx_val_of_single rfl i q
theorem rhsR_1 (i : S50000x128.Idx) (q : (dot_S50000x128_S128x128_S50000x128_1_0_0_1_n_n).contr.Idx) :
    ((dot_S50000x128_S128x128_S50000x128_1_0_0_1_n_n).rhsIdx i q 1).val = (i 1).val := by
  unfold DotDims.rhsIdx
  rw [dif_neg (show ¬(1 : Fin S128x128.rank) ∈ (dot_S50000x128_S128x128_S50000x128_1_0_0_1_n_n).rhsBatch by decide),
    dif_pos (show (1 : Fin S128x128.rank) ∈ (dot_S50000x128_S128x128_S50000x128_1_0_0_1_n_n).rhsNonContracting by decide)]
  rfl

/-- The dense product read at an entry: row `r` of the array against column `q` of the weight. -/
theorem mm_apply (a : Mat Ideal) (w : Wt Ideal) (r : Fin 50000) (q : Fin 128) :
    mm a w (ix2 r q) = ∑ k : Fin 128, a (ix2 r k) * w (ix2 k q) := by
  unfold mm
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : (dot_S50000x128_S128x128_S50000x128_1_0_0_1_n_n).lhsIdx (ix2 r q) ((contrEquiv1 dot_S50000x128_S128x128_S50000x128_1_0_0_1_n_n 128 rfl rfl).symm k) = ix2 r k :=
    funext fun a => Fin.ext (by
      match a with
      | ⟨0, _⟩ => exact lhsR_0 _ _
      | ⟨1, _⟩ => exact (lhsR_1 _ _).trans hk)
  have er : (dot_S50000x128_S128x128_S50000x128_1_0_0_1_n_n).rhsIdx (ix2 r q) ((contrEquiv1 dot_S50000x128_S128x128_S50000x128_1_0_0_1_n_n 128 rfl rfl).symm k) = ix2 k q :=
    funext fun a => Fin.ext (by
      match a with
      | ⟨0, _⟩ => exact (rhsR_0 _ _).trans hk
      | ⟨1, _⟩ => exact rhsR_1 _ _)
  rw [el, er]

/-- A vector laid along every row, read at an entry, is the vector at the entry's column. -/
theorem rowb_apply (b : V128 Ideal) (r : Fin 50000) (q : Fin 128) : rowb b (ix2 r q) = b (ix1 q) := by
  unfold rowb
  rw [broadcastInDim_oneRow_apply]
  refine broadcastInDim_apply ![1] bcast_S128_S1x128_1 b (ix2 (0 : Fin 1) q) (ix1 q) ?_
  intro a
  match a with
  | ⟨0, _⟩ => rfl

theorem lin_apply (h : Mat Ideal) (w : Wt Ideal) (b : V128 Ideal) (r : Fin 50000) (q : Fin 128) :
    lin h w b (ix2 r q) = (∑ k : Fin 128, h (ix2 r k) * w (ix2 k q)) + b (ix1 q) := by
  unfold lin
  rw [addf_apply, mm_apply, rowb_apply]

/-- The predictor's tail read at an entry: the activated row against the second weight's column, plus the bias. -/
theorem tailK_apply (h : Mat Ideal) (mu va g beta a : V128 Ideal) (w : Wt Ideal) (b : V128 Ideal) (r : Fin 50000) (q : Fin 128) :
    tailK h mu va g beta a w b (ix2 r q)
      = (∑ k : Fin 128, actS (h (ix2 r k)) (mu (ix1 k)) (va (ix1 k)) (g (ix1 k)) (beta (ix1 k)) (a (ix1 k)) * w (ix2 k q))
        + b (ix1 q) := by
  unfold tailK
  rw [lin_apply]
  refine congrArg (· + _) (Finset.sum_congr rfl fun k _ => congrArg (· * _) ?_)
  unfold preluK bnK zeroMat epsBN
  simp only [select_apply, cmpf_apply, mulf_apply, addf_apply, subf_apply, rowb_apply, rsqrt_apply,
    broadcastInDim_scalar_apply, constant_apply]
  rfl

/-- The three as whole-array functions. -/
theorem mm_eq (a : Mat Ideal) (w : Wt Ideal) : mm a w = Gmm a w := by
  funext i
  obtain ⟨r, q, rfl⟩ : ∃ (r : Fin 50000) (q : Fin 128), i = ix2 r q := ⟨i 0, i 1, eq_ix2 i⟩
  exact mm_apply a w r q

theorem lin_eq (h : Mat Ideal) (w : Wt Ideal) (b : V128 Ideal) : lin h w b = Glin h w b := by
  funext i
  obtain ⟨r, q, rfl⟩ : ∃ (r : Fin 50000) (q : Fin 128), i = ix2 r q := ⟨i 0, i 1, eq_ix2 i⟩
  exact lin_apply h w b r q

theorem tailK_eq (h : Mat Ideal) (mu va g beta a : V128 Ideal) (w : Wt Ideal) (b : V128 Ideal) :
    tailK h mu va g beta a w b = Gtail h mu va g beta a w b := by
  funext i
  obtain ⟨r, q, rfl⟩ : ∃ (r : Fin 50000) (q : Fin 128), i = ix2 r q := ⟨i 0, i 1, eq_ix2 i⟩
  exact tailK_apply h mu va g beta a w b r q

end Cert.Spec.AtIdx
-- ==== Proof.RegionMatmul.lean ====
/-
  The four plain dense regions, each at ANY buffer contents `V` on entry: the region tiles its 50000×128 result in ten
  blocks of 5000 rows; the block a point writes back is the product of the point's 5000 rows of the left array with
  the whole 128×128 weight, so it is that block of the dense product of the two arrays; the ten blocks cover the
  result, which therefore ends holding the dense product.
-/
import proofs.«123214_j35218731827951_1_alg».proof.Proof.Gen.KernelIdeal.Frame
import proofs.«123214_j35218731827951_1_alg».proof.Proof.RegionOps
import proofs.«123214_j35218731827951_1_alg».proof.Proof.RegionSpecIdx
import Idealize.ShloMosaic.Lib.ValueIdx
import Idealize.ShloMosaic.Lib.Pipeline.Value

set_option maxRecDepth 16384

noncomputable section

open scoped BigOperators
open Idealize.ShloMosaic Idealize.ShloMosaic.ValueIdx Idealize.ShloMosaic.TcCoe Idealize.SL.Sem
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-! ## Region 0 -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)

/-- Window 0's block at point `t` is rows `5000 t … 5000 t + 4999` of its array. -/
theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c (Pipeline.arrRef spec0 0) : S50000x128.Idx → EReal) k := by
  obtain ⟨e0, e1⟩ := idx0_0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Window 1's block at every point is its whole array. -/
theorem iblk0_1_apply (c : Dev nD) (t : Fin cfg0.N) (x k : S128x128.Idx)
    (hk0 : (k 0).val = (x 0).val) (hk1 : (k 1).val = (x 1).val) :
    (iblk0 V c 1 t : Vec Ideal S128x128 .f32) x = (V c (Pipeline.arrRef spec0 1) : S128x128.Idx → EReal) k := by
  obtain ⟨e0, e1⟩ := idx0_1 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * (x 0).val = (k 0).val; rw [e0, hk0]; omega
  | ⟨1, _⟩ => show win0_1.index t (1 : Fin 2) * 128 + 1 * (x 1).val = (k 1).val; rw [e1, hk1]; omega

/-- What point `t` writes back is block `t` of the entry-by-entry function of the arrays the region finds. -/
theorem flushed0_eq (c : Dev nD) (t : Fin cfg0.N) :
    (dat0 V c).flushed 2 t = ((cfg0.win 2).blk t).view.read (Elt Ideal)
      (Gmm (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1⟩ := idx0_2 t
  funext j
  show k0_pay1 (F := Ideal) (iblk0 V c 0 t) (iblk0 V c 1 t) j
    = Gmm (V c (Pipeline.arrRef spec0 0)) (V c (Pipeline.arrRef spec0 1)) (((cfg0.win 2).blk t).view.emb j)
  refine (pay0_apply (iblk0 V c 0 t) (iblk0 V c 1 t) j).trans ?_
  unfold Gmm
  have h0 : ((((cfg0.win 2).blk t).view.emb j) 0).val = 5000 * t.val + (j 0).val := by
    show win0_2.index t (0 : Fin 2) * 5000 + 1 * (j 0).val = _
    rw [e0]; omega
  have h1 : ((((cfg0.win 2).blk t).view.emb j) 1).val = (j 1).val := by
    show win0_2.index t (1 : Fin 2) * 128 + 1 * (j 1).val = _
    rw [e1]; omega
  refine Finset.sum_congr rfl fun k _ => ?_
  rw [iblk0_0_apply V c t (ix2 (j 0) k) (ix2 ((((cfg0.win 2).blk t).view.emb j) 0) k) h0 rfl,
    iblk0_1_apply V c t (ix2 k (j 1)) (ix2 k ((((cfg0.win 2).blk t).view.emb j) 1)) rfl h1]

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v1).slice (win0_2.rect t)).set ↔ _
  rw [View.set_slice_whole, Rect.mem_set_unit]
  exact Iff.rfl

/-- The ten blocks of 5000 rows cover the array: row `r` lies in the block of point `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1⟩ := idx0_2 t
  refine ⟨t, flush0_2 t, ?_⟩
  rw [mem_blk0]
  intro a
  have ht : t.val = (i 0).val / 5000 := rfl
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- The array after the region, entry by entry. -/
theorem region0_G (c : Dev nD) :
    (dat0 V c).arrAt 2 cfg0.N = Gmm (V c (Pipeline.arrRef spec0 0)) (V c (Pipeline.arrRef spec0 1)) :=
  (dat0 V c).arrAt_eq_of_cover 2 _ (fun t _ => flushed0_eq V c t) cover0

/-- The array after the region is the specification's function of the arrays the region finds. -/
theorem region0_out (c : Dev nD) :
    ((dat0 V c).arrAt 2 cfg0.N : S50000x128.Idx → EReal)
      = Cert.Spec.mm (V c (Pipeline.arrRef spec0 0)) (V c (Pipeline.arrRef spec0 1)) :=
  (region0_G V c).trans (Cert.Spec.AtIdx.mm_eq _ _).symm

/-! ## Region 1 -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)

/-- Window 0's block at point `t` is rows `5000 t … 5000 t + 4999` of its array. -/
theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c (Pipeline.arrRef spec1 0) : S50000x128.Idx → EReal) k := by
  obtain ⟨e0, e1⟩ := idx1_0 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- Window 1's block at every point is its whole array. -/
theorem iblk1_1_apply (c : Dev nD) (t : Fin cfg1.N) (x k : S128x128.Idx)
    (hk0 : (k 0).val = (x 0).val) (hk1 : (k 1).val = (x 1).val) :
    (iblk1 V c 1 t : Vec Ideal S128x128 .f32) x = (V c (Pipeline.arrRef spec1 1) : S128x128.Idx → EReal) k := by
  obtain ⟨e0, e1⟩ := idx1_1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 128 + 1 * (x 0).val = (k 0).val; rw [e0, hk0]; omega
  | ⟨1, _⟩ => show win1_1.index t (1 : Fin 2) * 128 + 1 * (x 1).val = (k 1).val; rw [e1, hk1]; omega

/-- What point `t` writes back is block `t` of the entry-by-entry function of the arrays the region finds. -/
theorem flushed1_eq (c : Dev nD) (t : Fin cfg1.N) :
    (dat1 V c).flushed 2 t = ((cfg1.win 2).blk t).view.read (Elt Ideal)
      (Gmm (V c (Pipeline.arrRef spec1 0)) (V c (Pipeline.arrRef spec1 1))) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128x128) hz2]
  obtain ⟨e0, e1⟩ := idx1_2 t
  funext j
  show k1_pay1 (F := Ideal) (iblk1 V c 0 t) (iblk1 V c 1 t) j
    = Gmm (V c (Pipeline.arrRef spec1 0)) (V c (Pipeline.arrRef spec1 1)) (((cfg1.win 2).blk t).view.emb j)
  refine (pay1_apply (iblk1 V c 0 t) (iblk1 V c 1 t) j).trans ?_
  unfold Gmm
  have h0 : ((((cfg1.win 2).blk t).view.emb j) 0).val = 5000 * t.val + (j 0).val := by
    show win1_2.index t (0 : Fin 2) * 5000 + 1 * (j 0).val = _
    rw [e0]; omega
  have h1 : ((((cfg1.win 2).blk t).view.emb j) 1).val = (j 1).val := by
    show win1_2.index t (1 : Fin 2) * 128 + 1 * (j 1).val = _
    rw [e1]; omega
  refine Finset.sum_congr rfl fun k _ => ?_
  rw [iblk1_0_apply V c t (ix2 (j 0) k) (ix2 ((((cfg1.win 2).blk t).view.emb j) 0) k) h0 rfl,
    iblk1_1_apply V c t (ix2 k (j 1)) (ix2 k ((((cfg1.win 2).blk t).view.emb j) 1)) rfl h1]

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v19).slice (win1_2.rect t)).set ↔ _
  rw [View.set_slice_whole, Rect.mem_set_unit]
  exact Iff.rfl

/-- The ten blocks of 5000 rows cover the array: row `r` lies in the block of point `r / 5000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1⟩ := idx1_2 t
  refine ⟨t, flush1_2 t, ?_⟩
  rw [mem_blk1]
  intro a
  have ht : t.val = (i 0).val / 5000 := rfl
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- The array after the region, entry by entry. -/
theorem region1_G (c : Dev nD) :
    (dat1 V c).arrAt 2 cfg1.N = Gmm (V c (Pipeline.arrRef spec1 0)) (V c (Pipeline.arrRef spec1 1)) :=
  (dat1 V c).arrAt_eq_of_cover 2 _ (fun t _ => flushed1_eq V c t) cover1

/-- The array after the region is the specification's function of the arrays the region finds. -/
theorem region1_out (c : Dev nD) :
    ((dat1 V c).arrAt 2 cfg1.N : S50000x128.Idx → EReal)
      = Cert.Spec.mm (V c (Pipeline.arrRef spec1 0)) (V c (Pipeline.arrRef spec1 1)) :=
  (region1_G V c).trans (Cert.Spec.AtIdx.mm_eq _ _).symm

/-! ## Region 2 -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)

/-- Window 0's block at point `t` is rows `5000 t … 5000 t + 4999` of its array. -/
theorem iblk2_0_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c (Pipeline.arrRef spec2 0) : S50000x128.Idx → EReal) k := by
  obtain ⟨e0, e1⟩ := idx2_0 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Window 1's block at every point is its whole array. -/
theorem iblk2_1_apply (c : Dev nD) (t : Fin cfg2.N) (x k : S128x128.Idx)
    (hk0 : (k 0).val = (x 0).val) (hk1 : (k 1).val = (x 1).val) :
    (iblk2 V c 1 t : Vec Ideal S128x128 .f32) x = (V c (Pipeline.arrRef spec2 1) : S128x128.Idx → EReal) k := by
  obtain ⟨e0, e1⟩ := idx2_1 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * (x 0).val = (k 0).val; rw [e0, hk0]; omega
  | ⟨1, _⟩ => show win2_1.index t (1 : Fin 2) * 128 + 1 * (x 1).val = (k 1).val; rw [e1, hk1]; omega

/-- What point `t` writes back is block `t` of the entry-by-entry function of the arrays the region finds. -/
theorem flushed2_eq (c : Dev nD) (t : Fin cfg2.N) :
    (dat2 V c).flushed 2 t = ((cfg2.win 2).blk t).view.read (Elt Ideal)
      (Gmm (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1⟩ := idx2_2 t
  funext j
  show k2_pay1 (F := Ideal) (iblk2 V c 0 t) (iblk2 V c 1 t) j
    = Gmm (V c (Pipeline.arrRef spec2 0)) (V c (Pipeline.arrRef spec2 1)) (((cfg2.win 2).blk t).view.emb j)
  refine (pay2_apply (iblk2 V c 0 t) (iblk2 V c 1 t) j).trans ?_
  unfold Gmm
  have h0 : ((((cfg2.win 2).blk t).view.emb j) 0).val = 5000 * t.val + (j 0).val := by
    show win2_2.index t (0 : Fin 2) * 5000 + 1 * (j 0).val = _
    rw [e0]; omega
  have h1 : ((((cfg2.win 2).blk t).view.emb j) 1).val = (j 1).val := by
    show win2_2.index t (1 : Fin 2) * 128 + 1 * (j 1).val = _
    rw [e1]; omega
  refine Finset.sum_congr rfl fun k _ => ?_
  rw [iblk2_0_apply V c t (ix2 (j 0) k) (ix2 ((((cfg2.win 2).blk t).view.emb j) 0) k) h0 rfl,
    iblk2_1_apply V c t (ix2 k (j 1)) (ix2 k ((((cfg2.win 2).blk t).view.emb j) 1)) rfl h1]

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v36).slice (win2_2.rect t)).set ↔ _
  rw [View.set_slice_whole, Rect.mem_set_unit]
  exact Iff.rfl

/-- The ten blocks of 5000 rows cover the array: row `r` lies in the block of point `r / 5000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1⟩ := idx2_2 t
  refine ⟨t, flush2_2 t, ?_⟩
  rw [mem_blk2]
  intro a
  have ht : t.val = (i 0).val / 5000 := rfl
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 128 ≤ (i 1).val ∧ (i 1).val < win2_2.index t (1 : Fin 2) * 128 + 128; rw [e1]; omega

/-- The array after the region, entry by entry. -/
theorem region2_G (c : Dev nD) :
    (dat2 V c).arrAt 2 cfg2.N = Gmm (V c (Pipeline.arrRef spec2 0)) (V c (Pipeline.arrRef spec2 1)) :=
  (dat2 V c).arrAt_eq_of_cover 2 _ (fun t _ => flushed2_eq V c t) cover2

/-- The array after the region is the specification's function of the arrays the region finds. -/
theorem region2_out (c : Dev nD) :
    ((dat2 V c).arrAt 2 cfg2.N : S50000x128.Idx → EReal)
      = Cert.Spec.mm (V c (Pipeline.arrRef spec2 0)) (V c (Pipeline.arrRef spec2 1)) :=
  (region2_G V c).trans (Cert.Spec.AtIdx.mm_eq _ _).symm

/-! ## Region 3 -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)

/-- Window 0's block at point `t` is rows `5000 t … 5000 t + 4999` of its array. -/
theorem iblk3_0_apply (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c (Pipeline.arrRef spec3 0) : S50000x128.Idx → EReal) k := by
  obtain ⟨e0, e1⟩ := idx3_0 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- Window 1's block at every point is its whole array. -/
theorem iblk3_1_apply (c : Dev nD) (t : Fin cfg3.N) (x k : S128x128.Idx)
    (hk0 : (k 0).val = (x 0).val) (hk1 : (k 1).val = (x 1).val) :
    (iblk3 V c 1 t : Vec Ideal S128x128 .f32) x = (V c (Pipeline.arrRef spec3 1) : S128x128.Idx → EReal) k := by
  obtain ⟨e0, e1⟩ := idx3_1 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 128 + 1 * (x 0).val = (k 0).val; rw [e0, hk0]; omega
  | ⟨1, _⟩ => show win3_1.index t (1 : Fin 2) * 128 + 1 * (x 1).val = (k 1).val; rw [e1, hk1]; omega

/-- What point `t` writes back is block `t` of the entry-by-entry function of the arrays the region finds. -/
theorem flushed3_eq (c : Dev nD) (t : Fin cfg3.N) :
    (dat3 V c).flushed 2 t = ((cfg3.win 2).blk t).view.read (Elt Ideal)
      (Gmm (V c (Pipeline.arrRef spec3 0)) (V c (Pipeline.arrRef spec3 1))) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128x128) hz2]
  obtain ⟨e0, e1⟩ := idx3_2 t
  funext j
  show k3_pay1 (F := Ideal) (iblk3 V c 0 t) (iblk3 V c 1 t) j
    = Gmm (V c (Pipeline.arrRef spec3 0)) (V c (Pipeline.arrRef spec3 1)) (((cfg3.win 2).blk t).view.emb j)
  refine (pay3_apply (iblk3 V c 0 t) (iblk3 V c 1 t) j).trans ?_
  unfold Gmm
  have h0 : ((((cfg3.win 2).blk t).view.emb j) 0).val = 5000 * t.val + (j 0).val := by
    show win3_2.index t (0 : Fin 2) * 5000 + 1 * (j 0).val = _
    rw [e0]; omega
  have h1 : ((((cfg3.win 2).blk t).view.emb j) 1).val = (j 1).val := by
    show win3_2.index t (1 : Fin 2) * 128 + 1 * (j 1).val = _
    rw [e1]; omega
  refine Finset.sum_congr rfl fun k _ => ?_
  rw [iblk3_0_apply V c t (ix2 (j 0) k) (ix2 ((((cfg3.win 2).blk t).view.emb j) 0) k) h0 rfl,
    iblk3_1_apply V c t (ix2 k (j 1)) (ix2 k ((((cfg3.win 2).blk t).view.emb j) 1)) rfl h1]

/-- An index of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v53).slice (win3_2.rect t)).set ↔ _
  rw [View.set_slice_whole, Rect.mem_set_unit]
  exact Iff.rfl

/-- The ten blocks of 5000 rows cover the array: row `r` lies in the block of point `r / 5000`. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1⟩ := idx3_2 t
  refine ⟨t, flush3_2 t, ?_⟩
  rw [mem_blk3]
  intro a
  have ht : t.val = (i 0).val / 5000 := rfl
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 128 ≤ (i 1).val ∧ (i 1).val < win3_2.index t (1 : Fin 2) * 128 + 128; rw [e1]; omega

/-- The array after the region, entry by entry. -/
theorem region3_G (c : Dev nD) :
    (dat3 V c).arrAt 2 cfg3.N = Gmm (V c (Pipeline.arrRef spec3 0)) (V c (Pipeline.arrRef spec3 1)) :=
  (dat3 V c).arrAt_eq_of_cover 2 _ (fun t _ => flushed3_eq V c t) cover3

/-- The array after the region is the specification's function of the arrays the region finds. -/
theorem region3_out (c : Dev nD) :
    ((dat3 V c).arrAt 2 cfg3.N : S50000x128.Idx → EReal)
      = Cert.Spec.mm (V c (Pipeline.arrRef spec3 0)) (V c (Pipeline.arrRef spec3 1)) :=
  (region3_G V c).trans (Cert.Spec.AtIdx.mm_eq _ _).symm

end Cert.KernelIdeal.RegionVal
-- ==== Proof.RegionLinear.lean ====
/-
  The two dense regions with a bias, each at ANY buffer contents `V` on entry: as for the plain dense regions, with
  the bias vector's entry at the column added to every entry of the product; the result ends holding x·W + b.
-/
import proofs.«123214_j35218731827951_1_alg».proof.Proof.Gen.KernelIdeal.Frame
import proofs.«123214_j35218731827951_1_alg».proof.Proof.RegionOps
import proofs.«123214_j35218731827951_1_alg».proof.Proof.RegionSpecIdx
import Idealize.ShloMosaic.Lib.ValueIdx
import Idealize.ShloMosaic.Lib.Pipeline.Value

set_option maxRecDepth 16384

noncomputable section

open scoped BigOperators
open Idealize.ShloMosaic Idealize.ShloMosaic.ValueIdx Idealize.ShloMosaic.TcCoe Idealize.SL.Sem
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-! ## Region 4 -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 1) = 0 :=
  (by decide +kernel : ∀ t : Fin grid4.N, _)
theorem idx4_3 : ∀ t : Fin cfg4.N, win4_3.index t (0 : Fin 2) = t.val ∧ win4_3.index t (1 : Fin 2) = 0 :=
  (by decide +kernel : ∀ t : Fin grid4.N, _)

/-- Window 0's block at point `t` is rows `5000 t … 5000 t + 4999` of its array. -/
theorem iblk4_0_apply (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c (Pipeline.arrRef spec4 0) : S50000x128.Idx → EReal) k := by
  obtain ⟨e0, e1⟩ := idx4_0 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- Window 1's block at every point is its whole array. -/
theorem iblk4_1_apply (c : Dev nD) (t : Fin cfg4.N) (x k : S128x128.Idx)
    (hk0 : (k 0).val = (x 0).val) (hk1 : (k 1).val = (x 1).val) :
    (iblk4 V c 1 t : Vec Ideal S128x128 .f32) x = (V c (Pipeline.arrRef spec4 1) : S128x128.Idx → EReal) k := by
  obtain ⟨e0, e1⟩ := idx4_1 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 128 + 1 * (x 0).val = (k 0).val; rw [e0, hk0]; omega
  | ⟨1, _⟩ => show win4_1.index t (1 : Fin 2) * 128 + 1 * (x 1).val = (k 1).val; rw [e1, hk1]; omega

/-- Window 2's block at every point is its whole vector. -/
theorem iblk4_2_apply (c : Dev nD) (t : Fin cfg4.N) (x k : S128.Idx) (hk0 : (k 0).val = (x 0).val) :
    (iblk4 V c 2 t : Vec Ideal S128 .f32) x = (V c (Pipeline.arrRef spec4 2) : S128.Idx → EReal) k := by
  have e0 := idx4_2 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 1) * 128 + 1 * (x 0).val = (k 0).val; rw [e0, hk0]; omega

/-- What point `t` writes back is block `t` of the entry-by-entry function of the arrays the region finds. -/
theorem flushed4_eq (c : Dev nD) (t : Fin cfg4.N) :
    (dat4 V c).flushed 3 t = ((cfg4.win 3).blk t).view.read (Elt Ideal)
      (Glin (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz2]
  simp only [View.ld_unit_zero (S := S5000x128) hz2, View.ld_unit_zero (S := S128x128) hz2, View.ld_unit_zero (S := S128) hz1]
  obtain ⟨e0, e1⟩ := idx4_3 t
  funext j
  show k4_pay1 (F := Ideal) (iblk4 V c 0 t) (iblk4 V c 1 t) (iblk4 V c 2 t) j
    = Glin (V c (Pipeline.arrRef spec4 0)) (V c (Pipeline.arrRef spec4 1)) (V c (Pipeline.arrRef spec4 2)) (((cfg4.win 3).blk t).view.emb j)
  refine (pay4_apply (iblk4 V c 0 t) (iblk4 V c 1 t) (iblk4 V c 2 t) j).trans ?_
  unfold Glin
  have h0 : ((((cfg4.win 3).blk t).view.emb j) 0).val = 5000 * t.val + (j 0).val := by
    show win4_3.index t (0 : Fin 2) * 5000 + 1 * (j 0).val = _
    rw [e0]; omega
  have h1 : ((((cfg4.win 3).blk t).view.emb j) 1).val = (j 1).val := by
    show win4_3.index t (1 : Fin 2) * 128 + 1 * (j 1).val = _
    rw [e1]; omega
  rw [iblk4_2_apply V c t (ix1 (j 1)) (ix1 ((((cfg4.win 3).blk t).view.emb j) 1)) h1]
  refine congrArg₂ (fun (x y : EReal) => x + y) (Finset.sum_congr rfl fun k _ => ?_) rfl
  rw [iblk4_0_apply V c t (ix2 (j 0) k) (ix2 ((((cfg4.win 3).blk t).view.emb j) 0) k) h0 rfl,
    iblk4_1_apply V c t (ix2 k (j 1)) (ix2 k ((((cfg4.win 3).blk t).view.emb j) 1)) rfl h1]

/-- An index of the array is in point `t`'s block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v71).slice (win4_3.rect t)).set ↔ _
  rw [View.set_slice_whole, Rect.mem_set_unit]
  exact Iff.rfl

/-- The ten blocks of 5000 rows cover the array: row `r` lies in the block of point `r / 5000`. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e0, e1⟩ := idx4_3 t
  refine ⟨t, flush4_3 t, ?_⟩
  rw [mem_blk4]
  intro a
  have ht : t.val = (i 0).val / 5000 := rfl
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 128 ≤ (i 1).val ∧ (i 1).val < win4_3.index t (1 : Fin 2) * 128 + 128; rw [e1]; omega

/-- The array after the region, entry by entry. -/
theorem region4_G (c : Dev nD) :
    (dat4 V c).arrAt 3 cfg4.N = Glin (V c (Pipeline.arrRef spec4 0)) (V c (Pipeline.arrRef spec4 1)) (V c (Pipeline.arrRef spec4 2)) :=
  (dat4 V c).arrAt_eq_of_cover 3 _ (fun t _ => flushed4_eq V c t) cover4

/-- The array after the region is the specification's function of the arrays the region finds. -/
theorem region4_out (c : Dev nD) :
    ((dat4 V c).arrAt 3 cfg4.N : S50000x128.Idx → EReal)
      = Cert.Spec.lin (V c (Pipeline.arrRef spec4 0)) (V c (Pipeline.arrRef spec4 1)) (V c (Pipeline.arrRef spec4 2)) :=
  (region4_G V c).trans (Cert.Spec.AtIdx.lin_eq _ _ _).symm

/-! ## Region 6 -/
theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 1) = 0 :=
  (by decide +kernel : ∀ t : Fin grid6.N, _)
theorem idx6_3 : ∀ t : Fin cfg6.N, win6_3.index t (0 : Fin 2) = t.val ∧ win6_3.index t (1 : Fin 2) = 0 :=
  (by decide +kernel : ∀ t : Fin grid6.N, _)

/-- Window 0's block at point `t` is rows `5000 t … 5000 t + 4999` of its array. -/
theorem iblk6_0_apply (c : Dev nD) (t : Fin cfg6.N) (x : S5000x128.Idx) (k : S50000x128.Idx)
    (hk0 : (k 0).val = 5000 * t.val + (x 0).val) (hk1 : (k 1).val = (x 1).val) :
    (iblk6 V c 0 t : Vec Ideal S5000x128 .f32) x = (V c (Pipeline.arrRef spec6 0) : S50000x128.Idx → EReal) k := by
  obtain ⟨e0, e1⟩ := idx6_0 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * (x 0).val = (k 0).val; rw [e0, hk0]; omega
  | ⟨1, _⟩ => show win6_0.index t (1 : Fin 2) * 128 + 1 * (x 1).val = (k 1).val; rw [e1, hk1]; omega

/-- Window 1's block at every point is its whole array. -/
theorem iblk6_1_apply (c : Dev nD) (t : Fin cfg6.N) (x k : S128x128.Idx)
    (hk0 : (k 0).val = (x 0).val) (hk1 : (k 1).val = (x 1).val) :
    (iblk6 V c 1 t : Vec Ideal S128x128 .f32) x = (V c (Pipeline.arrRef spec6 1) : S128x128.Idx → EReal) k := by
  obtain ⟨e0, e1⟩ := idx6_1 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 128 + 1 * (x 0).val = (k 0).val; rw [e0, hk0]; omega
  | ⟨1, _⟩ => show win6_1.index t (1 : Fin 2) * 128 + 1 * (x 1).val = (k 1).val; rw [e1, hk1]; omega

/-- Window 2's block at every point is its whole vector. -/
theorem iblk6_2_apply (c : Dev nD) (t : Fin cfg6.N) (x k : S128.Idx) (hk0 : (k 0).val = (x 0).val) :
    (iblk6 V c 2 t : Vec Ideal S128 .f32) x = (V c (Pipeline.arrRef spec6 2) : S128.Idx → EReal) k := by
  have e0 := idx6_2 t
  unfold iblk6
  rw [View.read_apply]
  show V c (Pipeline.arrRef spec6 2) _ = V c (Pipeline.arrRef spec6 2) _
  congr 1
  funext a
  apply Fin.ext
  match a with
  | ⟨0, _⟩ => show win6_2.index t (0 : Fin 1) * 128 + 1 * (x 0).val = (k 0).val; rw [e0, hk0]; omega

/-- What point `t` writes back is block `t` of the entry-by-entry function of the arrays the region finds. -/
theorem flushed6_eq (c : Dev nD) (t : Fin cfg6.N) :
    (dat6 V c).flushed 3 t = ((cfg6.win 3).blk t).view.read (Elt Ideal)
      (Glin (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz2]
  simp only [View.ld_unit_zero (S := S5000x128) hz2, View.ld_unit_zero (S := S128x128) hz2, View.ld_unit_zero (S := S128) hz1]
  obtain ⟨e0, e1⟩ := idx6_3 t
  funext j
  show k6_pay1 (F := Ideal) (iblk6 V c 0 t) (iblk6 V c 1 t) (iblk6 V c 2 t) j
    = Glin (V c (Pipeline.arrRef spec6 0)) (V c (Pipeline.arrRef spec6 1)) (V c (Pipeline.arrRef spec6 2)) (((cfg6.win 3).blk t).view.emb j)
  refine (pay6_apply (iblk6 V c 0 t) (iblk6 V c 1 t) (iblk6 V c 2 t) j).trans ?_
  unfold Glin
  have h0 : ((((cfg6.win 3).blk t).view.emb j) 0).val = 5000 * t.val + (j 0).val := by
    show win6_3.index t (0 : Fin 2) * 5000 + 1 * (j 0).val = _
    rw [e0]; omega
  have h1 : ((((cfg6.win 3).blk t).view.emb j) 1).val = (j 1).val := by
    show win6_3.index t (1 : Fin 2) * 128 + 1 * (j 1).val = _
    rw [e1]; omega
  rw [iblk6_2_apply V c t (ix1 (j 1)) (ix1 ((((cfg6.win 3).blk t).view.emb j) 1)) h1]
  refine congrArg₂ (fun (x y : EReal) => x + y) (Finset.sum_congr rfl fun k _ => ?_) rfl
  rw [iblk6_0_apply V c t (ix2 (j 0) k) (ix2 ((((cfg6.win 3).blk t).view.emb j) 0) k) h0 rfl,
    iblk6_1_apply V c t (ix2 k (j 1)) (ix2 k ((((cfg6.win 3).blk t).view.emb j) 1)) rfl h1]

/-- An index of the array is in point `t`'s block iff each coordinate is in the block's range on its axis. -/
theorem mem_blk6 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v77).slice (win6_3.rect t)).set ↔ _
  rw [View.set_slice_whole, Rect.mem_set_unit]
  exact Iff.rfl

/-- The ten blocks of 5000 rows cover the array: row `r` lies in the block of point `r / 5000`. -/
theorem cover6 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨e0, e1⟩ := idx6_3 t
  refine ⟨t, flush6_3 t, ?_⟩
  rw [mem_blk6]
  intro a
  have ht : t.val = (i 0).val / 5000 := rfl
  match a with
  | ⟨0, _⟩ => show win6_3.index t (0 : Fin 2) * 5000 ≤ (i 0).val ∧ (i 0).val < win6_3.index t (0 : Fin 2) * 5000 + 5000; rw [e0, ht]; omega
  | ⟨1, _⟩ => show win6_3.index t (1 : Fin 2) * 128 ≤ (i 1).val ∧ (i 1).val < win6_3.index t (1 : Fin 2) * 128 + 128; rw [e1]; omega

/-- The array after the region, entry by entry. -/
theorem region6_G (c : Dev nD) :
    (dat6 V c).arrAt 3 cfg6.N = Glin (V c (Pipeline.arrRef spec6 0)) (V c (Pipeline.arrRef spec6 1)) (V c (Pipeline.arrRef spec6 2)) :=
  (dat6 V c).arrAt_eq_of_cover 3 _ (fun t _ => flushed6_eq V c t) cover6

/-- The array after the region is the specification's function of the arrays the region finds. -/
theorem region6_out (c : Dev nD) :
    ((dat6 V c).arrAt 3 cfg6.N : S50000x128.Idx → EReal)
      = Cert.Spec.lin (V c (Pipeline.arrRef spec6 0)) (V c (Pipeline.arrRef spec6 1)) (V c (Pipeline.arrRef spec6 2)) :=
  (region6_G V c).trans (Cert.Spec.AtIdx.lin_eq _ _ _).symm

end Cert.KernelIdeal.RegionVal
-- ==== Proof.KChainB.lean ====
/-
  The kernel program's values up to the first predictor layer of the online branch on x: the perturbed features, the
  four dense products as their regions leave them, the four graph convolutions the stretches compute from them, the
  shared slope spread over the columns, and the first dense layer x·W₁ + b₁ of the online convolution of x.
-/
import proofs.«123214_j35218731827951_1_alg».proof.Proof.KChainA
import proofs.«123214_j35218731827951_1_alg».proof.Proof.RegionMatmul
import proofs.«123214_j35218731827951_1_alg».proof.Proof.RegionLinear

set_option maxRecDepth 16384
set_option maxHeartbeats 400000

noncomputable section

namespace Cert.KernelIdeal.KChain

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

section Values

theorem W1_v0 : W1 m ρ c (Proc.devRef .tc main_v0) = kx2 m c := by
  kread
  rfl

theorem W2_v1 : W2 m ρ c (Proc.devRef .tc main_v1) = kh0 m c := by
  refine (W2_arr m ρ c 2).trans ((RegionVal.region0_out (V1 m ρ) c).trans ?_)
  show Cert.Spec.mm (F := Ideal) (W1 m ρ c (Proc.devRef .tc main_v0)) (W1 m ρ c (Proc.devRef .tc main_arg5)) = _
  rw [W1_v0, W1_a5]
  rfl

theorem W3_v17 : W3 m ρ c (Proc.devRef .tc main_v17) = k17 m c := by
  kread
  rw [W2_v1 m ρ c]
  rfl

theorem W3_v18 : W3 m ρ c (Proc.devRef .tc main_v18) = k18 m c := by
  kread
  rw [W2_v1 m ρ c]
  rfl

theorem W4_v19 : W4 m ρ c (Proc.devRef .tc main_v19) = kh1 m c := by
  refine (W4_arr m ρ c 2).trans ((RegionVal.region1_out (V3 m ρ) c).trans ?_)
  show Cert.Spec.mm (F := Ideal) (W3 m ρ c (Proc.devRef .tc main_arg0)) (W3 m ρ c (Proc.devRef .tc main_arg5)) = _
  rw [W3_a0, W3_a5]
  rfl

theorem W5_v35 : W5 m ρ c (Proc.devRef .tc main_v35) = k35 m c := by
  kread
  rw [W4_v19 m ρ c]
  rfl

theorem W6_v36 : W6 m ρ c (Proc.devRef .tc main_v36) = kh2 m c := by
  refine (W6_arr m ρ c 2).trans ((RegionVal.region2_out (V5 m ρ) c).trans ?_)
  show Cert.Spec.mm (F := Ideal) (W5 m ρ c (Proc.devRef .tc main_arg0)) (W5 m ρ c (Proc.devRef .tc main_arg7)) = _
  rw [W5_a0, W5_a7]
  rfl

theorem W7_v52 : W7 m ρ c (Proc.devRef .tc main_v52) = k52 m c := by
  kread
  rw [W6_v36 m ρ c]
  rfl

theorem W7_v0 : W7 m ρ c (Proc.devRef .tc main_v0) = kx2 m c := by
  kread
  rfl

theorem W8_v53 : W8 m ρ c (Proc.devRef .tc main_v53) = kh3 m c := by
  refine (W8_arr m ρ c 2).trans ((RegionVal.region3_out (V7 m ρ) c).trans ?_)
  show Cert.Spec.mm (F := Ideal) (W7 m ρ c (Proc.devRef .tc main_v0)) (W7 m ρ c (Proc.devRef .tc main_arg7)) = _
  rw [W7_v0, W7_a7]
  rfl

theorem W9_v69 : W9 m ρ c (Proc.devRef .tc main_v69) = k69 m c := by
  kread
  rw [W8_v53 m ρ c]
  rfl

theorem W9_v70 : W9 m ρ c (Proc.devRef .tc main_v70) = k70 m c := by
  kread
  rfl

theorem W9_v35 : W9 m ρ c (Proc.devRef .tc main_v35) = k35 m c := by
  refine Eq.trans ?_ (W5_v35 m ρ c)
  kread

theorem W10_v71 : W10 m ρ c (Proc.devRef .tc main_v71) = k71 m c := by
  refine (W10_arr m ρ c 3).trans ((RegionVal.region4_out (V9 m ρ) c).trans ?_)
  show Cert.Spec.lin (F := Ideal) (W9 m ρ c (Proc.devRef .tc main_v35)) (W9 m ρ c (Proc.devRef .tc main_arg9)) (W9 m ρ c (Proc.devRef .tc main_arg10)) = _
  rw [W9_v35 m ρ c, W9_a9, W9_a10]
  rfl

end Values

end Cert.KernelIdeal.KChain

end
-- ==== Proof.RegionTailOps.lean ====
/-
  The predictor tail's stored block, entry against entry: when every operand the block's entry reads equals the
  operand of the whole arrays that the array's entry reads, the block's entry is the tail of the whole arrays there.
-/
import proofs.«123214_j35218731827951_1_alg».proof.Proof.RegionOps

noncomputable section

open scoped BigOperators
open Idealize.ShloMosaic Idealize.ShloMosaic.ValueIdx

namespace Cert.KernelIdeal.RegionVal

open Cert.KernelIdeal Cert.KernelIdeal.Gen

/-- Region 5's stored block at an entry against the tail of whole arrays at an entry, given that every operand the
    block's entry reads is the whole array's operand the array's entry reads. -/
theorem pay5_congr (x0 : Vec Ideal S5000x128 .f32) (mu va g beta a : Vec Ideal S128 .f32) (w : Vec Ideal S128x128 .f32)
    (b : Vec Ideal S128 .f32) (H : S50000x128.Idx → EReal) (MU VA GA BETA A : S128.Idx → EReal) (W : S128x128.Idx → EReal)
    (B : S128.Idx → EReal) (j : S5000x128.Idx) (i : S50000x128.Idx)
    (hx : ∀ k : Fin 128, x0 (ix2 (j 0) k) = H (ix2 (i 0) k))
    (hmu : ∀ k : Fin 128, mu (ix1 k) = MU (ix1 k)) (hva : ∀ k : Fin 128, va (ix1 k) = VA (ix1 k))
    (hg : ∀ k : Fin 128, g (ix1 k) = GA (ix1 k)) (hbeta : ∀ k : Fin 128, beta (ix1 k) = BETA (ix1 k))
    (ha : ∀ k : Fin 128, a (ix1 k) = A (ix1 k))
    (hw : ∀ k : Fin 128, w (ix2 k (j 1)) = W (ix2 k (i 1))) (hb : b (ix1 (j 1)) = B (ix1 (i 1))) :
    k5_pay1 (F := Ideal) x0 mu va g beta a w b j = Gtail H MU VA GA BETA A W B i := by
  refine (pay5_apply x0 mu va g beta a w b j).trans ?_
  unfold Gtail
  rw [hb]
  refine congrArg₂ (fun (x y : EReal) => x + y) (Finset.sum_congr rfl fun k _ => ?_) rfl
  rw [hx k, hmu k, hva k, hg k, hbeta k, ha k, hw k]

/-- Region 7's stored block at an entry against the tail of whole arrays at an entry, given that every operand the
    block's entry reads is the whole array's operand the array's entry reads. -/
theorem pay7_congr (x0 : Vec Ideal S5000x128 .f32) (mu va g beta a : Vec Ideal S128 .f32) (w : Vec Ideal S128x128 .f32)
    (b : Vec Ideal S128 .f32) (H : S50000x128.Idx → EReal) (MU VA GA BETA A : S128.Idx → EReal) (W : S128x128.Idx → EReal)
    (B : S128.Idx → EReal) (j : S5000x128.Idx) (i : S50000x128.Idx)
    (hx : ∀ k : Fin 128, x0 (ix2 (j 0) k) = H (ix2 (i 0) k))
    (hmu : ∀ k : Fin 128, mu (ix1 k) = MU (ix1 k)) (hva : ∀ k : Fin 128, va (ix1 k) = VA (ix1 k))
    (hg : ∀ k : Fin 128, g (ix1 k) = GA (ix1 k)) (hbeta : ∀ k : Fin 128, beta (ix1 k) = BETA (ix1 k))
    (ha : ∀ k : Fin 128, a (ix1 k) = A (ix1 k))
    (hw : ∀ k : Fin 128, w (ix2 k (j 1)) = W (ix2 k (i 1))) (hb : b (ix1 (j 1)) = B (ix1 (i 1))) :
    k7_pay1 (F := Ideal) x0 mu va g beta a w b j = Gtail H MU VA GA BETA A W B i := by
  refine (pay7_apply x0 mu va g beta a w b j).trans ?_
  unfold Gtail
  rw [hb]
  refine congrArg₂ (fun (x y : EReal) => x + y) (Finset.sum_congr rfl fun k _ => ?_) rfl
  rw [hx k, hmu k, hva k, hg k, hbeta k, ha k, hw k]

end Cert.KernelIdeal.RegionVal
-- ==== Proof.RegionTail.lean ====
/-
  The two predictor-tail regions, each at ANY buffer contents `V` on entry: every entry of a point's 5000 rows of the
  first layer is normalised with its column's mean and variance (a reciprocal square root), scaled, shifted and passed
  through the leaky rectifier with its column's slope — all of it pointwise, so a block of the activation is the
  activation of the block — and the activated block is multiplied by the second weight and the bias row added; the
  ten blocks cover the result, which ends holding the tail of the whole arrays.
-/
import proofs.«123214_j35218731827951_1_alg».proof.Proof.Gen.KernelIdeal.Frame
import proofs.«123214_j35218731827951_1_alg».proof.Proof.RegionTailOps
import proofs.«123214_j35218731827951_1_alg».proof.Proof.RegionSpecIdx
import Idealize.ShloMosaic.Lib.ValueIdx
import Idealize.ShloMosaic.Lib.Pipeline.Value

set_option maxRecDepth 16384

noncomputable section

open scoped BigOperators
open Idealize.ShloMosaic Idealize.ShloMosaic.ValueIdx Idealize.ShloMosaic.TcCoe Idealize.SL.Sem
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-! ## Region 5 -/
theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 1) = 0 :=
  (by decide +kernel : ∀ t : Fin grid5.N, _)
theorem idx5_2 : ∀ t : Fin cfg5.N, win5_2.index t (0 : Fin 1) = 0 :=
  (by decide +kernel : ∀ t : Fin grid5.N, _)
theorem idx5_3 : ∀ t : Fin cfg5.N, win5_3.index t (0 : Fin 1) = 0 :=
  (by decide +kernel : ∀ t : Fin grid5.N, _)
theorem idx5_4 : ∀ t : Fin cfg5.N, win5_4.index t (0 : Fin 1) = 0 :=
  (by decide +kernel : ∀ t : Fin grid5.N, _)
theorem idx5_5 : ∀ t : Fin cfg5.N, win5_5.index t (0 : Fin 1) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 1) = 0 :=
  (by decide +kernel : ∀ t : Fin grid5.N, _)
theorem idx5_8 : ∀ t : Fin cfg5.N, win5_8.index t (0 : Fin 2) = t.val ∧ win5_8.index t (1 : Fin 2) = 0 :=
  (by decide +kernel : ∀ t : Fin grid5.N, _)

/-- Window 0's block at point `t` is rows `5000 t … 5000 t + 4999` of its array. -/
theorem iblk5_0_apply (c : Dev nD) (t : Fin cfg5.N) (x : S5000x128.Idx) (k : S50000x128.Idx)
    (hk0 : (k 0).val = 5000 * t.val + (x 0).val) (hk1 : (k 1).val = (x 1).val) :
    (iblk5 V c 0 t : Vec Ideal S5000x128 .f32) x = (V c (Pipeline.arrRef spec5 0) : S50000x128.Idx → EReal) k := by
  obtain ⟨e0, e1⟩ := idx5_0 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * (x 0).val = (k 0).val; rw [e0, hk0]; omega
  | ⟨1, _⟩ => show win5_0.index t (1 : Fin 2) * 128 + 1 * (x 1).val = (k 1).val; rw [e1, hk1]; omega

/-- Window 1's block at every point is its whole vector. -/
theorem iblk5_1_apply (c : Dev nD) (t : Fin cfg5.N) (x k : S128.Idx) (hk0 : (k 0).val = (x 0).val) :
    (iblk5 V c 1 t : Vec Ideal S128 .f32) x = (V c (Pipeline.arrRef spec5 1) : S128.Idx → EReal) k := by
  have e0 := idx5_1 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 1) * 128 + 1 * (x 0).val = (k 0).val; rw [e0, hk0]; omega

/-- Window 2's block at every point is its whole vector. -/
theorem iblk5_2_apply (c : Dev nD) (t : Fin cfg5.N) (x k : S128.Idx) (hk0 : (k 0).val = (x 0).val) :
    (iblk5 V c 2 t : Vec Ideal S128 .f32) x = (V c (Pipeline.arrRef spec5 2) : S128.Idx → EReal) k := by
  have e0 := idx5_2 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 1) * 128 + 1 * (x 0).val = (k 0).val; rw [e0, hk0]; omega

/-- Window 3's block at every point is its whole vector. -/
theorem iblk5_3_apply (c : Dev nD) (t : Fin cfg5.N) (x k : S128.Idx) (hk0 : (k 0).val = (x 0).val) :
    (iblk5 V c 3 t : Vec Ideal S128 .f32) x = (V c (Pipeline.arrRef spec5 3) : S128.Idx → EReal) k := by
  have e0 := idx5_3 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 1) * 128 + 1 * (x 0).val = (k 0).val; rw [e0, hk0]; omega

/-- Window 4's block at every point is its whole vector. -/
theorem iblk5_4_apply (c : Dev nD) (t : Fin cfg5.N) (x k : S128.Idx) (hk0 : (k 0).val = (x 0).val) :
    (iblk5 V c 4 t : Vec Ideal S128 .f32) x = (V c (Pipeline.arrRef spec5 4) : S128.Idx → EReal) k := by
  have e0 := idx5_4 t
  unfold iblk5
  rw [View.read_apply]
  show V c (Pipeline.arrRef spec5 4) _ = V c (Pipeline.arrRef spec5 4) _
  congr 1
  funext a
  apply Fin.ext
  match a with
  | ⟨0, _⟩ => show win5_4.index t (0 : Fin 1) * 128 + 1 * (x 0).val = (k 0).val; rw [e0, hk0]; omega

/-- Window 5's block at every point is its whole vector. -/
theorem iblk5_5_apply (c : Dev nD) (t : Fin cfg5.N) (x k : S128.Idx) (hk0 : (k 0).val = (x 0).val) :
    (iblk5 V c 5 t : Vec Ideal S128 .f32) x = (V c (Pipeline.arrRef spec5 5) : S128.Idx → EReal) k := by
  have e0 := idx5_5 t
  unfold iblk5
  rw [View.read_apply]
  show V c (Pipeline.arrRef spec5 5) _ = V c (Pipeline.arrRef spec5 5) _
  congr 1
  funext a
  apply Fin.ext
  match a with
  | ⟨0, _⟩ => show win5_5.index t (0 : Fin 1) * 128 + 1 * (x 0).val = (k 0).val; rw [e0, hk0]; omega

/-- Window 6's block at every point is its whole array. -/
theorem iblk5_6_apply (c : Dev nD) (t : Fin cfg5.N) (x k : S128x128.Idx)
    (hk0 : (k 0).val = (x 0).val) (hk1 : (k 1).val = (x 1).val) :
    (iblk5 V c 6 t : Vec Ideal S128x128 .f32) x = (V c (Pipeline.arrRef spec5 6) : S128x128.Idx → EReal) k := by
  obtain ⟨e0, e1⟩ := idx5_6 t
  unfold iblk5
  rw [View.read_apply]
  show V c (Pipeline.arrRef spec5 6) _ = V c (Pipeline.arrRef spec5 6) _
  congr 1
  funext a
  apply Fin.ext
  match a with
  | ⟨0, _⟩ => show win5_6.index t (0 : Fin 2) * 128 + 1 * (x 0).val = (k 0).val; rw [e0, hk0]; omega
  | ⟨1, _⟩ => show win5_6.index t (1 : Fin 2) * 128 + 1 * (x 1).val = (k 1).val; rw [e1, hk1]; omega

/-- Window 7's block at every point is its whole vector. -/
theorem iblk5_7_apply (c : Dev nD) (t : Fin cfg5.N) (x k : S128.Idx) (hk0 : (k 0).val = (x 0).val) :
    (iblk5 V c 7 t : Vec Ideal S128 .f32) x = (V c (Pipeline.arrRef spec5 7) : S128.Idx → EReal) k := by
  have e0 := idx5_7 t
  unfold iblk5
  rw [View.read_apply]
  show V c (Pipeline.arrRef spec5 7) _ = V c (Pipeline.arrRef spec5 7) _
  congr 1
  funext a
  apply Fin.ext
  match a with
  | ⟨0, _⟩ => show win5_7.index t (0 : Fin 1) * 128 + 1 * (x 0).val = (k 0).val; rw [e0, hk0]; omega

set_option maxHeartbeats 1000000 in
/-- What point `t` writes back is block `t` of the entry-by-entry function of the arrays the region finds. -/
theorem flushed5_eq (c : Dev nD) (t : Fin cfg5.N) :
    (dat5 V c).flushed 8 t = ((cfg5.win 8).blk t).view.read (Elt Ideal)
      (Gtail (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7))) := by
  show (cfg5.win 8).cut (grid5.coords t) ((dat5 V c).after 8 t) = _
  rw [after5_8]
  unfold out5_8
  rw [View.canon_unit_zero hz2]
  simp only [View.ld_unit_zero (S := S5000x128) hz2, View.ld_unit_zero (S := S128) hz1, View.ld_unit_zero (S := S128x128) hz2]
  obtain ⟨e0, e1⟩ := idx5_8 t
  funext j
  show k5_pay1 (F := Ideal) (iblk5 V c 0 t) (iblk5 V c 1 t) (iblk5 V c 2 t) (iblk5 V c 3 t) (iblk5 V c 4 t) (iblk5 V c 5 t) (iblk5 V c 6 t) (iblk5 V c 7 t) j
    = Gtail (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (((cfg5.win 8).blk t).view.emb j)
  have h0 : ((((cfg5.win 8).blk t).view.emb j) 0).val = 5000 * t.val + (j 0).val := by
    show win5_8.index t (0 : Fin 2) * 5000 + 1 * (j 0).val = _
    rw [e0]; omega
  have h1 : ((((cfg5.win 8).blk t).view.emb j) 1).val = (j 1).val := by
    show win5_8.index t (1 : Fin 2) * 128 + 1 * (j 1).val = _
    rw [e1]; omega
  exact pay5_congr (iblk5 V c 0 t) (iblk5 V c 1 t) (iblk5 V c 2 t) (iblk5 V c 3 t) (iblk5 V c 4 t) (iblk5 V c 5 t) (iblk5 V c 6 t) (iblk5 V c 7 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) j (((cfg5.win 8).blk t).view.emb j)
    (fun k => iblk5_0_apply V c t (ix2 (j 0) k) (ix2 ((((cfg5.win 8).blk t).view.emb j) 0) k) h0 rfl)
    (fun k => iblk5_1_apply V c t (ix1 k) (ix1 k) rfl) (fun k => iblk5_2_apply V c t (ix1 k) (ix1 k) rfl)
    (fun k => iblk5_3_apply V c t (ix1 k) (ix1 k) rfl) (fun k => iblk5_4_apply V c t (ix1 k) (ix1 k) rfl)
    (fun k => iblk5_5_apply V c t (ix1 k) (ix1 k) rfl)
    (fun k => iblk5_6_apply V c t (ix2 k (j 1)) (ix2 k ((((cfg5.win 8).blk t).view.emb j) 1)) rfl h1)
    (iblk5_7_apply V c t (ix1 (j 1)) (ix1 ((((cfg5.win 8).blk t).view.emb j) 1)) h1)

/-- An index of the array is in point `t`'s block iff each coordinate is in the block's range on its axis. -/
theorem mem_blk5 (t : Fin cfg5.N) (i : S50000x128.Idx) :
    i ∈ ((cfg5.win 8).blk t).view.set ↔ ∀ a : Fin 2, win5_8.index t a * S5000x128.size a ≤ (i a).val ∧ (i a).val < win5_8.index t a * S5000x128.size a + S5000x128.size a := by
  show i ∈ ((View.whole main_v76).slice (win5_8.rect t)).set ↔ _
  rw [View.set_slice_whole, Rect.mem_set_unit]
  exact Iff.rfl

/-- The ten blocks of 5000 rows cover the array: row `r` lies in the block of point `r / 5000`. -/
theorem cover5 (i : S50000x128.Idx) : ∃ t : Fin cfg5.N, (cfg5.win 8).flush t = true ∧ i ∈ ((cfg5.win 8).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1⟩ := idx5_8 t
  refine ⟨t, flush5_8 t, ?_⟩
  rw [mem_blk5]
  intro a
  have ht : t.val = (i 0).val / 5000 := rfl
  match a with
  | ⟨0, _⟩ => show win5_8.index t (0 : Fin 2) * 5000 ≤ (i 0).val ∧ (i 0).val < win5_8.index t (0 : Fin 2) * 5000 + 5000; rw [e0, ht]; omega
  | ⟨1, _⟩ => show win5_8.index t (1 : Fin 2) * 128 ≤ (i 1).val ∧ (i 1).val < win5_8.index t (1 : Fin 2) * 128 + 128; rw [e1]; omega

/-- The array after the region, entry by entry. -/
theorem region5_G (c : Dev nD) :
    (dat5 V c).arrAt 8 cfg5.N = Gtail (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) :=
  (dat5 V c).arrAt_eq_of_cover 8 _ (fun t _ => flushed5_eq V c t) cover5

/-- The array after the region is the specification's function of the arrays the region finds. -/
theorem region5_out (c : Dev nD) :
    ((dat5 V c).arrAt 8 cfg5.N : S50000x128.Idx → EReal)
      = Cert.Spec.tailK (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) :=
  (region5_G V c).trans (Cert.Spec.AtIdx.tailK_eq _ _ _ _ _ _ _ _).symm

/-! ## Region 7 -/
theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 1) = 0 :=
  (by decide +kernel : ∀ t : Fin grid7.N, _)
theorem idx7_2 : ∀ t : Fin cfg7.N, win7_2.index t (0 : Fin 1) = 0 :=
  (by decide +kernel : ∀ t : Fin grid7.N, _)
theorem idx7_3 : ∀ t : Fin cfg7.N, win7_3.index t (0 : Fin 1) = 0 :=
  (by decide +kernel : ∀ t : Fin grid7.N, _)
theorem idx7_4 : ∀ t : Fin cfg7.N, win7_4.index t (0 : Fin 1) = 0 :=
  (by decide +kernel : ∀ t : Fin grid7.N, _)
theorem idx7_5 : ∀ t : Fin cfg7.N, win7_5.index t (0 : Fin 1) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)
theorem idx7_7 : ∀ t : Fin cfg7.N, win7_7.index t (0 : Fin 1) = 0 :=
  (by decide +kernel : ∀ t : Fin grid7.N, _)
theorem idx7_8 : ∀ t : Fin cfg7.N, win7_8.index t (0 : Fin 2) = t.val ∧ win7_8.index t (1 : Fin 2) = 0 :=
  (by decide +kernel : ∀ t : Fin grid7.N, _)

/-- Window 0's block at point `t` is rows `5000 t … 5000 t + 4999` of its array. -/
theorem iblk7_0_apply (c : Dev nD) (t : Fin cfg7.N) (x : S5000x128.Idx) (k : S50000x128.Idx)
    (hk0 : (k 0).val = 5000 * t.val + (x 0).val) (hk1 : (k 1).val = (x 1).val) :
    (iblk7 V c 0 t : Vec Ideal S5000x128 .f32) x = (V c (Pipeline.arrRef spec7 0) : S50000x128.Idx → EReal) k := by
  obtain ⟨e0, e1⟩ := idx7_0 t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * (x 0).val = (k 0).val; rw [e0, hk0]; omega
  | ⟨1, _⟩ => show win7_0.index t (1 : Fin 2) * 128 + 1 * (x 1).val = (k 1).val; rw [e1, hk1]; omega

/-- Window 1's block at every point is its whole vector. -/
theorem iblk7_1_apply (c : Dev nD) (t : Fin cfg7.N) (x k : S128.Idx) (hk0 : (k 0).val = (x 0).val) :
    (iblk7 V c 1 t : Vec Ideal S128 .f32) x = (V c (Pipeline.arrRef spec7 1) : S128.Idx → EReal) k := by
  have e0 := idx7_1 t
  unfold iblk7
  rw [View.read_apply]
  show V c (Pipeline.arrRef spec7 1) _ = V c (Pipeline.arrRef spec7 1) _
  congr 1
  funext a
  apply Fin.ext
  match a with
  | ⟨0, _⟩ => show win7_1.index t (0 : Fin 1) * 128 + 1 * (x 0).val = (k 0).val; rw [e0, hk0]; omega

/-- Window 2's block at every point is its whole vector. -/
theorem iblk7_2_apply (c : Dev nD) (t : Fin cfg7.N) (x k : S128.Idx) (hk0 : (k 0).val = (x 0).val) :
    (iblk7 V c 2 t : Vec Ideal S128 .f32) x = (V c (Pipeline.arrRef spec7 2) : S128.Idx → EReal) k := by
  have e0 := idx7_2 t
  unfold iblk7
  rw [View.read_apply]
  show V c (Pipeline.arrRef spec7 2) _ = V c (Pipeline.arrRef spec7 2) _
  congr 1
  funext a
  apply Fin.ext
  match a with
  | ⟨0, _⟩ => show win7_2.index t (0 : Fin 1) * 128 + 1 * (x 0).val = (k 0).val; rw [e0, hk0]; omega

/-- Window 3's block at every point is its whole vector. -/
theorem iblk7_3_apply (c : Dev nD) (t : Fin cfg7.N) (x k : S128.Idx) (hk0 : (k 0).val = (x 0).val) :
    (iblk7 V c 3 t : Vec Ideal S128 .f32) x = (V c (Pipeline.arrRef spec7 3) : S128.Idx → EReal) k := by
  have e0 := idx7_3 t
  unfold iblk7
  rw [View.read_apply]
  show V c (Pipeline.arrRef spec7 3) _ = V c (Pipeline.arrRef spec7 3) _
  congr 1
  funext a
  apply Fin.ext
  match a with
  | ⟨0, _⟩ => show win7_3.index t (0 : Fin 1) * 128 + 1 * (x 0).val = (k 0).val; rw [e0, hk0]; omega

/-- Window 4's block at every point is its whole vector. -/
theorem iblk7_4_apply (c : Dev nD) (t : Fin cfg7.N) (x k : S128.Idx) (hk0 : (k 0).val = (x 0).val) :
    (iblk7 V c 4 t : Vec Ideal S128 .f32) x = (V c (Pipeline.arrRef spec7 4) : S128.Idx → EReal) k := by
  have e0 := idx7_4 t
  unfold iblk7
  rw [View.read_apply]
  show V c (Pipeline.arrRef spec7 4) _ = V c (Pipeline.arrRef spec7 4) _
  congr 1
  funext a
  apply Fin.ext
  match a with
  | ⟨0, _⟩ => show win7_4.index t (0 : Fin 1) * 128 + 1 * (x 0).val = (k 0).val; rw [e0, hk0]; omega

/-- Window 5's block at every point is its whole vector. -/
theorem iblk7_5_apply (c : Dev nD) (t : Fin cfg7.N) (x k : S128.Idx) (hk0 : (k 0).val = (x 0).val) :
    (iblk7 V c 5 t : Vec Ideal S128 .f32) x = (V c (Pipeline.arrRef spec7 5) : S128.Idx → EReal) k := by
  have e0 := idx7_5 t
  unfold iblk7
  rw [View.read_apply]
  show V c (Pipeline.arrRef spec7 5) _ = V c (Pipeline.arrRef spec7 5) _
  congr 1
  funext a
  apply Fin.ext
  match a with
  | ⟨0, _⟩ => show win7_5.index t (0 : Fin 1) * 128 + 1 * (x 0).val = (k 0).val; rw [e0, hk0]; omega

/-- Window 6's block at every point is its whole array. -/
theorem iblk7_6_apply (c : Dev nD) (t : Fin cfg7.N) (x k : S128x128.Idx)
    (hk0 : (k 0).val = (x 0).val) (hk1 : (k 1).val = (x 1).val) :
    (iblk7 V c 6 t : Vec Ideal S128x128 .f32) x = (V c (Pipeline.arrRef spec7 6) : S128x128.Idx → EReal) k := by
  obtain ⟨e0, e1⟩ := idx7_6 t
  unfold iblk7
  rw [View.read_apply]
  show V c (Pipeline.arrRef spec7 6) _ = V c (Pipeline.arrRef spec7 6) _
  congr 1
  funext a
  apply Fin.ext
  match a with
  | ⟨0, _⟩ => show win7_6.index t (0 : Fin 2) * 128 + 1 * (x 0).val = (k 0).val; rw [e0, hk0]; omega
  | ⟨1, _⟩ => show win7_6.index t (1 : Fin 2) * 128 + 1 * (x 1).val = (k 1).val; rw [e1, hk1]; omega

/-- Window 7's block at every point is its whole vector. -/
theorem iblk7_7_apply (c : Dev nD) (t : Fin cfg7.N) (x k : S128.Idx) (hk0 : (k 0).val = (x 0).val) :
    (iblk7 V c 7 t : Vec Ideal S128 .f32) x = (V c (Pipeline.arrRef spec7 7) : S128.Idx → EReal) k := by
  have e0 := idx7_7 t
  unfold iblk7
  rw [View.read_apply]
  show V c (Pipeline.arrRef spec7 7) _ = V c (Pipeline.arrRef spec7 7) _
  congr 1
  funext a
  apply Fin.ext
  match a with
  | ⟨0, _⟩ => show win7_7.index t (0 : Fin 1) * 128 + 1 * (x 0).val = (k 0).val; rw [e0, hk0]; omega

set_option maxHeartbeats 1000000 in
/-- What point `t` writes back is block `t` of the entry-by-entry function of the arrays the region finds. -/
theorem flushed7_eq (c : Dev nD) (t : Fin cfg7.N) :
    (dat7 V c).flushed 8 t = ((cfg7.win 8).blk t).view.read (Elt Ideal)
      (Gtail (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7))) := by
  show (cfg7.win 8).cut (grid7.coords t) ((dat7 V c).after 8 t) = _
  rw [after7_8]
  unfold out7_8
  rw [View.canon_unit_zero hz2]
  simp only [View.ld_unit_zero (S := S5000x128) hz2, View.ld_unit_zero (S := S128) hz1, View.ld_unit_zero (S := S128x128) hz2]
  obtain ⟨e0, e1⟩ := idx7_8 t
  funext j
  show k7_pay1 (F := Ideal) (iblk7 V c 0 t) (iblk7 V c 1 t) (iblk7 V c 2 t) (iblk7 V c 3 t) (iblk7 V c 4 t) (iblk7 V c 5 t) (iblk7 V c 6 t) (iblk7 V c 7 t) j
    = Gtail (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (((cfg7.win 8).blk t).view.emb j)
  have h0 : ((((cfg7.win 8).blk t).view.emb j) 0).val = 5000 * t.val + (j 0).val := by
    show win7_8.index t (0 : Fin 2) * 5000 + 1 * (j 0).val = _
    rw [e0]; omega
  have h1 : ((((cfg7.win 8).blk t).view.emb j) 1).val = (j 1).val := by
    show win7_8.index t (1 : Fin 2) * 128 + 1 * (j 1).val = _
    rw [e1]; omega
  exact pay7_congr (iblk7 V c 0 t) (iblk7 V c 1 t) (iblk7 V c 2 t) (iblk7 V c 3 t) (iblk7 V c 4 t) (iblk7 V c 5 t) (iblk7 V c 6 t) (iblk7 V c 7 t)
    (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) j (((cfg7.win 8).blk t).view.emb j)
    (fun k => iblk7_0_apply V c t (ix2 (j 0) k) (ix2 ((((cfg7.win 8).blk t).view.emb j) 0) k) h0 rfl)
    (fun k => iblk7_1_apply V c t (ix1 k) (ix1 k) rfl) (fun k => iblk7_2_apply V c t (ix1 k) (ix1 k) rfl)
    (fun k => iblk7_3_apply V c t (ix1 k) (ix1 k) rfl) (fun k => iblk7_4_apply V c t (ix1 k) (ix1 k) rfl)
    (fun k => iblk7_5_apply V c t (ix1 k) (ix1 k) rfl)
    (fun k => iblk7_6_apply V c t (ix2 k (j 1)) (ix2 k ((((cfg7.win 8).blk t).view.emb j) 1)) rfl h1)
    (iblk7_7_apply V c t (ix1 (j 1)) (ix1 ((((cfg7.win 8).blk t).view.emb j) 1)) h1)

/-- An index of the array is in point `t`'s block iff each coordinate is in the block's range on its axis. -/
theorem mem_blk7 (t : Fin cfg7.N) (i : S50000x128.Idx) :
    i ∈ ((cfg7.win 8).blk t).view.set ↔ ∀ a : Fin 2, win7_8.index t a * S5000x128.size a ≤ (i a).val ∧ (i a).val < win7_8.index t a * S5000x128.size a + S5000x128.size a := by
  show i ∈ ((View.whole main_v82).slice (win7_8.rect t)).set ↔ _
  rw [View.set_slice_whole, Rect.mem_set_unit]
  exact Iff.rfl

/-- The ten blocks of 5000 rows cover the array: row `r` lies in the block of point `r / 5000`. -/
theorem cover7 (i : S50000x128.Idx) : ∃ t : Fin cfg7.N, (cfg7.win 8).flush t = true ∧ i ∈ ((cfg7.win 8).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  obtain ⟨e0, e1⟩ := idx7_8 t
  refine ⟨t, flush7_8 t, ?_⟩
  rw [mem_blk7]
  intro a
  have ht : t.val = (i 0).val / 5000 := rfl
  match a with
  | ⟨0, _⟩ => show win7_8.index t (0 : Fin 2) * 5000 ≤ (i 0).val ∧ (i 0).val < win7_8.index t (0 : Fin 2) * 5000 + 5000; rw [e0, ht]; omega
  | ⟨1, _⟩ => show win7_8.index t (1 : Fin 2) * 128 ≤ (i 1).val ∧ (i 1).val < win7_8.index t (1 : Fin 2) * 128 + 128; rw [e1]; omega

/-- The array after the region, entry by entry. -/
theorem region7_G (c : Dev nD) :
    (dat7 V c).arrAt 8 cfg7.N = Gtail (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) :=
  (dat7 V c).arrAt_eq_of_cover 8 _ (fun t _ => flushed7_eq V c t) cover7

/-- The array after the region is the specification's function of the arrays the region finds. -/
theorem region7_out (c : Dev nD) :
    ((dat7 V c).arrAt 8 cfg7.N : S50000x128.Idx → EReal)
      = Cert.Spec.tailK (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) :=
  (region7_G V c).trans (Cert.Spec.AtIdx.tailK_eq _ _ _ _ _ _ _ _).symm

end Cert.KernelIdeal.RegionVal
-- ==== Proof.LossPieces.lean ====
/-
  What the loss body leaves in entry (0, 0) of its 8×128 output block, read off the stores the run of the body found.
  At the first grid point the body zeroes the whole block, reads entry (0, 0) back and stores there that entry plus the
  tile's sum; at every later point it reads entry (0, 0) of what the point before left and stores there that entry plus
  the tile's sum.  In both cases the last store is the 1×1 store at the origin, so entry (0, 0) is that store's value:
  the body's arithmetic applied to the four input tiles and to the entry read.
-/
import proofs.«123214_j35218731827951_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.LossVal

open Cert.KernelIdeal Cert.KernelIdeal.Gen Idealize.ShloMosaic.ValueIdx

variable {F : FTy → Type} [FloatOps F] [Named F]

theorem hz : (![0, 0] : Fin 2 → Nat) = fun _ => 0 := funext fun a => by fin_cases a <;> rfl

/-- The 1×1 rectangle at the origin of the 8×128 block: where the running sum is kept. -/
abbrev R00 : Rect S8x128 := Rect.unit (s := S8x128) ![0, 0] S1x1.size inb_S8x128_S1x1_0_0

/-- Its one element is entry (0, 0) of the block. -/
theorem emb00 : R00.emb (ix2 0 0) = (ix2 0 0 : S8x128.Idx) :=
  funext fun a => Fin.ext (by match a with | ⟨0, _⟩ => rfl | ⟨1, _⟩ => rfl)

/-- After any stores whose last is a store through the origin rectangle, entry (0, 0) holds that store's value. -/
theorem read_head (v : View sig .tc .vmem S8x128 .f32) (f : v.ty.Contents (Elt F))
    (w : R00.shape.Idx → Elt F .f32) (L : List (View.Piece (Elt F) S8x128 .f32)) :
    v.read (Elt F) (v.writes (Elt F) f (⟨R00, w⟩ :: L)) (ix2 0 0) = w (ix2 0 0) :=
  (congrArg (v.read (Elt F) (v.writes (Elt F) f (⟨R00, w⟩ :: L))) emb00.symm).trans
    (View.read_writes_cons_emb v f R00 w L (ix2 0 0))

/-- The body's arithmetic on four input tiles and the accumulator entry read: the new accumulator entry. -/
abbrev step (x0 x1 x2 x3 : Vec F S2000x128 .f32) (acc : Vec F S1x1 .f32) : FVec F S1x1 .f32 :=
  k8_pay1 (k8_pay3 x0 x1) (k8_pay4 x2) (k8_pay5 x3) (k8_pay6 x2) (k8_pay7 x3) acc

/-- A LATER POINT: entry (0, 0) after the body is the step applied to the entry the block held before. -/
theorem out_B (c : Dev nD) (i : grid8.Coords) (a1 : Memref sig .tc .vmem S2000x128 .f32) (h1 : a1.IsWhole)
    (a2 : Memref sig .tc .vmem S2000x128 .f32) (h2 : a2.IsWhole) (a3 : Memref sig .tc .vmem S2000x128 .f32) (h3 : a3.IsWhole)
    (a4 : Memref sig .tc .vmem S2000x128 .f32) (h4 : a4.IsWhole) (a5 : Memref sig .tc .vmem S8x128 .f32) (h5 : a5.IsWhole)
    (hc : ¬cond8_0 i) (x0 x1 x2 x3 : Vec F S2000x128 .f32) (xo : Vec F S8x128 .f32) :
    out8_B_4 c i a1 h1 a2 h2 a3 h3 a4 h4 a5 h5 hc x0 x1 x2 x3 xo (ix2 0 0)
      = step x0 x1 x2 x3 (View.ld xo R00) (ix2 0 0) := by
  unfold out8_B_4
  unfold kernelRun8_B
  dsimp only
  sl_unfold_words
  refine (read_head _ _ _ _).trans ?_
  simp only [View.readAt_eq_ld, h1.read_unread, h2.read_unread, h3.read_unread, h4.read_unread, h5.read_unread,
    View.ld_unit_zero (S := S2000x128) hz]

/-- THE FIRST POINT: entry (0, 0) after the body is the step applied to the zero the body has just stored there. -/
theorem out_A (c : Dev nD) (i : grid8.Coords) (a1 : Memref sig .tc .vmem S2000x128 .f32) (h1 : a1.IsWhole)
    (a2 : Memref sig .tc .vmem S2000x128 .f32) (h2 : a2.IsWhole) (a3 : Memref sig .tc .vmem S2000x128 .f32) (h3 : a3.IsWhole)
    (a4 : Memref sig .tc .vmem S2000x128 .f32) (h4 : a4.IsWhole) (a5 : Memref sig .tc .vmem S8x128 .f32) (h5 : a5.IsWhole)
    (hc : cond8_0 i) (x0 x1 x2 x3 : Vec F S2000x128 .f32) :
    out8_A_4 c i a1 h1 a2 h2 a3 h3 a4 h4 a5 h5 hc x0 x1 x2 x3 (ix2 0 0)
      = step x0 x1 x2 x3 (View.ld (k8_pay2 (F := F)) R00) (ix2 0 0) := by
  unfold out8_A_4
  unfold kernelRun8_A
  dsimp only
  sl_unfold_words
  refine (read_head _ _ _ _).trans ?_
  simp only [View.readAt_eq_ld, h1.read_unread, h2.read_unread, h3.read_unread, h4.read_unread,
    View.ld_unit_zero (S := S2000x128) hz]
  rw [View.readCov_eq_canon', View.canon_unit_zero hz]

end Cert.KernelIdeal.LossVal

end
-- ==== Proof.LossSpec.lean ====
/-
  The mathematics of the loss region, row by row.  A row a of 128 extended reals is normalised by multiplying each
  entry by the reciprocal square root of max(∑ⱼ aⱼ², e): the row's sum of squares floored at a positive constant e.
  The loss term of a pair of rows (a, b) is 2 − 2·∑ₖ âₖ·b̂ₖ over their normalised entries.  For a pair of arrays with
  128 columns the term of row n is that of their n-th rows.  Nothing here mentions a program.
-/
import Idealize.ShloMosaic.Lib.ValueIdx

noncomputable section

open scoped BigOperators

namespace Cert.LossSpec

open Idealize.ShloMosaic Idealize.ShloMosaic.ValueIdx

/-- The number 2, as the float word both programs print for it. -/
abbrev two : EReal := Ideal.ofBits .f32 0x40000000#32

/-- The floor under a row's sum of squares: the square of the float nearest 1e-12, an exact dyadic rational. -/
def epsSq : EReal := ((5316911940649 / 5316911983139663491615228241121378304 : ℝ) : EReal)

/-- A row's sum of squares. -/
def sumSq (a : Fin 128 → EReal) : EReal := ∑ j : Fin 128, a j * a j

/-- Entry k of the normalised row: the entry times the reciprocal square root of the floored sum of squares. -/
def unit (e : EReal) (a : Fin 128 → EReal) (k : Fin 128) : EReal := a k * Ideal.rsqrt (max (sumSq a) e)

/-- The loss term of two rows: 2 − 2·(the inner product of the normalised rows). -/
def rowDot (e : EReal) (a b : Fin 128 → EReal) : EReal := two - two * ∑ k : Fin 128, unit e a k * unit e b k

/-- Row n of an array with N rows and 128 columns. -/
def row {N : Nat} (p : (⟨2, ![N, 128]⟩ : Shape).Idx → EReal) (n : Fin N) : Fin 128 → EReal := fun k => p (ix2 n k)

/-- The loss term of row n of a pair of arrays. -/
def rowTerm {N : Nat} (e : EReal) (p t : (⟨2, ![N, 128]⟩ : Shape).Idx → EReal) (n : Fin N) : EReal :=
  rowDot e (row p n) (row t n)

end Cert.LossSpec

end
-- ==== Proof.LossOps.lean ====
/-
  The loss body's vector operations read at one index, over the literal shapes of a 2000-row tile: a column of 2000
  values as a 2000×1 array and spread over the 128 lanes, the sum over the 128 lanes of a row, the sum over the 2000
  rows of a column, and the one-element re-layouts.  Each says which operand entry a result entry reads.
-/
import Idealize.ShloMosaic.Lib.ValueIdx
import Idealize.ShloMosaic.Lib.Pipeline.Value
import Idealize.ShloMosaic.PureOps.Ideal.Laws

noncomputable section

open scoped BigOperators

namespace Cert.LossOps

open Idealize.ShloMosaic Idealize.ShloMosaic.ValueIdx

variable {α : Type}

/-- A 2000-vector viewed as a 2000×1 column reads row r at (r, 0). -/
theorem colCast_apply (v : (⟨1, ![2000]⟩ : Shape).Idx → α) (h : (⟨1, ![2000]⟩ : Shape).ShapeCasts ⟨2, ![2000, 1]⟩)
    (r : Fin 2000) (z : Fin 1) : shapeCast ⟨2, ![2000, 1]⟩ v h (ix2 r z) = v (ix1 r) := by
  refine shapeCast_apply v h (ix2 r z) (ix1 r) ?_
  rw [Shape.rowMajor_val_one, Shape.rowMajor_val_two]
  show r.val = r.val * 1 + z.val
  omega

/-- A 2000×1 column spread over 128 lanes reads (r, k) at (r, 0). -/
theorem spread_apply (v : (⟨2, ![2000, 1]⟩ : Shape).Idx → α) (h : (⟨2, ![2000, 1]⟩ : Shape).Broadcasts ⟨2, ![2000, 128]⟩)
    (r : Fin 2000) (k : Fin 128) : broadcastTo ⟨2, ![2000, 128]⟩ v h (ix2 r k) = v (ix2 r 0) := by
  refine broadcastTo_apply v h (ix2 r k) (ix2 r 0) fun a => ?_
  match a with
  | ⟨0, _⟩ => exact (if_neg (show ¬(2000 : Nat) = 1 by decide)).symm
  | ⟨1, _⟩ => exact (if_pos rfl).symm

/-- A one-element vector viewed as a 1×1 array. -/
theorem cast11_apply (v : (⟨1, ![1]⟩ : Shape).Idx → α) (h : (⟨1, ![1]⟩ : Shape).ShapeCasts ⟨2, ![1, 1]⟩)
    (a b : Fin 1) : shapeCast ⟨2, ![1, 1]⟩ v h (ix2 a b) = v (ix1 0) := by
  refine shapeCast_apply v h (ix2 a b) (ix1 0) ?_
  rw [Shape.rowMajor_val_one, Shape.rowMajor_val_two]
  show (0 : Fin 1).val = a.val * 1 + b.val
  omega

/-- The sum over the 128 lanes of row r of a 2000×128 array of extended reals. -/
theorem laneSum_apply (v : FVec Ideal ⟨2, ![2000, 128]⟩ .f32) (h : (⟨2, ![2000, 128]⟩ : Shape).Reduces [1] ⟨1, ![2000]⟩)
    (hφ : FKind.Formats .f32) (hacc : (0x00000000#32 : BitVec 32) = FKind.add.neutral .f32 hφ) (r : Fin 2000) :
    multiReduction .add [1] ⟨1, ![2000]⟩ v 0x00000000#32 h hφ hacc (ix1 r) = ∑ k : Fin 128, v (ix2 r k) := by
  refine (Ideal.multiReduction_add_single v _ h hφ hacc (ix1 r)).trans ?_
  refine Finset.sum_congr rfl fun k _ => congrArg v (funext fun a => Fin.ext ?_)
  match a with
  | ⟨0, _⟩ => rfl
  | ⟨1, _⟩ => rfl

/-- The sum over the 2000 rows of a 2000×1 column of extended reals. -/
theorem colSum_apply (v : FVec Ideal ⟨2, ![2000, 1]⟩ .f32) (h : (⟨2, ![2000, 1]⟩ : Shape).Reduces [0] ⟨1, ![1]⟩)
    (hφ : FKind.Formats .f32) (hacc : (0x00000000#32 : BitVec 32) = FKind.add.neutral .f32 hφ) (z : Fin 1) :
    multiReduction .add [0] ⟨1, ![1]⟩ v 0x00000000#32 h hφ hacc (ix1 z) = ∑ r : Fin 2000, v (ix2 r 0) := by
  refine (Ideal.multiReduction_add_single v _ h hφ hacc (ix1 z)).trans ?_
  refine Finset.sum_congr rfl fun r _ => congrArg v (funext fun a => Fin.ext ?_)
  match a with
  | ⟨0, _⟩ => rfl
  | ⟨1, _⟩ => show (z : Nat) = 0; omega

end Cert.LossOps

end
-- ==== Proof.LossPay.lean ====
/-
  The loss body's arithmetic at the extended reals.  On a tile of 2000 rows the body computes, for the first pair of
  arrays, each row's term 2 − 2·⟨p̂, t̂⟩ as a column; for the second pair the rows' sums of squares; then the second
  pair's terms, the column of sums of the two terms, its total over the 2000 rows, and adds that total to the
  accumulator entry it read.  Each lemma reads one of these values at one index as the row formula of the
  specification; the last puts them together: the new accumulator entry is the old one plus the tile's 2000 row terms.
-/
import proofs.«123214_j35218731827951_1_alg».proof.Proof.Gen.KernelIdeal.Skeleton
import proofs.«123214_j35218731827951_1_alg».proof.Proof.LossSpec
import proofs.«123214_j35218731827951_1_alg».proof.Proof.LossOps
import Idealize.ShloMosaic.Lib.Pipeline.Value
import Idealize.ShloMosaic.Lib.ValueIdx

noncomputable section

open scoped BigOperators
open Idealize.ShloMosaic Idealize.SL.Sem

namespace Cert.KernelIdeal.LossVal

open Cert.KernelIdeal Cert.KernelIdeal.Gen Idealize.ShloMosaic.ValueIdx Cert.LossSpec Cert.LossOps

/-- The floor under the sums of squares, as the program names it, is the specification's constant. -/
theorem eps_eq : (Named.named (F := Ideal) κ "eps_norm_sq" (φ := .f32) 0x179ABE15#32 : EReal) = epsSq := rfl

/-- The reciprocal square root of a vector, at an index. -/
theorem rsqrt_apply {s : Shape} {φ : FTy} (a : FVec Ideal s φ) (i : s.Idx) : rsqrt a i = Ideal.rsqrt (a i) := rfl

/-- The second pair's first array: its rows' sums of squares, as a column. -/
theorem pay6_apply (x : Vec Ideal S2000x128 .f32) (r : Fin 2000) :
    k8_pay6 (F := Ideal) x (ix2 r 0) = sumSq (row x r) := by
  unfold k8_pay6 k8_pay4
  dsimp only
  simp only [shapeCast_self]
  exact (colCast_apply _ _ r 0).trans (laneSum_apply _ _ _ _ r)

/-- The second pair's second array: its rows' sums of squares, as a vector. -/
theorem pay7_apply (x : Vec Ideal S2000x128 .f32) (r : Fin 2000) :
    k8_pay7 (F := Ideal) x (ix1 r) = sumSq (row x r) := by
  unfold k8_pay7 k8_pay5
  dsimp only
  simp only [shapeCast_self]
  exact laneSum_apply _ _ _ _ r

/-- The first pair's row terms, as a column. -/
theorem pay3_apply (x0 x1 : Vec Ideal S2000x128 .f32) (r : Fin 2000) :
    k8_pay3 (F := Ideal) x0 x1 (ix2 r 0) = rowTerm epsSq x0 x1 r := by
  unfold k8_pay3
  dsimp only
  simp only [shapeCast_self]
  refine congrArg (fun s : EReal => two - two * s) ?_
  refine (colCast_apply _ _ r 0).trans ((laneSum_apply _ _ _ _ r).trans (Finset.sum_congr rfl fun k _ => ?_))
  refine congrArg₂ (fun a b : EReal => a * b) ?_ ?_
  · refine congrArg (fun s : EReal => x0 (ix2 r k) * s) ?_
    refine (spread_apply _ _ r k).trans ?_
    exact congrArg (fun s : EReal => Ideal.rsqrt (max s epsSq)) ((colCast_apply _ _ r 0).trans (laneSum_apply _ _ _ _ r))
  · refine congrArg (fun s : EReal => x1 (ix2 r k) * s) ?_
    refine (spread_apply _ _ r k).trans ?_
    exact congrArg (fun s : EReal => Ideal.rsqrt (max s epsSq)) ((colCast_apply _ _ r 0).trans (laneSum_apply _ _ _ _ r))

/-- THE STEP: the new accumulator entry is the entry read plus the 2000 rows' two terms. -/
theorem step_apply (x0 x1 x2 x3 : Vec Ideal S2000x128 .f32) (acc : Vec Ideal S1x1 .f32) :
    k8_pay1 (F := Ideal) (k8_pay3 x0 x1) (k8_pay4 x2) (k8_pay5 x3) (k8_pay6 x2) (k8_pay7 x3) acc (ix2 0 0)
      = acc (ix2 0 0) + ∑ r : Fin 2000, (rowTerm epsSq x0 x1 r + rowTerm epsSq x2 x3 r) := by
  unfold k8_pay1 k8_pay4 k8_pay5
  dsimp only
  simp only [shapeCast_self]
  refine congrArg (fun s : EReal => acc (ix2 0 0) + s) ?_
  refine (cast11_apply _ _ 0 0).trans ((colSum_apply _ _ _ _ 0).trans (Finset.sum_congr rfl fun r _ => ?_))
  refine congrArg₂ (fun a b : EReal => a + b) (pay3_apply x0 x1 r) ?_
  refine congrArg (fun s : EReal => two - two * s) ?_
  refine (colCast_apply _ _ r 0).trans ((laneSum_apply _ _ _ _ r).trans (Finset.sum_congr rfl fun k _ => ?_))
  refine congrArg₂ (fun a b : EReal => a * b) ?_ ?_
  · refine congrArg (fun s : EReal => x2 (ix2 r k) * s) ?_
    refine (spread_apply _ _ r k).trans ?_
    exact congrArg (fun s : EReal => Ideal.rsqrt (max s epsSq)) (pay6_apply x2 r)
  · refine congrArg (fun s : EReal => x3 (ix2 r k) * s) ?_
    refine (spread_apply _ _ r k).trans ?_
    exact congrArg (fun s : EReal => Ideal.rsqrt (max s epsSq)) ((colCast_apply _ _ r 0).trans (pay7_apply x3 r))

end Cert.KernelIdeal.LossVal

end
-- ==== Proof.LossChain.lean ====
/-
  The loss region's accumulator over the grid.  Entry (0, 0) of the 8×128 output block starts at zero at the first of
  the 25 grid points and grows at every point by that point's tile sum: the sum over the tile's 2000 rows of the two
  pairs' row terms.  By induction on the point the entry after point n is 0 + tile 0 + … + tile n; the block is written
  back to its array once, after the last point, and the block is the whole array; so entry (0, 0) of the array ends at
  the sum of the 25 tile sums.
-/
import proofs.«123214_j35218731827951_1_alg».proof.Proof.Gen.KernelIdeal.Frame
import proofs.«123214_j35218731827951_1_alg».proof.Proof.LossPieces
import proofs.«123214_j35218731827951_1_alg».proof.Proof.LossPay
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem
open Idealize.ShloMosaic.Pipeline (Dat)

namespace Cert.KernelIdeal.LossVal

open Cert.KernelIdeal Cert.KernelIdeal.Gen Idealize.ShloMosaic.ValueIdx Cert.LossSpec

variable (V : (c : Dev nD) → (b : Ref sig .tc) → Buf (Elt Ideal) ((c : Thread nD τ).loc b))

/-- A tile's sum: over its 2000 rows, the row terms of the two pairs. -/
def tileOf (x0 x1 x2 x3 : Vec Ideal S2000x128 .f32) : EReal :=
  ∑ r : Fin 2000, (rowTerm (N := 2000) epsSq x0 x1 r + rowTerm (N := 2000) epsSq x2 x3 r)

/-- The zero the first point stores, read back at the origin. -/
theorem zero00 : (View.ld (Val := Elt Ideal) (e' := .f32) (k8_pay2 (F := Ideal)) R00 (ix2 0 0) : EReal) = 0 := Ideal.ofBits_zero_f32

/-- The first point leaves 0 + its tile sum in entry (0, 0). -/
theorem stepA (c : Dev nD) (i : grid8.Coords) (a1 : Memref sig .tc .vmem S2000x128 .f32) (h1 : a1.IsWhole)
    (a2 : Memref sig .tc .vmem S2000x128 .f32) (h2 : a2.IsWhole) (a3 : Memref sig .tc .vmem S2000x128 .f32) (h3 : a3.IsWhole)
    (a4 : Memref sig .tc .vmem S2000x128 .f32) (h4 : a4.IsWhole) (a5 : Memref sig .tc .vmem S8x128 .f32) (h5 : a5.IsWhole)
    (hc : cond8_0 i) (x0 x1 x2 x3 : Vec Ideal S2000x128 .f32) :
    out8_A_4 (F := Ideal) c i a1 h1 a2 h2 a3 h3 a4 h4 a5 h5 hc x0 x1 x2 x3 (ix2 0 0) = 0 + tileOf x0 x1 x2 x3 :=
  (out_A (F := Ideal) c i a1 h1 a2 h2 a3 h3 a4 h4 a5 h5 hc x0 x1 x2 x3).trans
    ((step_apply x0 x1 x2 x3 (View.ld (k8_pay2 (F := Ideal)) R00)).trans (congrArg (fun z : EReal => z + tileOf x0 x1 x2 x3) zero00))

/-- A later point adds its tile sum to what entry (0, 0) held. -/
theorem stepB (c : Dev nD) (i : grid8.Coords) (a1 : Memref sig .tc .vmem S2000x128 .f32) (h1 : a1.IsWhole)
    (a2 : Memref sig .tc .vmem S2000x128 .f32) (h2 : a2.IsWhole) (a3 : Memref sig .tc .vmem S2000x128 .f32) (h3 : a3.IsWhole)
    (a4 : Memref sig .tc .vmem S2000x128 .f32) (h4 : a4.IsWhole) (a5 : Memref sig .tc .vmem S8x128 .f32) (h5 : a5.IsWhole)
    (hc : ¬cond8_0 i) (x0 x1 x2 x3 : Vec Ideal S2000x128 .f32) (xo : Vec Ideal S8x128 .f32) :
    out8_B_4 (F := Ideal) c i a1 h1 a2 h2 a3 h3 a4 h4 a5 h5 hc x0 x1 x2 x3 xo (ix2 0 0) = xo (ix2 0 0) + tileOf x0 x1 x2 x3 :=
  (out_B (F := Ideal) c i a1 h1 a2 h2 a3 h3 a4 h4 a5 h5 hc x0 x1 x2 x3 xo).trans
    ((step_apply x0 x1 x2 x3 (View.ld xo R00)).trans (congrArg (fun z : EReal => z + tileOf x0 x1 x2 x3) (congrArg xo emb00)))

/-- The tile sum of grid point t: of the four input windows' blocks there. -/
def tile (c : Dev nD) (t : Fin cfg8.N) : EReal :=
  tileOf (iblk8 V c 0 t) (iblk8 V c 1 t) (iblk8 V c 2 t) (iblk8 V c 3 t)

/-- The running sum after point n. -/
def chain (c : Dev nD) : (n : ℕ) → n < cfg8.N → EReal
  | 0, h => 0 + tile V c ⟨0, h⟩
  | n + 1, h => chain c n (Nat.lt_of_succ_lt h) + tile V c ⟨n + 1, h⟩

/-- Entry (0, 0) of the output block after point n is the running sum: by induction on the point. -/
theorem outsAt_eq (c : Dev nD) : ∀ (n : ℕ) (h : n < cfg8.N), outsAt8 V c n h (ix2 0 0) = chain V c n h
  | 0, h =>
    (congrFun (outsAt8_A V c ⟨0, h⟩ rfl) (ix2 0 0)).trans
      (stepA c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩)
        (ms8_3 ⟨0, h⟩) (hs8_3 ⟨0, h⟩) (ms8_4 ⟨0, h⟩) (hs8_4 ⟨0, h⟩) ((hcond8_0 ⟨0, h⟩).mpr rfl)
        (iblk8 V c 0 ⟨0, h⟩) (iblk8 V c 1 ⟨0, h⟩) (iblk8 V c 2 ⟨0, h⟩) (iblk8 V c 3 ⟨0, h⟩))
  | n + 1, h => by
    have hN : cfg8.N = 25 := N_8
    have hB : ¬(⟨n + 1, h⟩ : Fin cfg8.N).val % 25 = 0 := by dsimp only; omega
    refine (congrFun (outsAt8_B V c ⟨n + 1, h⟩ hB) (ix2 0 0)).trans ?_
    refine (stepB c (grid8.coords ⟨n + 1, h⟩) (ms8_0 ⟨n + 1, h⟩) (hs8_0 ⟨n + 1, h⟩) (ms8_1 ⟨n + 1, h⟩) (hs8_1 ⟨n + 1, h⟩)
        (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩)
        (fun hh => hB ((hcond8_0 ⟨n + 1, h⟩).mp hh))
        (iblk8 V c 0 ⟨n + 1, h⟩) (iblk8 V c 1 ⟨n + 1, h⟩) (iblk8 V c 2 ⟨n + 1, h⟩) (iblk8 V c 3 ⟨n + 1, h⟩)
        (outsAt8 V c n (Nat.lt_of_succ_lt h))).trans ?_
    exact congrArg (fun z : EReal => z + tile V c ⟨n + 1, h⟩) (outsAt_eq c n (Nat.lt_of_succ_lt h))

end Cert.KernelIdeal.LossVal

end
-- ==== Proof.LossArr.lean ====
/-
  The loss region's output array after the region.  Its one 8×128 block is the whole array and is written back once,
  after the last of the 25 grid points; so the array ends holding what the output block held after that point.
-/
import proofs.«123214_j35218731827951_1_alg».proof.Proof.Gen.KernelIdeal.Frame
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem
open Idealize.ShloMosaic.Pipeline (Dat)

namespace Cert.KernelIdeal.LossVal

open Cert.KernelIdeal Cert.KernelIdeal.Gen Idealize.ShloMosaic.ValueIdx

variable {F : FTy → Type} [FloatOps F] [Named F]
variable (V : (c : Dev nD) → (b : Ref sig .tc) → Buf (Elt F) ((c : Thread nD τ).loc b))

/-- The last grid point. -/
abbrev tLast : Fin cfg8.N := ⟨24, lt_of_lt_of_eq (by decide : 24 < 25) N_8.symm⟩

/-- The one write-back, after the last point, writes the output block as the body left it: block (0, 0) of the 8×128
    array read through zero offsets is the array. -/
theorem flushed_eq (c : Dev nD) (t : Fin cfg8.N) (hf : (cfg8.win 4).flush t = true) :
    (dat8 V c).flushed 4 t = ((cfg8.win 4).blk t).view.read (Elt F) (outsAt8 V c 24 tLast.isLt) := by
  have hN : cfg8.N = 25 := N_8
  have h24 : t.val = 24 := by have := (flush8_4 t).mp hf; have := t.isLt; omega
  obtain rfl : t = tLast := Fin.ext h24
  show (cfg8.win 4).cut (grid8.coords tLast) ((dat8 V c).after 4 tLast) = _
  rw [after8_4]
  have hz' : (fun a => win8_4.index tLast a * main_v83.ty.shape.size a) = fun _ => 0 := funext fun a => by fin_cases a <;> decide
  exact (Memref.read_access_unit_zero (Elt F) main_v83 hz' (fun a => by rw [congrFun hz' a]; simp) (outsAt8 V c 24 tLast.isLt)).symm

/-- So the array ends holding the output block after the last point. -/
theorem final_arr (c : Dev nD) : (dat8 V c).arrAt 4 cfg8.N = outsAt8 V c 24 tLast.isLt :=
  (dat8 V c).arrAt_eq_of_cover 4 (outsAt8 V c 24 tLast.isLt) (flushed_eq V c) fun i =>
    ⟨tLast, (flush8_4 tLast).mpr rfl, by
      show i ∈ ((View.whole main_v83).slice (win8_4.rect tLast)).set
      rw [View.set_slice_whole, Rect.mem_set_unit]
      intro a
      have h0 : (i 0 : Nat) < 8 := (i 0).isLt
      have h1 : (i 1 : Nat) < 128 := (i 1).isLt
      match a with
      | ⟨0, _⟩ => show win8_4.index tLast 0 * win8_4.size 0 ≤ (i 0 : Nat) ∧ (i 0 : Nat) < win8_4.index tLast 0 * win8_4.size 0 + win8_4.xsize (grid8.coords tLast) 0
                  rw [show win8_4.index tLast 0 * win8_4.size 0 = 0 from by decide +kernel, show win8_4.xsize (grid8.coords tLast) 0 = 8 from by decide +kernel]; omega
      | ⟨1, _⟩ => show win8_4.index tLast 1 * win8_4.size 1 ≤ (i 1 : Nat) ∧ (i 1 : Nat) < win8_4.index tLast 1 * win8_4.size 1 + win8_4.xsize (grid8.coords tLast) 1
                  rw [show win8_4.index tLast 1 * win8_4.size 1 = 0 from by decide +kernel, show win8_4.xsize (grid8.coords tLast) 1 = 128 from by decide +kernel]; omega⟩

end Cert.KernelIdeal.LossVal

end
-- ==== Proof.LossBlocks.lean ====
/-
  The loss region's input windows: at grid point t each of the four 50000×128 arrays is staged as its rows
  2000·t … 2000·t + 1999, all 128 columns.  So entry (r, k) of a window's block at point t is entry (2000·t + r, k)
  of its array.
-/
import proofs.«123214_j35218731827951_1_alg».proof.Proof.Gen.KernelIdeal.Frame
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem
open Idealize.ShloMosaic.Pipeline (Dat)

namespace Cert.KernelIdeal.LossVal

open Cert.KernelIdeal Cert.KernelIdeal.Gen Idealize.ShloMosaic.ValueIdx

variable {F : FTy → Type} [FloatOps F] [Named F]
variable (V : (c : Dev nD) → (b : Ref sig .tc) → Buf (Elt F) ((c : Thread nD τ).loc b))

/-- Each input window's block index at point t is (t, 0): decided over the 25 points. -/
theorem idx8_0 : ∀ t : Fin cfg8.N, win8_0.index t (0 : Fin 2) = t.val ∧ win8_0.index t (1 : Fin 2) = 0 :=
  (by decide +kernel : ∀ t : Fin grid8.N, win8_0.index t (0 : Fin 2) = t.val ∧ win8_0.index t (1 : Fin 2) = 0)
theorem idx8_1 : ∀ t : Fin cfg8.N, win8_1.index t (0 : Fin 2) = t.val ∧ win8_1.index t (1 : Fin 2) = 0 :=
  (by decide +kernel : ∀ t : Fin grid8.N, win8_1.index t (0 : Fin 2) = t.val ∧ win8_1.index t (1 : Fin 2) = 0)
theorem idx8_2 : ∀ t : Fin cfg8.N, win8_2.index t (0 : Fin 2) = t.val ∧ win8_2.index t (1 : Fin 2) = 0 :=
  (by decide +kernel : ∀ t : Fin grid8.N, win8_2.index t (0 : Fin 2) = t.val ∧ win8_2.index t (1 : Fin 2) = 0)
theorem idx8_3 : ∀ t : Fin cfg8.N, win8_3.index t (0 : Fin 2) = t.val ∧ win8_3.index t (1 : Fin 2) = 0 :=
  (by decide +kernel : ∀ t : Fin grid8.N, win8_3.index t (0 : Fin 2) = t.val ∧ win8_3.index t (1 : Fin 2) = 0)

/-- Entry (r, k) of an input window's block at point t is entry (2000·t + r, k) of the window's array. -/
theorem iblk0_apply (c : Dev nD) (t : Fin cfg8.N) (r : Fin 2000) (k : Fin 128) (hr : 2000 * t.val + r.val < 50000) :
    (iblk8 V c 0 t : Vec F S2000x128 .f32) (ix2 r k)
      = (V c (Pipeline.arrRef spec8 0) : S50000x128.Idx → F .f32) (ix2 ⟨2000 * t.val + r.val, hr⟩ k) := by
  unfold iblk8
  rw [View.read_apply]
  refine congrArg (V c (Pipeline.arrRef spec8 0) : S50000x128.Idx → F .f32) (funext fun a => Fin.ext ?_)
  match a with
  | ⟨0, _⟩ => show win8_0.index t 0 * 2000 + 1 * r.val = 2000 * t.val + r.val; rw [(idx8_0 t).1]; omega
  | ⟨1, _⟩ => show win8_0.index t 1 * 128 + 1 * k.val = k.val; rw [(idx8_0 t).2]; omega
theorem iblk1_apply (c : Dev nD) (t : Fin cfg8.N) (r : Fin 2000) (k : Fin 128) (hr : 2000 * t.val + r.val < 50000) :
    (iblk8 V c 1 t : Vec F S2000x128 .f32) (ix2 r k)
      = (V c (Pipeline.arrRef spec8 1) : S50000x128.Idx → F .f32) (ix2 ⟨2000 * t.val + r.val, hr⟩ k) := by
  unfold iblk8
  rw [View.read_apply]
  refine congrArg (V c (Pipeline.arrRef spec8 1) : S50000x128.Idx → F .f32) (funext fun a => Fin.ext ?_)
  match a with
  | ⟨0, _⟩ => show win8_1.index t 0 * 2000 + 1 * r.val = 2000 * t.val + r.val; rw [(idx8_1 t).1]; omega
  | ⟨1, _⟩ => show win8_1.index t 1 * 128 + 1 * k.val = k.val; rw [(idx8_1 t).2]; omega
theorem iblk2_apply (c : Dev nD) (t : Fin cfg8.N) (r : Fin 2000) (k : Fin 128) (hr : 2000 * t.val + r.val < 50000) :
    (iblk8 V c 2 t : Vec F S2000x128 .f32) (ix2 r k)
      = (V c (Pipeline.arrRef spec8 2) : S50000x128.Idx → F .f32) (ix2 ⟨2000 * t.val + r.val, hr⟩ k) := by
  unfold iblk8
  rw [View.read_apply]
  refine congrArg (V c (Pipeline.arrRef spec8 2) : S50000x128.Idx → F .f32) (funext fun a => Fin.ext ?_)
  match a with
  | ⟨0, _⟩ => show win8_2.index t 0 * 2000 + 1 * r.val = 2000 * t.val + r.val; rw [(idx8_2 t).1]; omega
  | ⟨1, _⟩ => show win8_2.index t 1 * 128 + 1 * k.val = k.val; rw [(idx8_2 t).2]; omega
theorem iblk3_apply (c : Dev nD) (t : Fin cfg8.N) (r : Fin 2000) (k : Fin 128) (hr : 2000 * t.val + r.val < 50000) :
    (iblk8 V c 3 t : Vec F S2000x128 .f32) (ix2 r k)
      = (V c (Pipeline.arrRef spec8 3) : S50000x128.Idx → F .f32) (ix2 ⟨2000 * t.val + r.val, hr⟩ k) := by
  unfold iblk8
  rw [View.read_apply]
  refine congrArg (V c (Pipeline.arrRef spec8 3) : S50000x128.Idx → F .f32) (funext fun a => Fin.ext ?_)
  match a with
  | ⟨0, _⟩ => show win8_3.index t 0 * 2000 + 1 * r.val = 2000 * t.val + r.val; rw [(idx8_3 t).1]; omega
  | ⟨1, _⟩ => show win8_3.index t 1 * 128 + 1 * k.val = k.val; rw [(idx8_3 t).2]; omega

end Cert.KernelIdeal.LossVal

end
-- ==== Proof.LossSum.lean ====
/-
  Regrouping a sum over 50000 rows as 25 tiles of 2000 rows: row n = 2000·t + r.  The sums are in any additive
  commutative monoid (the extended reals among them), so no finiteness is needed.
-/
import Mathlib.Algebra.BigOperators.Fin
import Mathlib.Logic.Equiv.Fin.Basic

open scoped BigOperators

namespace Cert.LossSum

/-- Row r of tile t. -/
def rowOf (t : Fin 25) (r : Fin 2000) : Fin 50000 :=
  ⟨2000 * t.val + r.val, by have := t.isLt; have := r.isLt; omega⟩

/-- The sum over the 25 tiles of the sums over their 2000 rows is the sum over the 50000 rows. -/
theorem sum_tiles {M : Type*} [AddCommMonoid M] (g : Fin 50000 → M) :
    ∑ t : Fin 25, ∑ r : Fin 2000, g (rowOf t r) = ∑ n : Fin 50000, g n := by
  rw [← Fintype.sum_prod_type (f := fun p : Fin 25 × Fin 2000 => g (rowOf p.1 p.2))]
  refine Fintype.sum_equiv (finProdFinEquiv : Fin 25 × Fin 2000 ≃ Fin 50000) _ _ fun p => congrArg g (Fin.ext ?_)
  show 2000 * p.1.val + p.2.val = p.2.val + 2000 * p.1.val
  omega

end Cert.LossSum
-- ==== Proof.LossValue.lean ====
/-
  THE VALUE of the loss region at the extended reals: entry (0, 0) of its 8×128 output array ends at the sum, over all
  50000 rows n, of the two pairs' row terms  (2 − 2·⟨p̂x(n), t̂x(n)⟩) + (2 − 2·⟨p̂y(n), t̂y(n)⟩)  of the four arrays the
  region reads.  The array ends at the output block after the last grid point; that block's entry (0, 0) is the
  running sum 0 + tile 0 + … + tile 24; a tile's sum is over rows 2000·t … 2000·t + 1999 of the arrays; and 25 tiles of
  2000 rows are the 50000 rows (a regrouping of a finite sum in a commutative monoid: no finiteness of the terms is
  used).
-/
import proofs.«123214_j35218731827951_1_alg».proof.Proof.Gen.KernelIdeal.Frame
import proofs.«123214_j35218731827951_1_alg».proof.Proof.LossChain
import proofs.«123214_j35218731827951_1_alg».proof.Proof.LossArr
import proofs.«123214_j35218731827951_1_alg».proof.Proof.LossBlocks
import proofs.«123214_j35218731827951_1_alg».proof.Proof.LossSum
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.LossVal

open Cert.KernelIdeal Cert.KernelIdeal.Gen Idealize.ShloMosaic.ValueIdx Cert.LossSpec Cert.LossSum

variable (V : (c : Dev nD) → (b : Ref sig .tc) → Buf (Elt Ideal) ((c : Thread nD τ).loc b))

/-- The four arrays the region reads, as the region finds them. -/
abbrev px (c : Dev nD) : S50000x128.Idx → EReal := V c (Pipeline.arrRef spec8 0)
abbrev tx (c : Dev nD) : S50000x128.Idx → EReal := V c (Pipeline.arrRef spec8 1)
abbrev py (c : Dev nD) : S50000x128.Idx → EReal := V c (Pipeline.arrRef spec8 2)
abbrev ty (c : Dev nD) : S50000x128.Idx → EReal := V c (Pipeline.arrRef spec8 3)

/-- The two pairs' terms of row n. -/
def rowLoss (c : Dev nD) (n : Fin 50000) : EReal :=
  rowTerm (N := 50000) epsSq (px V c) (tx V c) n + rowTerm (N := 50000) epsSq (py V c) (ty V c) n

/-- A grid point as a tile number. -/
abbrev tileNo (t : Fin cfg8.N) : Fin 25 := ⟨t.val, lt_of_lt_of_eq t.isLt N_8⟩

/-- A tile's sum is the sum of its 2000 rows' terms, read off the arrays. -/
theorem tile_eq (c : Dev nD) (t : Fin cfg8.N) : tile V c t = ∑ r : Fin 2000, rowLoss V c (rowOf (tileNo t) r) := by
  unfold tile tileOf
  refine Finset.sum_congr rfl fun r _ => ?_
  have hr : 2000 * t.val + r.val < 50000 := (rowOf (tileNo t) r).isLt
  refine congrArg₂ (fun a b : EReal => a + b) ?_ ?_
  · exact congrArg₂ (rowDot epsSq) (funext fun k => iblk0_apply (F := Ideal) V c t r k hr)
      (funext fun k => iblk1_apply (F := Ideal) V c t r k hr)
  · exact congrArg₂ (rowDot epsSq) (funext fun k => iblk2_apply (F := Ideal) V c t r k hr)
      (funext fun k => iblk3_apply (F := Ideal) V c t r k hr)

/-- The running sum after point n is the sum of the tiles 0 … n. -/
theorem chain_eq_sum (c : Dev nD) : ∀ (n : ℕ) (h : n < cfg8.N),
    chain V c n h = ∑ t : Fin (n + 1), tile V c ⟨t.val, lt_of_lt_of_le t.isLt (Nat.succ_le_of_lt h)⟩
  | 0, h => by
    show 0 + tile V c ⟨0, h⟩ = _
    rw [Fin.sum_univ_one, zero_add]
    rfl
  | n + 1, h => by
    rw [Fin.sum_univ_castSucc]
    show chain V c n _ + tile V c ⟨n + 1, h⟩ = _
    rw [chain_eq_sum c n]
    rfl

/-- THE VALUE: entry (0, 0) of the region's output array is the sum of the 50000 rows' terms. -/
theorem loss_value (c : Dev nD) :
    ((dat8 V c).arrAt 4 cfg8.N : S8x128.Idx → EReal) (ix2 0 0) = ∑ n : Fin 50000, rowLoss V c n := by
  refine (congrFun (final_arr V c) (ix2 0 0)).trans ?_
  refine (outsAt_eq V c 24 tLast.isLt).trans ?_
  refine (chain_eq_sum V c 24 tLast.isLt).trans ?_
  refine Eq.trans ?_ (sum_tiles (rowLoss V c))
  exact Finset.sum_congr rfl fun t _ => tile_eq V c _

end Cert.KernelIdeal.LossVal

end
-- ==== Proof.KChainC.lean ====
/-
  The kernel program's values from the first predictor layer on: each first layer's column means and variances as
  the stretches compute them, the two predictor outputs as their regions leave them, the first layer of the second
  branch, the loss region's entry (0, 0) as the sum over the 50000 rows of the two pairs' row terms, and the two
  results: the embedding carried to the end and the sum divided by 50000.
-/
import proofs.«123214_j35218731827951_1_alg».proof.Proof.KChainB
import proofs.«123214_j35218731827951_1_alg».proof.Proof.RegionTail
import proofs.«123214_j35218731827951_1_alg».proof.Proof.LossValue
import Idealize.ShloMosaic.Lib.Pipeline.Value

set_option maxRecDepth 16384
set_option maxHeartbeats 400000

noncomputable section

namespace Cert.KernelIdeal.KChain

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

section Values

/-! ### The variance call, read over any buffer contents -/

open Idealize.ShloMosaic.StableHlo in
/-- The column variances as the stretch computes them from the first layer's array, whatever else the buffers hold. -/
theorem var_read5 (F : Valuation τ sig (Elt Ideal)) (hc : F (Proc.devRef .tc main_c_12) = constantI S_ 32 0#32) :
    StableHlo.after (hostOps5_1 (F := Ideal)) F (Proc.devRef .tc main_v75)
      = Cert.Spec.var (F := Ideal) (F (Proc.devRef .tc main_v71)) := by
  after_results_simp
  rw [hc]
  rfl

open Idealize.ShloMosaic.StableHlo in
/-- The column variances as the stretch computes them from the first layer's array, whatever else the buffers hold. -/
theorem var_read7 (F : Valuation τ sig (Elt Ideal)) (hc : F (Proc.devRef .tc main_c_15) = constantI S_ 32 0#32) :
    StableHlo.after (hostOps7_1 (F := Ideal)) F (Proc.devRef .tc main_v81)
      = Cert.Spec.var (F := Ideal) (F (Proc.devRef .tc main_v77)) := by
  after_results_simp
  rw [hc]
  rfl

/-! ### The first branch: x·W₁ + b₁ of the online convolution of x, its statistics, its predictor output -/

theorem W12_v71 : W12 m ρ c (Proc.devRef .tc main_v71) = k71 m c :=
  (W12_skip m ρ c main_v71 (by decide)).trans <|
  (W11_skip m ρ c main_v71 (by decide)).trans <|
  (W10_v71 m ρ c)

theorem W12_v74 : W12 m ρ c (Proc.devRef .tc main_v74) = k74 m c := by
  kread
  rw [W10_v71 m ρ c]
  rfl

theorem W11_c12 : W11 m ρ c (Proc.devRef .tc main_c_12) = constantI S_ 32 0#32 := by
  kread

theorem W11_v71 : W11 m ρ c (Proc.devRef .tc main_v71) = k71 m c :=
  (W11_skip m ρ c main_v71 (by decide)).trans (W10_v71 m ρ c)

theorem W12_v75 : W12 m ρ c (Proc.devRef .tc main_v75) = k75 m c := by
  refine (var_read5 (W11 m ρ c) (W11_c12 m ρ c)).trans ?_
  rw [W11_v71 m ρ c]
  rfl

theorem W12_v70 : W12 m ρ c (Proc.devRef .tc main_v70) = k70 m c :=
  (W12_skip m ρ c main_v70 (by decide)).trans <|
  (W11_skip m ρ c main_v70 (by decide)).trans <|
  (W10_ne' m ρ c main_v70 (by decide)).trans <|
  (W9_v70 m ρ c)

theorem W13_v76 : W13 m ρ c (Proc.devRef .tc main_v76) = k76 m c := by
  refine (W13_arr m ρ c 8).trans ((RegionVal.region5_out (V12 m ρ) c).trans ?_)
  show Cert.Spec.tailK (F := Ideal) (W12 m ρ c (Proc.devRef .tc main_v71)) (W12 m ρ c (Proc.devRef .tc main_v74)) (W12 m ρ c (Proc.devRef .tc main_v75)) (W12 m ρ c (Proc.devRef .tc main_arg11)) (W12 m ρ c (Proc.devRef .tc main_arg12)) (W12 m ρ c (Proc.devRef .tc main_v70)) (W12 m ρ c (Proc.devRef .tc main_arg14)) (W12 m ρ c (Proc.devRef .tc main_arg15)) = _
  rw [W12_v71 m ρ c, W12_v74 m ρ c, W12_v75 m ρ c, W12_a11 m ρ c, W12_a12 m ρ c, W12_v70 m ρ c, W12_a14 m ρ c, W12_a15 m ρ c]
  rfl

/-! ### The second branch: the online convolution of x₂ through the same predictor -/

theorem W13_v17 : W13 m ρ c (Proc.devRef .tc main_v17) = k17 m c :=
  (W13_ne' m ρ c main_v17 (by decide)).trans <|
  (W12_skip m ρ c main_v17 (by decide)).trans <|
  (W11_skip m ρ c main_v17 (by decide)).trans <|
  (W10_ne' m ρ c main_v17 (by decide)).trans <|
  (W9_skip m ρ c main_v17 (by decide)).trans <|
  (W8_ne' m ρ c main_v17 (by decide)).trans <|
  (W7_skip m ρ c main_v17 (by decide)).trans <|
  (W6_ne' m ρ c main_v17 (by decide)).trans <|
  (W5_skip m ρ c main_v17 (by decide)).trans <|
  (W4_ne' m ρ c main_v17 (by decide)).trans <|
  (W3_v17 m ρ c)

theorem W14_v77 : W14 m ρ c (Proc.devRef .tc main_v77) = k77 m c := by
  refine (W14_arr m ρ c 3).trans ((RegionVal.region6_out (V13 m ρ) c).trans ?_)
  show Cert.Spec.lin (F := Ideal) (W13 m ρ c (Proc.devRef .tc main_v17)) (W13 m ρ c (Proc.devRef .tc main_arg9)) (W13 m ρ c (Proc.devRef .tc main_arg10)) = _
  rw [W13_v17 m ρ c, W13_a9 m ρ c, W13_a10 m ρ c]
  rfl

theorem W16_v77 : W16 m ρ c (Proc.devRef .tc main_v77) = k77 m c :=
  (W16_skip m ρ c main_v77 (by decide)).trans <|
  (W15_skip m ρ c main_v77 (by decide)).trans <|
  (W14_v77 m ρ c)

theorem W16_v80 : W16 m ρ c (Proc.devRef .tc main_v80) = k80 m c := by
  kread
  rw [W14_v77 m ρ c]
  rfl

theorem W15_c15 : W15 m ρ c (Proc.devRef .tc main_c_15) = constantI S_ 32 0#32 := by
  kread

theorem W15_v77 : W15 m ρ c (Proc.devRef .tc main_v77) = k77 m c :=
  (W15_skip m ρ c main_v77 (by decide)).trans (W14_v77 m ρ c)

theorem W16_v81 : W16 m ρ c (Proc.devRef .tc main_v81) = k81 m c := by
  refine (var_read7 (W15 m ρ c) (W15_c15 m ρ c)).trans ?_
  rw [W15_v77 m ρ c]
  rfl

theorem W16_v70 : W16 m ρ c (Proc.devRef .tc main_v70) = k70 m c :=
  (W16_skip m ρ c main_v70 (by decide)).trans <|
  (W15_skip m ρ c main_v70 (by decide)).trans <|
  (W14_ne' m ρ c main_v70 (by decide)).trans <|
  (W13_in5 m ρ c).trans <|
  (W12_v70 m ρ c)

theorem W17_v82 : W17 m ρ c (Proc.devRef .tc main_v82) = k82 m c := by
  refine (W17_arr m ρ c 8).trans ((RegionVal.region7_out (V16 m ρ) c).trans ?_)
  show Cert.Spec.tailK (F := Ideal) (W16 m ρ c (Proc.devRef .tc main_v77)) (W16 m ρ c (Proc.devRef .tc main_v80)) (W16 m ρ c (Proc.devRef .tc main_v81)) (W16 m ρ c (Proc.devRef .tc main_arg11)) (W16 m ρ c (Proc.devRef .tc main_arg12)) (W16 m ρ c (Proc.devRef .tc main_v70)) (W16 m ρ c (Proc.devRef .tc main_arg14)) (W16 m ρ c (Proc.devRef .tc main_arg15)) = _
  rw [W16_v77 m ρ c, W16_v80 m ρ c, W16_v81 m ρ c, W16_a11 m ρ c, W16_a12 m ρ c, W16_v70 m ρ c, W16_a14 m ρ c, W16_a15 m ρ c]
  rfl

/-! ### The loss region's four inputs, its value, and the two results -/

theorem W17_v76 : W17 m ρ c (Proc.devRef .tc main_v76) = k76 m c :=
  (W17_ne' m ρ c main_v76 (by decide)).trans <|
  (W16_skip m ρ c main_v76 (by decide)).trans <|
  (W15_skip m ρ c main_v76 (by decide)).trans <|
  (W14_ne' m ρ c main_v76 (by decide)).trans <|
  (W13_v76 m ρ c)

theorem W17_v69 : W17 m ρ c (Proc.devRef .tc main_v69) = k69 m c :=
  (W17_ne' m ρ c main_v69 (by decide)).trans <|
  (W16_skip m ρ c main_v69 (by decide)).trans <|
  (W15_skip m ρ c main_v69 (by decide)).trans <|
  (W14_ne' m ρ c main_v69 (by decide)).trans <|
  (W13_ne' m ρ c main_v69 (by decide)).trans <|
  (W12_skip m ρ c main_v69 (by decide)).trans <|
  (W11_skip m ρ c main_v69 (by decide)).trans <|
  (W10_ne' m ρ c main_v69 (by decide)).trans <|
  (W9_v69 m ρ c)

theorem W17_v52 : W17 m ρ c (Proc.devRef .tc main_v52) = k52 m c :=
  (W17_ne' m ρ c main_v52 (by decide)).trans <|
  (W16_skip m ρ c main_v52 (by decide)).trans <|
  (W15_skip m ρ c main_v52 (by decide)).trans <|
  (W14_ne' m ρ c main_v52 (by decide)).trans <|
  (W13_ne' m ρ c main_v52 (by decide)).trans <|
  (W12_skip m ρ c main_v52 (by decide)).trans <|
  (W11_skip m ρ c main_v52 (by decide)).trans <|
  (W10_ne' m ρ c main_v52 (by decide)).trans <|
  (W9_skip m ρ c main_v52 (by decide)).trans <|
  (W8_ne' m ρ c main_v52 (by decide)).trans <|
  (W7_v52 m ρ c)

theorem W18_v83 : (W18 m ρ c (Proc.devRef .tc main_v83) : S8x128.Idx → EReal) (ValueIdx.ix2 0 0)
    = ∑ n : Fin 50000, (Cert.LossSpec.rowTerm (N := 50000) Cert.LossSpec.epsSq (k76 m c) (k69 m c) n
        + Cert.LossSpec.rowTerm (N := 50000) Cert.LossSpec.epsSq (k82 m c) (k52 m c) n) := by
  have h : (∑ n : Fin 50000, LossVal.rowLoss (V17 m ρ) c n : EReal)
      = ∑ n : Fin 50000, (Cert.LossSpec.rowTerm (N := 50000) Cert.LossSpec.epsSq (k76 m c) (k69 m c) n
        + Cert.LossSpec.rowTerm (N := 50000) Cert.LossSpec.epsSq (k82 m c) (k52 m c) n) := by
    refine Finset.sum_congr rfl fun n _ => ?_
    show Cert.LossSpec.rowTerm (N := 50000) Cert.LossSpec.epsSq (W17 m ρ c (Proc.devRef .tc main_v76)) (W17 m ρ c (Proc.devRef .tc main_v69)) n
        + Cert.LossSpec.rowTerm (N := 50000) Cert.LossSpec.epsSq (W17 m ρ c (Proc.devRef .tc main_v82)) (W17 m ρ c (Proc.devRef .tc main_v52)) n = _
    rw [W17_v76 m ρ c, W17_v69 m ρ c, W17_v82 m ρ c, W17_v52 m ρ c]
  exact (congrFun (W18_arr m ρ c 4) _).trans ((LossVal.loss_value (V17 m ρ) c).trans h)

theorem W19_v18 : W19 m ρ c (Proc.devRef .tc main_v18) = k18 m c :=
  (W19_skip m ρ c main_v18 (by decide)).trans <|
  (W18_ne' m ρ c main_v18 (by decide)).trans <|
  (W17_ne' m ρ c main_v18 (by decide)).trans <|
  (W16_skip m ρ c main_v18 (by decide)).trans <|
  (W15_skip m ρ c main_v18 (by decide)).trans <|
  (W14_ne' m ρ c main_v18 (by decide)).trans <|
  (W13_ne' m ρ c main_v18 (by decide)).trans <|
  (W12_skip m ρ c main_v18 (by decide)).trans <|
  (W11_skip m ρ c main_v18 (by decide)).trans <|
  (W10_ne' m ρ c main_v18 (by decide)).trans <|
  (W9_skip m ρ c main_v18 (by decide)).trans <|
  (W8_ne' m ρ c main_v18 (by decide)).trans <|
  (W7_skip m ρ c main_v18 (by decide)).trans <|
  (W6_ne' m ρ c main_v18 (by decide)).trans <|
  (W5_skip m ρ c main_v18 (by decide)).trans <|
  (W4_ne' m ρ c main_v18 (by decide)).trans <|
  (W3_v18 m ρ c)

open Idealize.ShloMosaic.StableHlo in
/-- The last stretch, read over any buffer contents: the loss block's corner entry, as a scalar, over 50000. -/
theorem loss_read (F : Valuation τ sig (Elt Ideal)) :
    StableHlo.after (hostOps9 (F := Ideal)) F (Proc.devRef .tc main_v86)
      = Host.divf (F := Ideal) (φ := .f32)
          (shapeCast S_ (extractStridedSlice S1x1 ![0, 0] (F (Proc.devRef .tc main_v83)) Facts₀.slices_S8x128_S1x1_0_0)
            Facts₀.shapeCasts_S1x1_S_)
          (constant S_ .f32 0x47435000#32) := by
  after_results_simp
  rfl

theorem W19_v86 : (W19 m ρ c (Proc.devRef .tc main_v86) : S_.Idx → EReal) ValueIdx.ix0
    = Ideal.div ((W18 m ρ c (Proc.devRef .tc main_v83) : S8x128.Idx → EReal) (ValueIdx.ix2 0 0))
        (Ideal.ofBits .f32 0x47435000#32) := by
  refine (congrFun (loss_read (W18 m ρ c)) ValueIdx.ix0).trans ?_
  show Ideal.div (shapeCast S_ (extractStridedSlice S1x1 ![0, 0] (W18 m ρ c (Proc.devRef .tc main_v83)) Facts₀.slices_S8x128_S1x1_0_0)
      Facts₀.shapeCasts_S1x1_S_ ValueIdx.ix0) (Ideal.ofBits .f32 0x47435000#32) = _
  refine congrArg (fun z : EReal => Ideal.div z (Ideal.ofBits .f32 0x47435000#32)) ?_
  have h1 : ((S1x1 : Shape).rowMajor (ValueIdx.ix2 (0 : Fin 1) (0 : Fin 1))).val = 0 := by
    rw [Shape.rowMajor_val_two]; rfl
  have h2 : ((S_ : Shape).rowMajor ValueIdx.ix0).val = 0 := by
    have h := ((S_ : Shape).rowMajor ValueIdx.ix0).isLt
    have hn : (S_ : Shape).numel = 1 := by decide
    omega
  refine (shapeCast_apply _ Facts₀.shapeCasts_S1x1_S_ ValueIdx.ix0 (ValueIdx.ix2 (0 : Fin 1) (0 : Fin 1)) (h1.trans h2.symm)).trans ?_
  refine extractStridedSlice_apply ![0, 0] _ Facts₀.slices_S8x128_S1x1_0_0 (ValueIdx.ix2 (0 : Fin 1) (0 : Fin 1))
    (ValueIdx.ix2 (0 : Fin 8) (0 : Fin 128)) ?_
  intro a
  match a with
  | ⟨0, _⟩ => rfl
  | ⟨1, _⟩ => rfl

end Values

end Cert.KernelIdeal.KChain

end
-- ==== Proof.RefRunOps.lean ====
/-
  The reference program's host function as a straight line of its 283 array operations, in program order: the
  operations of the two variance computations and of the two element-wise selections stand where the program applies
  them, over the buffers those applications name.  The line is cut into fifteen consecutive pieces, each one step of
  the mathematics (a graph convolution, a dense layer with its column statistics, a normalisation and rectifier, half of
  the loss), so that what a buffer holds after the line can be read piece by piece.  This module states the pieces,
  that the program is their concatenation run in order, and that every operation touches tensor-core buffers only and
  determines its result.
-/
import proofs.«123214_j35218731827951_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of window 0 of the program: the perturbed features, their dense product with the online weight, the edge aggregation, the bias row, and the first result. -/
abbrev k01 : List (HloOp τ sig (Elt F)) :=
  [ binary main_arg0 main_arg1 main_v0 (addf : (⟨S50000x128, .f32⟩ : BufTy).Contents (Elt F) → (⟨S50000x128, .f32⟩ : BufTy).Contents (Elt F) → (⟨S50000x128, .f32⟩ : BufTy).Contents (Elt F)),
    binary main_v0 main_arg5 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg3 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg3 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg3 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v1 main_v7 main_v8 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg4 main_v9 (broadcastInDim S800000x1 ![0] bcast_S800000_S800000x1_0 : (⟨S800000, .f32⟩ : BufTy).Contents (Elt F) → (⟨S800000x1, .f32⟩ : BufTy).Contents (Elt F)),
    unary main_v9 main_v10 (broadcastInDim S800000x128 ![0, 1] bcast_S800000x1_S800000x128_0_1 : (⟨S800000x1, .f32⟩ : BufTy).Contents (Elt F) → (⟨S800000x128, .f32⟩ : BufTy).Contents (Elt F)),
    binary main_v8 main_v10 main_v11 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_arg2 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v14 main_v16 main_v17 (addf : (⟨S50000x128, .f32⟩ : BufTy).Contents (Elt F) → (⟨S50000x128, .f32⟩ : BufTy).Contents (Elt F) → (⟨S50000x128, .f32⟩ : BufTy).Contents (Elt F)),
    binary main_v0 main_v17 main_v18 (addf : (⟨S50000x128, .f32⟩ : BufTy).Contents (Elt F) → (⟨S50000x128, .f32⟩ : BufTy).Contents (Elt F) → (⟨S50000x128, .f32⟩ : BufTy).Contents (Elt F)) ]

/-- Operations of window 0 of the program: the online graph convolution of the unperturbed features. -/
abbrev k02 : List (HloOp τ sig (Elt F)) :=
  [ binary main_arg0 main_arg5 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_1 (constantI S_ 32 0#32),
    unary main_c_1 main_v20 (broadcastInDim S800000 ![] bcast_S_S800000 : (⟨S_, .i32⟩ : BufTy).Contents (Elt F) → (⟨S800000, .i32⟩ : BufTy).Contents (Elt F)),
    binary main_arg3 main_v20 main_v21 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v22 (broadcastInDim S800000 ![] bcast_S_S800000 : (⟨S_, .i32⟩ : BufTy).Contents (Elt F) → (⟨S800000, .i32⟩ : BufTy).Contents (Elt F)),
    binary main_arg3 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_arg3 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v19 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg4 main_v27 (broadcastInDim S800000x1 ![0] bcast_S800000_S800000x1_0 : (⟨S800000, .f32⟩ : BufTy).Contents (Elt F) → (⟨S800000x1, .f32⟩ : BufTy).Contents (Elt F)),
    unary main_v27 main_v28 (broadcastInDim S800000x128 ![0, 1] bcast_S800000x1_S800000x128_0_1 : (⟨S800000x1, .f32⟩ : BufTy).Contents (Elt F) → (⟨S800000x128, .f32⟩ : BufTy).Contents (Elt F)),
    binary main_v26 main_v28 main_v29 (mulf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x00000000#32),
    unary main_cst_3 main_v30 (broadcastInDim S50000x128 ![] bcast_S_S50000x128 : (⟨S_, .f32⟩ : BufTy).Contents (Elt F) → (⟨S50000x128, .f32⟩ : BufTy).Contents (Elt F)),
    unary main_arg2 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)) ]

/-- Operations of window 0 of the program: the online graph convolution of the perturbed features, up to its bias row's first spread. -/
abbrev k03 : List (HloOp τ sig (Elt F)) :=
  [ binary main_v0 main_arg5 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_4 (constantI S_ 32 0#32),
    unary main_c_4 main_v37 (broadcastInDim S800000 ![] bcast_S_S800000 : (⟨S_, .i32⟩ : BufTy).Contents (Elt F) → (⟨S800000, .i32⟩ : BufTy).Contents (Elt F)),
    binary main_arg3 main_v37 main_v38 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v39 (broadcastInDim S800000 ![] bcast_S_S800000 : (⟨S_, .i32⟩ : BufTy).Contents (Elt F) → (⟨S800000, .i32⟩ : BufTy).Contents (Elt F)),
    binary main_arg3 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_arg3 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v36 main_v42 main_v43 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg4 main_v44 (broadcastInDim S800000x1 ![0] bcast_S800000_S800000x1_0 : (⟨S800000, .f32⟩ : BufTy).Contents (Elt F) → (⟨S800000x1, .f32⟩ : BufTy).Contents (Elt F)),
    unary main_v44 main_v45 (broadcastInDim S800000x128 ![0, 1] bcast_S800000x1_S800000x128_0_1 : (⟨S800000x1, .f32⟩ : BufTy).Contents (Elt F) → (⟨S800000x128, .f32⟩ : BufTy).Contents (Elt F)),
    binary main_v43 main_v45 main_v46 (mulf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v47 (broadcastInDim S50000x128 ![] bcast_S_S50000x128 : (⟨S_, .f32⟩ : BufTy).Contents (Elt F) → (⟨S50000x128, .f32⟩ : BufTy).Contents (Elt F)),
    unary main_arg2 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)) ]

/-- Operations of window 1 of the program: the bias row and sum that finish that convolution. -/
abbrev k04 : List (HloOp τ sig (Elt F)) :=
  [ unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)) ]

/-- Operations of window 1 of the program: the target graph convolution of the unperturbed features. -/
abbrev k05 : List (HloOp τ sig (Elt F)) :=
  [ binary main_arg0 main_arg7 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v54 (broadcastInDim S800000 ![] bcast_S_S800000 : (⟨S_, .i32⟩ : BufTy).Contents (Elt F) → (⟨S800000, .i32⟩ : BufTy).Contents (Elt F)),
    binary main_arg3 main_v54 main_v55 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v56 (broadcastInDim S800000 ![] bcast_S_S800000 : (⟨S_, .i32⟩ : BufTy).Contents (Elt F) → (⟨S800000, .i32⟩ : BufTy).Contents (Elt F)),
    binary main_arg3 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_arg3 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v53 main_v59 main_v60 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg4 main_v61 (broadcastInDim S800000x1 ![0] bcast_S800000_S800000x1_0 : (⟨S800000, .f32⟩ : BufTy).Contents (Elt F) → (⟨S800000x1, .f32⟩ : BufTy).Contents (Elt F)),
    unary main_v61 main_v62 (broadcastInDim S800000x128 ![0, 1] bcast_S800000x1_S800000x128_0_1 : (⟨S800000x1, .f32⟩ : BufTy).Contents (Elt F) → (⟨S800000x128, .f32⟩ : BufTy).Contents (Elt F)),
    binary main_v60 main_v62 main_v63 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v64 (broadcastInDim S50000x128 ![] bcast_S_S50000x128 : (⟨S_, .f32⟩ : BufTy).Contents (Elt F) → (⟨S50000x128, .f32⟩ : BufTy).Contents (Elt F)),
    unary main_arg2 main_v65 (broadcastInDim S800000x1 ![0] bcast_S800000_S800000x1_0 : (⟨S800000, .i32⟩ : BufTy).Contents (Elt F) → (⟨S800000x1, .i32⟩ : BufTy).Contents (Elt F)),
    ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg8 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)) ]

/-- Operations of window 1 of the program: the target graph convolution of the perturbed features. -/
abbrev k06 : List (HloOp τ sig (Elt F)) :=
  [ binary main_v0 main_arg7 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v71 (broadcastInDim S800000 ![] bcast_S_S800000 : (⟨S_, .i32⟩ : BufTy).Contents (Elt F) → (⟨S800000, .i32⟩ : BufTy).Contents (Elt F)),
    binary main_arg3 main_v71 main_v72 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v73 (broadcastInDim S800000 ![] bcast_S_S800000 : (⟨S_, .i32⟩ : BufTy).Contents (Elt F) → (⟨S800000, .i32⟩ : BufTy).Contents (Elt F)),
    binary main_arg3 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_arg3 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v70 main_v76 main_v77 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg4 main_v78 (broadcastInDim S800000x1 ![0] bcast_S800000_S800000x1_0 : (⟨S800000, .f32⟩ : BufTy).Contents (Elt F) → (⟨S800000x1, .f32⟩ : BufTy).Contents (Elt F)),
    unary main_v78 main_v79 (broadcastInDim S800000x128 ![0, 1] bcast_S800000x1_S800000x128_0_1 : (⟨S800000x1, .f32⟩ : BufTy).Contents (Elt F) → (⟨S800000x128, .f32⟩ : BufTy).Contents (Elt F)),
    binary main_v77 main_v79 main_v80 (mulf : (⟨S800000x128, .f32⟩ : BufTy).Contents (Elt F) → (⟨S800000x128, .f32⟩ : BufTy).Contents (Elt F) → (⟨S800000x128, .f32⟩ : BufTy).Contents (Elt F)),
    nullary main_cst_12 (constant S_ .f32 0x00000000#32),
    unary main_cst_12 main_v81 (broadcastInDim S50000x128 ![] bcast_S_S50000x128 : (⟨S_, .f32⟩ : BufTy).Contents (Elt F) → (⟨S50000x128, .f32⟩ : BufTy).Contents (Elt F)),
    unary main_arg2 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg8 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v83 main_v85 main_v86 (addf : (⟨S50000x128, .f32⟩ : BufTy).Contents (Elt F) → (⟨S50000x128, .f32⟩ : BufTy).Contents (Elt F) → (⟨S50000x128, .f32⟩ : BufTy).Contents (Elt F)) ]

/-- Operations of window 1 of the program: the predictor's first dense layer on the first online convolution, its column means and its column variances. -/
abbrev k07 : List (HloOp τ sig (Elt F)) :=
  [ binary main_v35 main_arg9 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v90 main_cst_13 main_v91 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v92 (broadcastInDim S128 ![] bcast_S_S128 : (⟨S_, .f32⟩ : BufTy).Contents (Elt F) → (⟨S128, .f32⟩ : BufTy).Contents (Elt F)),
    binary main_v91 main_v92 main_v93 (Host.divf : (⟨S128, .f32⟩ : BufTy).Contents (Elt F) → (⟨S128, .f32⟩ : BufTy).Contents (Elt F) → (⟨S128, .f32⟩ : BufTy).Contents (Elt F)),
    nullary main_c_15 (constantI S_ 32 0#32),
    nullary main_call0_cst (constant S_ .f32 0x00000000#32),
    binary main_v90 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call0_v0 main_call0_v1 (broadcastInDim S1x128 ![1] bcast_S128_S1x128_1 : (⟨S128, .f32⟩ : BufTy).Contents (Elt F) → (⟨S1x128, .f32⟩ : BufTy).Contents (Elt F)),
    nullary main_call0_cst_0 (constant S_ .f32 0x47435000#32),
    unary main_call0_cst_0 main_call0_v2 (broadcastInDim S1x128 ![] bcast_S_S1x128 : (⟨S_, .f32⟩ : BufTy).Contents (Elt F) → (⟨S1x128, .f32⟩ : BufTy).Contents (Elt F)),
    binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    unary main_call0_v3 main_call0_v4 (broadcastInDim S50000x128 ![0, 1] bcast_S1x128_S50000x128_0_1 : (⟨S1x128, .f32⟩ : BufTy).Contents (Elt F) → (⟨S50000x128, .f32⟩ : BufTy).Contents (Elt F)),
    binary main_v90 main_call0_v4 main_call0_v5 (subf : (⟨S50000x128, .f32⟩ : BufTy).Contents (Elt F) → (⟨S50000x128, .f32⟩ : BufTy).Contents (Elt F) → (⟨S50000x128, .f32⟩ : BufTy).Contents (Elt F)),
    binary main_call0_v5 main_call0_v5 main_call0_v6 (mulf : (⟨S50000x128, .f32⟩ : BufTy).Contents (Elt F) → (⟨S50000x128, .f32⟩ : BufTy).Contents (Elt F) → (⟨S50000x128, .f32⟩ : BufTy).Contents (Elt F)),
    unary main_c_15 main_call0_v7 (sitofp .f32 : (⟨S_, .i32⟩ : BufTy).Contents (Elt F) → (⟨S_, .f32⟩ : BufTy).Contents (Elt F)),
    nullary main_call0_cst_1 (constant S_ .f32 0x47435000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call0_v8 main_call0_v10 (broadcastInDim S128 ![] bcast_S_S128 : (⟨S_, .f32⟩ : BufTy).Contents (Elt F) → (⟨S128, .f32⟩ : BufTy).Contents (Elt F)),
    binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S128 ![] bcast_S_S128 : (⟨S_, .f32⟩ : BufTy).Contents (Elt F) → (⟨S128, .f32⟩ : BufTy).Contents (Elt F)),
    ternary main_call0_v12 main_call0_v11 main_call0_call0_v1 main_v94 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- Operations of window 1 of the program: the centring and the square root of the shifted variances. -/
abbrev k08 : List (HloOp τ sig (Elt F)) :=
  [ unary main_v93 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v90 main_v96 main_v97 (subf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x3727C5AC#32),
    unary main_cst_16 main_v98 (broadcastInDim S128 ![] bcast_S_S128 : (⟨S_, .f32⟩ : BufTy).Contents (Elt F) → (⟨S128, .f32⟩ : BufTy).Contents (Elt F)),
    binary main_v94 main_v98 main_v99 (addf : (⟨S128, .f32⟩ : BufTy).Contents (Elt F) → (⟨S128, .f32⟩ : BufTy).Contents (Elt F) → (⟨S128, .f32⟩ : BufTy).Contents (Elt F)),
    unary main_v99 main_v100 (Host.sqrt : (⟨S128, .f32⟩ : BufTy).Contents (Elt F) → (⟨S128, .f32⟩ : BufTy).Contents (Elt F)) ]

/-- Operations of window 2 of the program: the quotient, scale and shift of the batch normalisation, the leaky rectifier and the second dense layer. -/
abbrev k09 : List (HloOp τ sig (Elt F)) :=
  [ unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v97 main_v102 main_v103 (Host.divf : (⟨S50000x128, .f32⟩ : BufTy).Contents (Elt F) → (⟨S50000x128, .f32⟩ : BufTy).Contents (Elt F) → (⟨S50000x128, .f32⟩ : BufTy).Contents (Elt F)),
    unary main_arg11 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v103 main_v105 main_v106 (mulf : (⟨S50000x128, .f32⟩ : BufTy).Contents (Elt F) → (⟨S50000x128, .f32⟩ : BufTy).Contents (Elt F) → (⟨S50000x128, .f32⟩ : BufTy).Contents (Elt F)),
    unary main_arg12 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    unary main_cst_17 main_v110 (broadcastInDim S50000x128 ![] bcast_S_S50000x128 : (⟨S_, .f32⟩ : BufTy).Contents (Elt F) → (⟨S50000x128, .f32⟩ : BufTy).Contents (Elt F)),
    binary main_v109 main_v110 main_v111 (cmpf .ogt : (⟨S50000x128, .f32⟩ : BufTy).Contents (Elt F) → (⟨S50000x128, .f32⟩ : BufTy).Contents (Elt F) → (⟨S50000x128, .i1⟩ : BufTy).Contents (Elt F)),
    unary main_arg13 main_v112 (broadcastInDim S1x1 ![1] bcast_S1_S1x1_1 : (⟨S1, .f32⟩ : BufTy).Contents (Elt F) → (⟨S1x1, .f32⟩ : BufTy).Contents (Elt F)),
    unary main_v112 main_v113 (broadcastInDim S50000x128 ![0, 1] bcast_S1x1_S50000x128_0_1 : (⟨S1x1, .f32⟩ : BufTy).Contents (Elt F) → (⟨S50000x128, .f32⟩ : BufTy).Contents (Elt F)),
    binary main_v113 main_v109 main_v114 (mulf : (⟨S50000x128, .f32⟩ : BufTy).Contents (Elt F) → (⟨S50000x128, .f32⟩ : BufTy).Contents (Elt F) → (⟨S50000x128, .f32⟩ : BufTy).Contents (Elt F)),
    ternary main_v111 main_v109 main_v114 main_v115 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    binary main_v115 main_arg14 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)) ]

/-- Operations of window 2 of the program: the predictor's first dense layer on the second online convolution, its column means and its column variances. -/
abbrev k10 : List (HloOp τ sig (Elt F)) :=
  [ binary main_v52 main_arg9 main_v120 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v120 main_v122 main_v123 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v123 main_cst_18 main_v124 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v125 (broadcastInDim S128 ![] bcast_S_S128 : (⟨S_, .f32⟩ : BufTy).Contents (Elt F) → (⟨S128, .f32⟩ : BufTy).Contents (Elt F)),
    binary main_v124 main_v125 main_v126 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    nullary main_call2_cst (constant S_ .f32 0x00000000#32),
    binary main_v123 main_call2_cst main_call2_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call2_v0 main_call2_v1 (broadcastInDim S1x128 ![1] bcast_S128_S1x128_1 : (⟨S128, .f32⟩ : BufTy).Contents (Elt F) → (⟨S1x128, .f32⟩ : BufTy).Contents (Elt F)),
    nullary main_call2_cst_0 (constant S_ .f32 0x47435000#32),
    unary main_call2_cst_0 main_call2_v2 (broadcastInDim S1x128 ![] bcast_S_S1x128 : (⟨S_, .f32⟩ : BufTy).Contents (Elt F) → (⟨S1x128, .f32⟩ : BufTy).Contents (Elt F)),
    binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    unary main_call2_v3 main_call2_v4 (broadcastInDim S50000x128 ![0, 1] bcast_S1x128_S50000x128_0_1 : (⟨S1x128, .f32⟩ : BufTy).Contents (Elt F) → (⟨S50000x128, .f32⟩ : BufTy).Contents (Elt F)),
    binary main_v123 main_call2_v4 main_call2_v5 (subf : (⟨S50000x128, .f32⟩ : BufTy).Contents (Elt F) → (⟨S50000x128, .f32⟩ : BufTy).Contents (Elt F) → (⟨S50000x128, .f32⟩ : BufTy).Contents (Elt F)),
    binary main_call2_v5 main_call2_v5 main_call2_v6 (mulf : (⟨S50000x128, .f32⟩ : BufTy).Contents (Elt F) → (⟨S50000x128, .f32⟩ : BufTy).Contents (Elt F) → (⟨S50000x128, .f32⟩ : BufTy).Contents (Elt F)),
    unary main_c_20 main_call2_v7 (sitofp .f32 : (⟨S_, .i32⟩ : BufTy).Contents (Elt F) → (⟨S_, .f32⟩ : BufTy).Contents (Elt F)),
    nullary main_call2_cst_1 (constant S_ .f32 0x47435000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call2_v8 main_call2_v10 (broadcastInDim S128 ![] bcast_S_S128 : (⟨S_, .f32⟩ : BufTy).Contents (Elt F) → (⟨S128, .f32⟩ : BufTy).Contents (Elt F)),
    binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    nullary main_call2_cst_3 (constant S_ .f32 0x00000000#32),
    binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S128 ![] bcast_S_S128 : (⟨S_, .f32⟩ : BufTy).Contents (Elt F) → (⟨S128, .f32⟩ : BufTy).Contents (Elt F)),
    ternary main_call2_v12 main_call2_v11 main_call2_call0_v1 main_v127 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- Operations of window 2 of the program: its batch normalisation, leaky rectifier and second dense layer. -/
abbrev k11 : List (HloOp τ sig (Elt F)) :=
  [ unary main_v126 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v123 main_v129 main_v130 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v131 (broadcastInDim S128 ![] bcast_S_S128 : (⟨S_, .f32⟩ : BufTy).Contents (Elt F) → (⟨S128, .f32⟩ : BufTy).Contents (Elt F)),
    binary main_v127 main_v131 main_v132 (addf : (⟨S128, .f32⟩ : BufTy).Contents (Elt F) → (⟨S128, .f32⟩ : BufTy).Contents (Elt F) → (⟨S128, .f32⟩ : BufTy).Contents (Elt F)),
    unary main_v132 main_v133 (Host.sqrt : (⟨S128, .f32⟩ : BufTy).Contents (Elt F) → (⟨S128, .f32⟩ : BufTy).Contents (Elt F)),
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v130 main_v135 main_v136 (Host.divf : (⟨S50000x128, .f32⟩ : BufTy).Contents (Elt F) → (⟨S50000x128, .f32⟩ : BufTy).Contents (Elt F) → (⟨S50000x128, .f32⟩ : BufTy).Contents (Elt F)),
    unary main_arg11 main_v137 (broadcastInDim S1x128 ![1] bcast_S128_S1x128_1 : (⟨S128, .f32⟩ : BufTy).Contents (Elt F) → (⟨S1x128, .f32⟩ : BufTy).Contents (Elt F)),
    unary main_v137 main_v138 (broadcastInDim S50000x128 ![0, 1] bcast_S1x128_S50000x128_0_1 : (⟨S1x128, .f32⟩ : BufTy).Contents (Elt F) → (⟨S50000x128, .f32⟩ : BufTy).Contents (Elt F)),
    binary main_v136 main_v138 main_v139 (mulf : (⟨S50000x128, .f32⟩ : BufTy).Contents (Elt F) → (⟨S50000x128, .f32⟩ : BufTy).Contents (Elt F) → (⟨S50000x128, .f32⟩ : BufTy).Contents (Elt F)),
    unary main_arg12 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v139 main_v141 main_v142 (addf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x00000000#32),
    unary main_cst_22 main_v143 (broadcastInDim S50000x128 ![] bcast_S_S50000x128 : (⟨S_, .f32⟩ : BufTy).Contents (Elt F) → (⟨S50000x128, .f32⟩ : BufTy).Contents (Elt F)),
    binary main_v142 main_v143 main_v144 (cmpf .ogt : (⟨S50000x128, .f32⟩ : BufTy).Contents (Elt F) → (⟨S50000x128, .f32⟩ : BufTy).Contents (Elt F) → (⟨S50000x128, .i1⟩ : BufTy).Contents (Elt F)),
    unary main_arg13 main_v145 (broadcastInDim S1x1 ![1] bcast_S1_S1x1_1 : (⟨S1, .f32⟩ : BufTy).Contents (Elt F) → (⟨S1x1, .f32⟩ : BufTy).Contents (Elt F)),
    unary main_v145 main_v146 (broadcastInDim S50000x128 ![0, 1] bcast_S1x1_S50000x128_0_1 : (⟨S1x1, .f32⟩ : BufTy).Contents (Elt F) → (⟨S50000x128, .f32⟩ : BufTy).Contents (Elt F)),
    binary main_v146 main_v142 main_v147 (mulf : (⟨S50000x128, .f32⟩ : BufTy).Contents (Elt F) → (⟨S50000x128, .f32⟩ : BufTy).Contents (Elt F) → (⟨S50000x128, .f32⟩ : BufTy).Contents (Elt F)),
    ternary main_v144 main_v142 main_v147 main_v148 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    binary main_v148 main_arg14 main_v149 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v150 (broadcastInDim S1x128 ![1] bcast_S128_S1x128_1 : (⟨S128, .f32⟩ : BufTy).Contents (Elt F) → (⟨S1x128, .f32⟩ : BufTy).Contents (Elt F)),
    unary main_v150 main_v151 (broadcastInDim S50000x128 ![0, 1] bcast_S1x128_S50000x128_0_1 : (⟨S1x128, .f32⟩ : BufTy).Contents (Elt F) → (⟨S50000x128, .f32⟩ : BufTy).Contents (Elt F)),
    binary main_v149 main_v151 main_v152 (addf : (⟨S50000x128, .f32⟩ : BufTy).Contents (Elt F) → (⟨S50000x128, .f32⟩ : BufTy).Contents (Elt F) → (⟨S50000x128, .f32⟩ : BufTy).Contents (Elt F)) ]

/-- Operations of window 2 of the program: the squares of the first predictor output. -/
abbrev k12 : List (HloOp τ sig (Elt F)) :=
  [ binary main_v119 main_v119 main_v153 (mulf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x00000000#32) ]

/-- Operations of window 3 of the program: the two row normalisations and the row loss of the first pair. -/
abbrev k13 : List (HloOp τ sig (Elt F)) :=
  [ binary main_v153 main_cst_23 main_v154 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v154 main_v155 (broadcastInDim S50000x1 ![0] bcast_S50000_S50000x1_0 : (⟨S50000, .f32⟩ : BufTy).Contents (Elt F) → (⟨S50000x1, .f32⟩ : BufTy).Contents (Elt F)),
    unary main_v155 main_v156 (Host.sqrt : (⟨S50000x1, .f32⟩ : BufTy).Contents (Elt F) → (⟨S50000x1, .f32⟩ : BufTy).Contents (Elt F)),
    nullary main_cst_24 (constant S_ .f32 0x2B8CBCCC#32),
    unary main_cst_24 main_v157 (broadcastInDim S50000x1 ![] bcast_S_S50000x1 : (⟨S_, .f32⟩ : BufTy).Contents (Elt F) → (⟨S50000x1, .f32⟩ : BufTy).Contents (Elt F)),
    binary main_v156 main_v157 main_v158 (maximumf : (⟨S50000x1, .f32⟩ : BufTy).Contents (Elt F) → (⟨S50000x1, .f32⟩ : BufTy).Contents (Elt F) → (⟨S50000x1, .f32⟩ : BufTy).Contents (Elt F)),
    unary main_v158 main_v159 (broadcastInDim S50000x128 ![0, 1] bcast_S50000x1_S50000x128_0_1 : (⟨S50000x1, .f32⟩ : BufTy).Contents (Elt F) → (⟨S50000x128, .f32⟩ : BufTy).Contents (Elt F)),
    binary main_v119 main_v159 main_v160 (Host.divf : (⟨S50000x128, .f32⟩ : BufTy).Contents (Elt F) → (⟨S50000x128, .f32⟩ : BufTy).Contents (Elt F) → (⟨S50000x128, .f32⟩ : BufTy).Contents (Elt F)),
    binary main_v86 main_v86 main_v161 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v161 main_cst_25 main_v162 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v162 main_v163 (broadcastInDim S50000x1 ![0] bcast_S50000_S50000x1_0 : (⟨S50000, .f32⟩ : BufTy).Contents (Elt F) → (⟨S50000x1, .f32⟩ : BufTy).Contents (Elt F)),
    unary main_v163 main_v164 (Host.sqrt : (⟨S50000x1, .f32⟩ : BufTy).Contents (Elt F) → (⟨S50000x1, .f32⟩ : BufTy).Contents (Elt F)),
    nullary main_cst_26 (constant S_ .f32 0x2B8CBCCC#32),
    unary main_cst_26 main_v165 (broadcastInDim S50000x1 ![] bcast_S_S50000x1 : (⟨S_, .f32⟩ : BufTy).Contents (Elt F) → (⟨S50000x1, .f32⟩ : BufTy).Contents (Elt F)),
    binary main_v164 main_v165 main_v166 (maximumf : (⟨S50000x1, .f32⟩ : BufTy).Contents (Elt F) → (⟨S50000x1, .f32⟩ : BufTy).Contents (Elt F) → (⟨S50000x1, .f32⟩ : BufTy).Contents (Elt F)),
    unary main_v166 main_v167 (broadcastInDim S50000x128 ![0, 1] bcast_S50000x1_S50000x128_0_1 : (⟨S50000x1, .f32⟩ : BufTy).Contents (Elt F) → (⟨S50000x128, .f32⟩ : BufTy).Contents (Elt F)),
    binary main_v86 main_v167 main_v168 (Host.divf : (⟨S50000x128, .f32⟩ : BufTy).Contents (Elt F) → (⟨S50000x128, .f32⟩ : BufTy).Contents (Elt F) → (⟨S50000x128, .f32⟩ : BufTy).Contents (Elt F)),
    binary main_v160 main_v168 main_v169 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v169 main_cst_27 main_v170 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_28 (constant S_ .f32 0x40000000#32),
    unary main_cst_28 main_v171 (broadcastInDim S50000 ![] bcast_S_S50000 : (⟨S_, .f32⟩ : BufTy).Contents (Elt F) → (⟨S50000, .f32⟩ : BufTy).Contents (Elt F)),
    binary main_v171 main_v170 main_v172 (mulf : (⟨S50000, .f32⟩ : BufTy).Contents (Elt F) → (⟨S50000, .f32⟩ : BufTy).Contents (Elt F) → (⟨S50000, .f32⟩ : BufTy).Contents (Elt F)),
    nullary main_cst_29 (constant S_ .f32 0x40000000#32),
    unary main_cst_29 main_v173 (broadcastInDim S50000 ![] bcast_S_S50000 : (⟨S_, .f32⟩ : BufTy).Contents (Elt F) → (⟨S50000, .f32⟩ : BufTy).Contents (Elt F)),
    binary main_v173 main_v172 main_v174 (subf : (⟨S50000, .f32⟩ : BufTy).Contents (Elt F) → (⟨S50000, .f32⟩ : BufTy).Contents (Elt F) → (⟨S50000, .f32⟩ : BufTy).Contents (Elt F)) ]

/-- Operations of window 3 of the program: the row loss of the second pair, the sum of the two and its total. -/
abbrev k14 : List (HloOp τ sig (Elt F)) :=
  [ binary main_v152 main_v152 main_v175 (mulf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x00000000#32),
    binary main_v175 main_cst_30 main_v176 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v176 main_v177 (broadcastInDim S50000x1 ![0] bcast_S50000_S50000x1_0 : (⟨S50000, .f32⟩ : BufTy).Contents (Elt F) → (⟨S50000x1, .f32⟩ : BufTy).Contents (Elt F)),
    unary main_v177 main_v178 (Host.sqrt : (⟨S50000x1, .f32⟩ : BufTy).Contents (Elt F) → (⟨S50000x1, .f32⟩ : BufTy).Contents (Elt F)),
    nullary main_cst_31 (constant S_ .f32 0x2B8CBCCC#32),
    unary main_cst_31 main_v179 (broadcastInDim S50000x1 ![] bcast_S_S50000x1 : (⟨S_, .f32⟩ : BufTy).Contents (Elt F) → (⟨S50000x1, .f32⟩ : BufTy).Contents (Elt F)),
    binary main_v178 main_v179 main_v180 (maximumf : (⟨S50000x1, .f32⟩ : BufTy).Contents (Elt F) → (⟨S50000x1, .f32⟩ : BufTy).Contents (Elt F) → (⟨S50000x1, .f32⟩ : BufTy).Contents (Elt F)),
    unary main_v180 main_v181 (broadcastInDim S50000x128 ![0, 1] bcast_S50000x1_S50000x128_0_1 : (⟨S50000x1, .f32⟩ : BufTy).Contents (Elt F) → (⟨S50000x128, .f32⟩ : BufTy).Contents (Elt F)),
    binary main_v152 main_v181 main_v182 (Host.divf : (⟨S50000x128, .f32⟩ : BufTy).Contents (Elt F) → (⟨S50000x128, .f32⟩ : BufTy).Contents (Elt F) → (⟨S50000x128, .f32⟩ : BufTy).Contents (Elt F)),
    binary main_v69 main_v69 main_v183 (mulf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x00000000#32),
    binary main_v183 main_cst_32 main_v184 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v184 main_v185 (broadcastInDim S50000x1 ![0] bcast_S50000_S50000x1_0 : (⟨S50000, .f32⟩ : BufTy).Contents (Elt F) → (⟨S50000x1, .f32⟩ : BufTy).Contents (Elt F)),
    unary main_v185 main_v186 (Host.sqrt : (⟨S50000x1, .f32⟩ : BufTy).Contents (Elt F) → (⟨S50000x1, .f32⟩ : BufTy).Contents (Elt F)),
    nullary main_cst_33 (constant S_ .f32 0x2B8CBCCC#32),
    unary main_cst_33 main_v187 (broadcastInDim S50000x1 ![] bcast_S_S50000x1 : (⟨S_, .f32⟩ : BufTy).Contents (Elt F) → (⟨S50000x1, .f32⟩ : BufTy).Contents (Elt F)),
    binary main_v186 main_v187 main_v188 (maximumf : (⟨S50000x1, .f32⟩ : BufTy).Contents (Elt F) → (⟨S50000x1, .f32⟩ : BufTy).Contents (Elt F) → (⟨S50000x1, .f32⟩ : BufTy).Contents (Elt F)),
    unary main_v188 main_v189 (broadcastInDim S50000x128 ![0, 1] bcast_S50000x1_S50000x128_0_1 : (⟨S50000x1, .f32⟩ : BufTy).Contents (Elt F) → (⟨S50000x128, .f32⟩ : BufTy).Contents (Elt F)),
    binary main_v69 main_v189 main_v190 (Host.divf : (⟨S50000x128, .f32⟩ : BufTy).Contents (Elt F) → (⟨S50000x128, .f32⟩ : BufTy).Contents (Elt F) → (⟨S50000x128, .f32⟩ : BufTy).Contents (Elt F)),
    binary main_v182 main_v190 main_v191 (mulf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x00000000#32),
    binary main_v191 main_cst_34 main_v192 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_35 (constant S_ .f32 0x40000000#32),
    unary main_cst_35 main_v193 (broadcastInDim S50000 ![] bcast_S_S50000 : (⟨S_, .f32⟩ : BufTy).Contents (Elt F) → (⟨S50000, .f32⟩ : BufTy).Contents (Elt F)),
    binary main_v193 main_v192 main_v194 (mulf : (⟨S50000, .f32⟩ : BufTy).Contents (Elt F) → (⟨S50000, .f32⟩ : BufTy).Contents (Elt F) → (⟨S50000, .f32⟩ : BufTy).Contents (Elt F)),
    nullary main_cst_36 (constant S_ .f32 0x40000000#32),
    unary main_cst_36 main_v195 (broadcastInDim S50000 ![] bcast_S_S50000 : (⟨S_, .f32⟩ : BufTy).Contents (Elt F) → (⟨S50000, .f32⟩ : BufTy).Contents (Elt F)),
    binary main_v195 main_v194 main_v196 (subf : (⟨S50000, .f32⟩ : BufTy).Contents (Elt F) → (⟨S50000, .f32⟩ : BufTy).Contents (Elt F) → (⟨S50000, .f32⟩ : BufTy).Contents (Elt F)),
    binary main_v174 main_v196 main_v197 (addf : (⟨S50000, .f32⟩ : BufTy).Contents (Elt F) → (⟨S50000, .f32⟩ : BufTy).Contents (Elt F) → (⟨S50000, .f32⟩ : BufTy).Contents (Elt F)),
    nullary main_cst_37 (constant S_ .f32 0x00000000#32),
    binary main_v197 main_cst_37 main_v198 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_38 (constant S_ .f32 0x47435000#32) ]

/-- Operations of window 4 of the program: the mean over the rows. -/
abbrev k15 : List (HloOp τ sig (Elt F)) :=
  [ binary main_v198 main_cst_38 main_v199 (Host.divf : (⟨S_, .f32⟩ : BufTy).Contents (Elt F) → (⟨S_, .f32⟩ : BufTy).Contents (Elt F) → (⟨S_, .f32⟩ : BufTy).Contents (Elt F)) ]

/-- The operations of the program's window 0, in order. -/
def p0 : List (HloOp τ sig (Elt F)) := k01 ++ (k02 ++ (k03))
/-- The operations of the program's window 1, in order. -/
def p1 : List (HloOp τ sig (Elt F)) := k04 ++ (k05 ++ (k06 ++ (k07 ++ (k08))))
/-- The operations of the program's window 2, in order. -/
def p2 : List (HloOp τ sig (Elt F)) := k09 ++ (k10 ++ (k11 ++ (k12)))
/-- The operations of the program's window 3, in order. -/
def p3 : List (HloOp τ sig (Elt F)) := k13 ++ (k14)
/-- The operations of the program's window 4, in order. -/
def p4 : List (HloOp τ sig (Elt F)) := k15

/-- All 283 operations, in order. -/
def ops : List (HloOp τ sig (Elt F)) := p0 ++ (p1 ++ (p2 ++ (p3 ++ (p4))))

set_option maxRecDepth 16384 in
set_option maxHeartbeats 4000000 in
/-- The program's window 0 is its operations run in order. -/
theorem main_part0_eq (c : Dev nD) : main_part0 (F := F) c = seq p0 := rfl

set_option maxRecDepth 16384 in
set_option maxHeartbeats 4000000 in
/-- The program's window 1 is its operations run in order (an applied function is its own operations, run where it is applied). -/
theorem main_part1_eq (c : Dev nD) : main_part1 (F := F) c = seq p1 := by
  simp only [main_part1, p1, k04, k05, k06, k07, k08, List.cons_append, List.nil_append, fn_var.body, fn_where.body, fn_where_0.body, seq, bind_assoc, pure_bind]
  rfl

set_option maxRecDepth 16384 in
set_option maxHeartbeats 4000000 in
/-- The program's window 2 is its operations run in order (an applied function is its own operations, run where it is applied). -/
theorem main_part2_eq (c : Dev nD) : main_part2 (F := F) c = seq p2 := by
  simp only [main_part2, p2, k09, k10, k11, k12, List.cons_append, List.nil_append, fn_var.body, fn_where.body, fn_where_0.body, seq, bind_assoc, pure_bind]
  rfl

set_option maxRecDepth 16384 in
set_option maxHeartbeats 4000000 in
/-- The program's window 3 is its operations run in order. -/
theorem main_part3_eq (c : Dev nD) : main_part3 (F := F) c = seq p3 := rfl

set_option maxRecDepth 16384 in
set_option maxHeartbeats 4000000 in
/-- The program's window 4 is its operations run in order. -/
theorem main_part4_eq (c : Dev nD) : main_part4 (F := F) c = seq p4 := rfl

/-- The whole program is the 283 operations run in order. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem k01_sub : (k01 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub ..⟩
theorem k01_fresh : (k01 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem k02_sub : (k02 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem k02_fresh : (k02 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem k03_sub : (k03 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub ..⟩
theorem k03_fresh : (k03 : List (HloOp τ sig (Elt F))).Forall fun op => op.fresh = ∅ :=
  ⟨rfl, rfl, rfl, rfl, rfl, rfl, rfl, rfl, rfl, rfl, rfl, rfl, rfl, rfl, rfl, rfl, rfl, rfl⟩
theorem k04_sub : (k04 : List (HloOp τ sig (Elt F))).Forall fun op => op.bufs ⊆ tcRefs τ sig :=
  ⟨unary_bufs_sub .., binary_bufs_sub ..⟩
theorem k04_fresh : (k04 : List (HloOp τ sig (Elt F))).Forall fun op => op.fresh = ∅ :=
  ⟨rfl, rfl⟩
theorem k05_sub : (k05 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem k05_fresh : (k05 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem k06_sub : (k06 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem k06_fresh : (k06 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem k07_sub : (k07 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem k07_fresh : (k07 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem k08_sub : (k08 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub ..⟩
theorem k08_fresh : (k08 : List (HloOp τ sig (Elt F))).Forall fun op => op.fresh = ∅ :=
  ⟨rfl, rfl, rfl, rfl, rfl, rfl, rfl⟩
theorem k09_sub : (k09 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩
theorem k09_fresh : (k09 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem k10_sub : (k10 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem k10_fresh : (k10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem k11_sub : (k11 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩
theorem k11_fresh : (k11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem k12_sub : (k12 : List (HloOp τ sig (Elt F))).Forall fun op => op.bufs ⊆ tcRefs τ sig :=
  ⟨binary_bufs_sub .., nullary_bufs_sub ..⟩
theorem k12_fresh : (k12 : List (HloOp τ sig (Elt F))).Forall fun op => op.fresh = ∅ :=
  ⟨rfl, rfl⟩
theorem k13_sub : (k13 : List (HloOp τ sig (Elt F))).Forall fun op => op.bufs ⊆ tcRefs τ sig :=
  ⟨binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub ..⟩
theorem k13_fresh : (k13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem k14_sub : (k14 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub ..⟩
theorem k14_fresh : (k14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem k15_sub : (k15 : List (HloOp τ sig (Elt F))).Forall fun op => op.bufs ⊆ tcRefs τ sig :=
  binary_bufs_sub ..
theorem k15_fresh : (k15 : List (HloOp τ sig (Elt F))).Forall fun op => op.fresh = ∅ :=
  rfl

/-- Membership in the whole line is membership in one of its fifteen pieces. -/
theorem mem_ops {op : HloOp τ sig (Elt F)} (h : op ∈ (ops : List (HloOp τ sig (Elt F)))) :
    op ∈ (k01 : List (HloOp τ sig (Elt F))) ∨ op ∈ (k02 : List (HloOp τ sig (Elt F))) ∨ op ∈ (k03 : List (HloOp τ sig (Elt F))) ∨ op ∈ (k04 : List (HloOp τ sig (Elt F))) ∨ op ∈ (k05 : List (HloOp τ sig (Elt F))) ∨ op ∈ (k06 : List (HloOp τ sig (Elt F))) ∨ op ∈ (k07 : List (HloOp τ sig (Elt F))) ∨ op ∈ (k08 : List (HloOp τ sig (Elt F))) ∨ op ∈ (k09 : List (HloOp τ sig (Elt F))) ∨ op ∈ (k10 : List (HloOp τ sig (Elt F))) ∨ op ∈ (k11 : List (HloOp τ sig (Elt F))) ∨ op ∈ (k12 : List (HloOp τ sig (Elt F))) ∨ op ∈ (k13 : List (HloOp τ sig (Elt F))) ∨ op ∈ (k14 : List (HloOp τ sig (Elt F))) ∨ op ∈ (k15 : List (HloOp τ sig (Elt F))) := by
  simp only [ops, p0, p1, p2, p3, p4, List.mem_append, or_assoc] at h
  exact h

/-- Every operation touches tensor-core buffers only. -/
theorem ops_sub : (ops : List (HloOp τ sig (Elt F))).Forall fun op => op.bufs ⊆ tcRefs τ sig :=
  List.forall_iff_forall_mem.mpr fun op h => by
    rcases mem_ops h with h | h | h | h | h | h | h | h | h | h | h | h | h | h | h
    exacts [List.forall_iff_forall_mem.mp k01_sub op h, List.forall_iff_forall_mem.mp k02_sub op h, List.forall_iff_forall_mem.mp k03_sub op h, List.forall_iff_forall_mem.mp k04_sub op h, List.forall_iff_forall_mem.mp k05_sub op h, List.forall_iff_forall_mem.mp k06_sub op h, List.forall_iff_forall_mem.mp k07_sub op h, List.forall_iff_forall_mem.mp k08_sub op h, List.forall_iff_forall_mem.mp k09_sub op h, List.forall_iff_forall_mem.mp k10_sub op h, List.forall_iff_forall_mem.mp k11_sub op h, List.forall_iff_forall_mem.mp k12_sub op h, List.forall_iff_forall_mem.mp k13_sub op h, List.forall_iff_forall_mem.mp k14_sub op h, List.forall_iff_forall_mem.mp k15_sub op h]

/-- Every operation determines its result. -/
theorem ops_fresh : ∀ op ∈ (ops : List (HloOp τ sig (Elt F))), op.fresh = ∅ := fun op h => by
  rcases mem_ops h with h | h | h | h | h | h | h | h | h | h | h | h | h | h | h
  exacts [List.forall_iff_forall_mem.mp k01_fresh op h, List.forall_iff_forall_mem.mp k02_fresh op h, List.forall_iff_forall_mem.mp k03_fresh op h, List.forall_iff_forall_mem.mp k04_fresh op h, List.forall_iff_forall_mem.mp k05_fresh op h, List.forall_iff_forall_mem.mp k06_fresh op h, List.forall_iff_forall_mem.mp k07_fresh op h, List.forall_iff_forall_mem.mp k08_fresh op h, List.forall_iff_forall_mem.mp k09_fresh op h, List.forall_iff_forall_mem.mp k10_fresh op h, List.forall_iff_forall_mem.mp k11_fresh op h, List.forall_iff_forall_mem.mp k12_fresh op h, List.forall_iff_forall_mem.mp k13_fresh op h, List.forall_iff_forall_mem.mp k14_fresh op h, List.forall_iff_forall_mem.mp k15_fresh op h]

/-- The buffers after the whole line are the buffers after its fifteen pieces, one after the other. -/
theorem after_ops (V : Valuation τ sig (Elt F)) :
    after ops V = after k15 (after k14 (after k13 (after k12 (after k11 (after k10 (after k09 (after k08 (after k07 (after k06 (after k05 (after k04 (after k03 (after k02 (after k01 (V))))))))))))))) := by
  simp only [ops, p0, p1, p2, p3, p4, after_append]

end Cert.ReferenceIdeal.RefRun

end
-- ==== Proof.RefRunW01.lean ====
/-
  One step of the reference program read as mathematics: the perturbed features and the first result (the perturbed features plus their online graph convolution).
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k01_W : List (Ref sig .tc) := [main_v0, main_v1, main_c, main_v2, main_v3, main_c_0, main_v4, main_v5, main_v6, main_v7, main_v8, main_v9, main_v10, main_v11, main_cst, main_v12, main_v13, main_v14, main_v15, main_v16, main_v17, main_v18]
set_option maxRecDepth 8192 in
theorem k01_writes : (k01 : List (HloOp τ sig (Elt F))).Forall fun op => op.writes ⊆ (k01_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k01_keep (V : Valuation τ sig (Elt F)) (r : Ref sig .tc) (h : r ∉ k01_W) :
    after k01 V (Proc.devRef .tc r) = V (Proc.devRef .tc r) :=
  after_of_writes_sub k01 _ k01_writes h

set_option maxRecDepth 16384 in
set_option maxHeartbeats 8000000 in
theorem w01_main_v0 (V : Valuation τ sig (Elt F)) :
    after k01 (V) (Proc.devRef .tc main_v0)
      = Cert.Spec.x2 (V (Proc.devRef .tc main_arg0)) (V (Proc.devRef .tc main_arg1)) := by
  simp only [k01]
  after_results_simp <;> rfl

set_option maxRecDepth 16384 in
set_option maxHeartbeats 8000000 in
theorem w01_main_v18 (V : Valuation τ sig (Elt F)) :
    after k01 (V) (Proc.devRef .tc main_v18)
      = Cert.Spec.embed (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp only [k01]
  after_results_simp <;> rfl

end Cert.ReferenceIdeal.RefRun

end
-- ==== Proof.RefRunW02.lean ====
/-
  One step of the reference program read as mathematics: the online graph convolution of the unperturbed features.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k02_W : List (Ref sig .tc) := [main_v19, main_c_1, main_v20, main_v21, main_c_2, main_v22, main_v23, main_v24, main_v25, main_v26, main_v27, main_v28, main_v29, main_cst_3, main_v30, main_v31, main_v32, main_v33, main_v34, main_v35]
set_option maxRecDepth 8192 in
theorem k02_writes : (k02 : List (HloOp τ sig (Elt F))).Forall fun op => op.writes ⊆ (k02_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k02_keep (V : Valuation τ sig (Elt F)) (r : Ref sig .tc) (h : r ∉ k02_W) :
    after k02 V (Proc.devRef .tc r) = V (Proc.devRef .tc r) :=
  after_of_writes_sub k02 _ k02_writes h

set_option maxRecDepth 16384 in
set_option maxHeartbeats 8000000 in
theorem w02_main_v35 (V : Valuation τ sig (Elt F)) :
    after k02 (V) (Proc.devRef .tc main_v35)
      = Cert.Spec.gcn (V (Proc.devRef .tc main_arg0)) (V (Proc.devRef .tc main_arg5)) (V (Proc.devRef .tc main_arg6)) (V (Proc.devRef .tc main_arg2)) (V (Proc.devRef .tc main_arg3)) (V (Proc.devRef .tc main_arg4)) := by
  simp only [k02]
  after_results_simp <;> rfl

end Cert.ReferenceIdeal.RefRun

end
-- ==== Proof.RefRunW03.lean ====
/-
  One step of the reference program read as mathematics: the online graph convolution of the perturbed features.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k03_W : List (Ref sig .tc) := [main_v36, main_c_4, main_v37, main_v38, main_c_5, main_v39, main_v40, main_v41, main_v42, main_v43, main_v44, main_v45, main_v46, main_cst_6, main_v47, main_v48, main_v49, main_v50]
set_option maxRecDepth 8192 in
theorem k03_writes : (k03 : List (HloOp τ sig (Elt F))).Forall fun op => op.writes ⊆ (k03_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k03_keep (V : Valuation τ sig (Elt F)) (r : Ref sig .tc) (h : r ∉ k03_W) :
    after k03 V (Proc.devRef .tc r) = V (Proc.devRef .tc r) :=
  after_of_writes_sub k03 _ k03_writes h

/-- The buffers these operations write. -/
abbrev k04_W : List (Ref sig .tc) := [main_v51, main_v52]
set_option maxRecDepth 8192 in
theorem k04_writes : (k04 : List (HloOp τ sig (Elt F))).Forall fun op => op.writes ⊆ (k04_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k04_keep (V : Valuation τ sig (Elt F)) (r : Ref sig .tc) (h : r ∉ k04_W) :
    after k04 V (Proc.devRef .tc r) = V (Proc.devRef .tc r) :=
  after_of_writes_sub k04 _ k04_writes h

set_option maxRecDepth 16384 in
set_option maxHeartbeats 8000000 in
theorem w03_main_v52 (V : Valuation τ sig (Elt F)) :
    after k04 (after k03 (V)) (Proc.devRef .tc main_v52)
      = Cert.Spec.gcn (V (Proc.devRef .tc main_v0)) (V (Proc.devRef .tc main_arg5)) (V (Proc.devRef .tc main_arg6)) (V (Proc.devRef .tc main_arg2)) (V (Proc.devRef .tc main_arg3)) (V (Proc.devRef .tc main_arg4)) := by
  simp only [k03, k04]
  after_results_simp <;> rfl

end Cert.ReferenceIdeal.RefRun

end
-- ==== Proof.RefRunW04.lean ====
/-
  One step of the reference program read as mathematics: the target graph convolution of the unperturbed features.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k05_W : List (Ref sig .tc) := [main_v53, main_c_7, main_v54, main_v55, main_c_8, main_v56, main_v57, main_v58, main_v59, main_v60, main_v61, main_v62, main_v63, main_cst_9, main_v64, main_v65, main_v66, main_v67, main_v68, main_v69]
set_option maxRecDepth 8192 in
theorem k05_writes : (k05 : List (HloOp τ sig (Elt F))).Forall fun op => op.writes ⊆ (k05_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k05_keep (V : Valuation τ sig (Elt F)) (r : Ref sig .tc) (h : r ∉ k05_W) :
    after k05 V (Proc.devRef .tc r) = V (Proc.devRef .tc r) :=
  after_of_writes_sub k05 _ k05_writes h

set_option maxRecDepth 16384 in
set_option maxHeartbeats 8000000 in
theorem w04_main_v69 (V : Valuation τ sig (Elt F)) :
    after k05 (V) (Proc.devRef .tc main_v69)
      = Cert.Spec.gcn (V (Proc.devRef .tc main_arg0)) (V (Proc.devRef .tc main_arg7)) (V (Proc.devRef .tc main_arg8)) (V (Proc.devRef .tc main_arg2)) (V (Proc.devRef .tc main_arg3)) (V (Proc.devRef .tc main_arg4)) := by
  simp only [k05]
  after_results_simp <;> rfl

end Cert.ReferenceIdeal.RefRun

end
-- ==== Proof.RefRunW05.lean ====
/-
  One step of the reference program read as mathematics: the target graph convolution of the perturbed features.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k06_W : List (Ref sig .tc) := [main_v70, main_c_10, main_v71, main_v72, main_c_11, main_v73, main_v74, main_v75, main_v76, main_v77, main_v78, main_v79, main_v80, main_cst_12, main_v81, main_v82, main_v83, main_v84, main_v85, main_v86]
set_option maxRecDepth 8192 in
theorem k06_writes : (k06 : List (HloOp τ sig (Elt F))).Forall fun op => op.writes ⊆ (k06_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k06_keep (V : Valuation τ sig (Elt F)) (r : Ref sig .tc) (h : r ∉ k06_W) :
    after k06 V (Proc.devRef .tc r) = V (Proc.devRef .tc r) :=
  after_of_writes_sub k06 _ k06_writes h

set_option maxRecDepth 16384 in
set_option maxHeartbeats 8000000 in
theorem w05_main_v86 (V : Valuation τ sig (Elt F)) :
    after k06 (V) (Proc.devRef .tc main_v86)
      = Cert.Spec.gcn (V (Proc.devRef .tc main_v0)) (V (Proc.devRef .tc main_arg7)) (V (Proc.devRef .tc main_arg8)) (V (Proc.devRef .tc main_arg2)) (V (Proc.devRef .tc main_arg3)) (V (Proc.devRef .tc main_arg4)) := by
  simp only [k06]
  after_results_simp <;> rfl

end Cert.ReferenceIdeal.RefRun

end
-- ==== Proof.RefRunW06.lean ====
/-
  One step of the reference program read as mathematics: the first dense layer of the predictor on the first online convolution, with its column means and variances.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k07_W : List (Ref sig .tc) := [main_v87, main_v88, main_v89, main_v90, main_cst_13, main_v91, main_cst_14, main_v92, main_v93, main_c_15, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v94]
set_option maxRecDepth 8192 in
theorem k07_writes : (k07 : List (HloOp τ sig (Elt F))).Forall fun op => op.writes ⊆ (k07_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k07_keep (V : Valuation τ sig (Elt F)) (r : Ref sig .tc) (h : r ∉ k07_W) :
    after k07 V (Proc.devRef .tc r) = V (Proc.devRef .tc r) :=
  after_of_writes_sub k07 _ k07_writes h

set_option maxRecDepth 16384 in
set_option maxHeartbeats 8000000 in
theorem w06_main_v90 (V : Valuation τ sig (Elt F)) :
    after k07 (V) (Proc.devRef .tc main_v90)
      = Cert.Spec.lin (V (Proc.devRef .tc main_v35)) (V (Proc.devRef .tc main_arg9)) (V (Proc.devRef .tc main_arg10)) := by
  simp only [k07]
  after_results_simp <;> rfl

set_option maxRecDepth 16384 in
set_option maxHeartbeats 8000000 in
theorem w06_main_v93 (V : Valuation τ sig (Elt F)) :
    after k07 (V) (Proc.devRef .tc main_v93)
      = Cert.Spec.mean (Cert.Spec.lin (V (Proc.devRef .tc main_v35)) (V (Proc.devRef .tc main_arg9)) (V (Proc.devRef .tc main_arg10))) := by
  simp only [k07]
  after_results_simp <;> rfl

set_option maxRecDepth 16384 in
set_option maxHeartbeats 8000000 in
theorem w06_main_v94 (V : Valuation τ sig (Elt F)) :
    after k07 (V) (Proc.devRef .tc main_v94)
      = Cert.Spec.var (Cert.Spec.lin (V (Proc.devRef .tc main_v35)) (V (Proc.devRef .tc main_arg9)) (V (Proc.devRef .tc main_arg10))) := by
  simp only [k07]
  after_results_simp <;> rfl

end Cert.ReferenceIdeal.RefRun

end
-- ==== Proof.RefRunW07.lean ====
/-
  One step of the reference program read as mathematics: the first predictor output: batch normalisation, leaky rectifier and second dense layer of that first layer.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k08_W : List (Ref sig .tc) := [main_v95, main_v96, main_v97, main_cst_16, main_v98, main_v99, main_v100]
set_option maxRecDepth 8192 in
theorem k08_writes : (k08 : List (HloOp τ sig (Elt F))).Forall fun op => op.writes ⊆ (k08_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k08_keep (V : Valuation τ sig (Elt F)) (r : Ref sig .tc) (h : r ∉ k08_W) :
    after k08 V (Proc.devRef .tc r) = V (Proc.devRef .tc r) :=
  after_of_writes_sub k08 _ k08_writes h

/-- The buffers these operations write. -/
abbrev k09_W : List (Ref sig .tc) := [main_v101, main_v102, main_v103, main_v104, main_v105, main_v106, main_v107, main_v108, main_v109, main_cst_17, main_v110, main_v111, main_v112, main_v113, main_v114, main_v115, main_v116, main_v117, main_v118, main_v119]
set_option maxRecDepth 8192 in
theorem k09_writes : (k09 : List (HloOp τ sig (Elt F))).Forall fun op => op.writes ⊆ (k09_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k09_keep (V : Valuation τ sig (Elt F)) (r : Ref sig .tc) (h : r ∉ k09_W) :
    after k09 V (Proc.devRef .tc r) = V (Proc.devRef .tc r) :=
  after_of_writes_sub k09 _ k09_writes h

set_option maxRecDepth 16384 in
set_option maxHeartbeats 8000000 in
theorem w07_main_v119 (V : Valuation τ sig (Elt F)) :
    after k09 (after k08 (V)) (Proc.devRef .tc main_v119)
      = Cert.Spec.lin (Cert.Spec.prelu (Cert.Spec.bn (V (Proc.devRef .tc main_v90)) (V (Proc.devRef .tc main_v93)) (V (Proc.devRef .tc main_v94)) (V (Proc.devRef .tc main_arg11)) (V (Proc.devRef .tc main_arg12))) (V (Proc.devRef .tc main_arg13))) (V (Proc.devRef .tc main_arg14)) (V (Proc.devRef .tc main_arg15)) := by
  simp only [k08, k09]
  after_results_simp <;> rfl

end Cert.ReferenceIdeal.RefRun

end
-- ==== Proof.RefRunW08.lean ====
/-
  One step of the reference program read as mathematics: the first dense layer of the predictor on the second online convolution, with its column means and variances.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k10_W : List (Ref sig .tc) := [main_v120, main_v121, main_v122, main_v123, main_cst_18, main_v124, main_cst_19, main_v125, main_v126, main_c_20, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v127]
set_option maxRecDepth 8192 in
theorem k10_writes : (k10 : List (HloOp τ sig (Elt F))).Forall fun op => op.writes ⊆ (k10_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k10_keep (V : Valuation τ sig (Elt F)) (r : Ref sig .tc) (h : r ∉ k10_W) :
    after k10 V (Proc.devRef .tc r) = V (Proc.devRef .tc r) :=
  after_of_writes_sub k10 _ k10_writes h

set_option maxRecDepth 16384 in
set_option maxHeartbeats 8000000 in
theorem w08_main_v123 (V : Valuation τ sig (Elt F)) :
    after k10 (V) (Proc.devRef .tc main_v123)
      = Cert.Spec.lin (V (Proc.devRef .tc main_v52)) (V (Proc.devRef .tc main_arg9)) (V (Proc.devRef .tc main_arg10)) := by
  simp only [k10]
  after_results_simp <;> rfl

set_option maxRecDepth 16384 in
set_option maxHeartbeats 8000000 in
theorem w08_main_v126 (V : Valuation τ sig (Elt F)) :
    after k10 (V) (Proc.devRef .tc main_v126)
      = Cert.Spec.mean (Cert.Spec.lin (V (Proc.devRef .tc main_v52)) (V (Proc.devRef .tc main_arg9)) (V (Proc.devRef .tc main_arg10))) := by
  simp only [k10]
  after_results_simp <;> rfl

set_option maxRecDepth 16384 in
set_option maxHeartbeats 8000000 in
theorem w08_main_v127 (V : Valuation τ sig (Elt F)) :
    after k10 (V) (Proc.devRef .tc main_v127)
      = Cert.Spec.var (Cert.Spec.lin (V (Proc.devRef .tc main_v52)) (V (Proc.devRef .tc main_arg9)) (V (Proc.devRef .tc main_arg10))) := by
  simp only [k10]
  after_results_simp <;> rfl

end Cert.ReferenceIdeal.RefRun

end
-- ==== Proof.RefRunW09.lean ====
/-
  One step of the reference program read as mathematics: the second predictor output.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k11_W : List (Ref sig .tc) := [main_v128, main_v129, main_v130, main_cst_21, main_v131, main_v132, main_v133, main_v134, main_v135, main_v136, main_v137, main_v138, main_v139, main_v140, main_v141, main_v142, main_cst_22, main_v143, main_v144, main_v145, main_v146, main_v147, main_v148, main_v149, main_v150, main_v151, main_v152]
set_option maxRecDepth 8192 in
theorem k11_writes : (k11 : List (HloOp τ sig (Elt F))).Forall fun op => op.writes ⊆ (k11_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k11_keep (V : Valuation τ sig (Elt F)) (r : Ref sig .tc) (h : r ∉ k11_W) :
    after k11 V (Proc.devRef .tc r) = V (Proc.devRef .tc r) :=
  after_of_writes_sub k11 _ k11_writes h

set_option maxRecDepth 16384 in
set_option maxHeartbeats 8000000 in
theorem w09_main_v152 (V : Valuation τ sig (Elt F)) :
    after k11 (V) (Proc.devRef .tc main_v152)
      = Cert.Spec.lin (Cert.Spec.prelu (Cert.Spec.bn (V (Proc.devRef .tc main_v123)) (V (Proc.devRef .tc main_v126)) (V (Proc.devRef .tc main_v127)) (V (Proc.devRef .tc main_arg11)) (V (Proc.devRef .tc main_arg12))) (V (Proc.devRef .tc main_arg13))) (V (Proc.devRef .tc main_arg14)) (V (Proc.devRef .tc main_arg15)) := by
  simp only [k11]
  after_results_simp <;> rfl

end Cert.ReferenceIdeal.RefRun

end
-- ==== Proof.RefRunW10.lean ====
/-
  One step of the reference program read as mathematics: the row loss of the first predictor output against the target convolution of the perturbed features.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k12_W : List (Ref sig .tc) := [main_v153, main_cst_23]
set_option maxRecDepth 8192 in
theorem k12_writes : (k12 : List (HloOp τ sig (Elt F))).Forall fun op => op.writes ⊆ (k12_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k12_keep (V : Valuation τ sig (Elt F)) (r : Ref sig .tc) (h : r ∉ k12_W) :
    after k12 V (Proc.devRef .tc r) = V (Proc.devRef .tc r) :=
  after_of_writes_sub k12 _ k12_writes h

/-- The buffers these operations write. -/
abbrev k13_W : List (Ref sig .tc) := [main_v154, main_v155, main_v156, main_cst_24, main_v157, main_v158, main_v159, main_v160, main_v161, main_cst_25, main_v162, main_v163, main_v164, main_cst_26, main_v165, main_v166, main_v167, main_v168, main_v169, main_cst_27, main_v170, main_cst_28, main_v171, main_v172, main_cst_29, main_v173, main_v174]
set_option maxRecDepth 8192 in
theorem k13_writes : (k13 : List (HloOp τ sig (Elt F))).Forall fun op => op.writes ⊆ (k13_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k13_keep (V : Valuation τ sig (Elt F)) (r : Ref sig .tc) (h : r ∉ k13_W) :
    after k13 V (Proc.devRef .tc r) = V (Proc.devRef .tc r) :=
  after_of_writes_sub k13 _ k13_writes h

set_option maxRecDepth 16384 in
set_option maxHeartbeats 8000000 in
theorem w10_main_v174 (V : Valuation τ sig (Elt F)) :
    after k13 (after k12 (V)) (Proc.devRef .tc main_v174)
      = Cert.Spec.lossRow (V (Proc.devRef .tc main_v119)) (V (Proc.devRef .tc main_v86)) := by
  simp only [k12, k13]
  after_results_simp <;> rfl

end Cert.ReferenceIdeal.RefRun

end
-- ==== Proof.RefRunW11.lean ====
/-
  One step of the reference program read as mathematics: the second result: the row loss of the second pair added to the first, summed over the rows and divided by their number.
  For any contents of the buffers before these operations, each buffer the later operations still read holds the stated
  whole-array function of the buffers these operations read; a buffer none of them writes keeps its contents.
-/
import proofs.«123214_j35218731827951_1_alg».proof.Proof.RefRunOps
import proofs.«123214_j35218731827951_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write. -/
abbrev k14_W : List (Ref sig .tc) := [main_v175, main_cst_30, main_v176, main_v177, main_v178, main_cst_31, main_v179, main_v180, main_v181, main_v182, main_v183, main_cst_32, main_v184, main_v185, main_v186, main_cst_33, main_v187, main_v188, main_v189, main_v190, main_v191, main_cst_34, main_v192, main_cst_35, main_v193, main_v194, main_cst_36, main_v195, main_v196, main_v197, main_cst_37, main_v198, main_cst_38]
set_option maxRecDepth 8192 in
theorem k14_writes : (k14 : List (HloOp τ sig (Elt F))).Forall fun op => op.writes ⊆ (k14_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer these operations do not write keeps its contents through them. -/
theorem k14_keep (V : Valuation τ sig (Elt F)) (r : Ref sig .tc) (h : r ∉ k14_W) :
    after k14 V (Proc.devRef .tc r) = V (Proc.devRef .tc r) :=
  after_of_writes_sub k14 _ k14_writes h

/-- The buffers these operations write. -/
abbrev k15_W : List (Ref sig .tc) := [main_v199]
set_option maxRecDepth 8192 in
theorem k15_writes : (k15 : List (HloOp τ sig (Elt F))).Forall fun op => op.writes ⊆ (k15_W.map (Proc.devRef (τ := τ) .tc)).toFinset := by
  simp only [List.Forall]
  exact (by simp only [nullary_writes, unary_writes, binary_writes, ternary_writes, Finset.singleton_subset_iff, List.mem_toFinset]; exact List.mem_map_of_mem (by decide))
/-- A buffer these operations do not write keeps its contents through them. -/
theorem k15_keep (V : Valuation τ sig (Elt F)) (r : Ref sig .tc) (h : r ∉ k15_W) :
    after k15 V (Proc.devRef .tc r) = V (Proc.devRef .tc r) :=
  after_of_writes_sub k15 _ k15_writes h

set_option maxRecDepth 16384 in
set_option maxHeartbeats 8000000 in
theorem w11_main_v199 (V : Valuation τ sig (Elt F)) :
    after k15 (after k14 (V)) (Proc.devRef .tc main_v199)
      = Host.divf (Host.reduceAdd (addf (V (Proc.devRef .tc main_v174)) (Cert.Spec.lossRow (V (Proc.devRef .tc main_v152)) (V (Proc.devRef .tc main_v69)))) (constant S_ .f32 0x00000000#32) reducesTo_S50000_S_d0 h_S_) (constant S_ .f32 0x47435000#32) := by
  simp only [k14, k15]
  after_results_simp <;> rfl

end Cert.ReferenceIdeal.RefRun

end
-- ==== Proof.RefRun.lean ====
/-
  The run of the reference program.  The buffers' contents are followed through the eleven steps of the program, from any
  contents at the start: after each step every buffer that a later step reads, every argument and every result holds a
  whole-array function of the sixteen arguments — the perturbed features, the four graph convolutions, the two
  predictor outputs, the row losses.  Run from the launch memory, every weakly fair execution of the program terminates
  with the first result at the perturbed features plus their online graph convolution, the second at the mean row loss,
  and every argument as launched.
-/
import proofs.«123214_j35218731827951_1_alg».proof.Proof.RefRunOps
import proofs.«123214_j35218731827951_1_alg».proof.Proof.Spec
import proofs.«123214_j35218731827951_1_alg».proof.Proof.RefRunW01
import proofs.«123214_j35218731827951_1_alg».proof.Proof.RefRunW02
import proofs.«123214_j35218731827951_1_alg».proof.Proof.RefRunW03
import proofs.«123214_j35218731827951_1_alg».proof.Proof.RefRunW04
import proofs.«123214_j35218731827951_1_alg».proof.Proof.RefRunW05
import proofs.«123214_j35218731827951_1_alg».proof.Proof.RefRunW06
import proofs.«123214_j35218731827951_1_alg».proof.Proof.RefRunW07
import proofs.«123214_j35218731827951_1_alg».proof.Proof.RefRunW08
import proofs.«123214_j35218731827951_1_alg».proof.Proof.RefRunW09
import proofs.«123214_j35218731827951_1_alg».proof.Proof.RefRunW10
import proofs.«123214_j35218731827951_1_alg».proof.Proof.RefRunW11

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers' contents before the first step. -/
def val0 (V0 : Valuation τ sig (Elt F)) : Valuation τ sig (Elt F) := V0
theorem val0_main_arg0 (V0 : Valuation τ sig (Elt F)) : val0 V0 (Proc.devRef .tc main_arg0) = (V0 (Proc.devRef .tc main_arg0)) := rfl
theorem val0_main_arg1 (V0 : Valuation τ sig (Elt F)) : val0 V0 (Proc.devRef .tc main_arg1) = (V0 (Proc.devRef .tc main_arg1)) := rfl
theorem val0_main_arg2 (V0 : Valuation τ sig (Elt F)) : val0 V0 (Proc.devRef .tc main_arg2) = (V0 (Proc.devRef .tc main_arg2)) := rfl
theorem val0_main_arg3 (V0 : Valuation τ sig (Elt F)) : val0 V0 (Proc.devRef .tc main_arg3) = (V0 (Proc.devRef .tc main_arg3)) := rfl
theorem val0_main_arg4 (V0 : Valuation τ sig (Elt F)) : val0 V0 (Proc.devRef .tc main_arg4) = (V0 (Proc.devRef .tc main_arg4)) := rfl
theorem val0_main_arg5 (V0 : Valuation τ sig (Elt F)) : val0 V0 (Proc.devRef .tc main_arg5) = (V0 (Proc.devRef .tc main_arg5)) := rfl
theorem val0_main_arg6 (V0 : Valuation τ sig (Elt F)) : val0 V0 (Proc.devRef .tc main_arg6) = (V0 (Proc.devRef .tc main_arg6)) := rfl
theorem val0_main_arg7 (V0 : Valuation τ sig (Elt F)) : val0 V0 (Proc.devRef .tc main_arg7) = (V0 (Proc.devRef .tc main_arg7)) := rfl
theorem val0_main_arg8 (V0 : Valuation τ sig (Elt F)) : val0 V0 (Proc.devRef .tc main_arg8) = (V0 (Proc.devRef .tc main_arg8)) := rfl
theorem val0_main_arg9 (V0 : Valuation τ sig (Elt F)) : val0 V0 (Proc.devRef .tc main_arg9) = (V0 (Proc.devRef .tc main_arg9)) := rfl
theorem val0_main_arg10 (V0 : Valuation τ sig (Elt F)) : val0 V0 (Proc.devRef .tc main_arg10) = (V0 (Proc.devRef .tc main_arg10)) := rfl
theorem val0_main_arg11 (V0 : Valuation τ sig (Elt F)) : val0 V0 (Proc.devRef .tc main_arg11) = (V0 (Proc.devRef .tc main_arg11)) := rfl
theorem val0_main_arg12 (V0 : Valuation τ sig (Elt F)) : val0 V0 (Proc.devRef .tc main_arg12) = (V0 (Proc.devRef .tc main_arg12)) := rfl
theorem val0_main_arg13 (V0 : Valuation τ sig (Elt F)) : val0 V0 (Proc.devRef .tc main_arg13) = (V0 (Proc.devRef .tc main_arg13)) := rfl
theorem val0_main_arg14 (V0 : Valuation τ sig (Elt F)) : val0 V0 (Proc.devRef .tc main_arg14) = (V0 (Proc.devRef .tc main_arg14)) := rfl
theorem val0_main_arg15 (V0 : Valuation τ sig (Elt F)) : val0 V0 (Proc.devRef .tc main_arg15) = (V0 (Proc.devRef .tc main_arg15)) := rfl

/-- The buffers' contents after the first 1 step: the perturbed features and the first result (the perturbed features plus their online graph convolution). -/
def val1 (V0 : Valuation τ sig (Elt F)) : Valuation τ sig (Elt F) := after k01 (val0 V0)
theorem val1_keep (V0 : Valuation τ sig (Elt F)) (r : Ref sig .tc) (h0 : r ∉ k01_W) :
    val1 V0 (Proc.devRef .tc r) = val0 V0 (Proc.devRef .tc r) :=
  k01_keep _ r h0
theorem val1_main_arg0 (V0 : Valuation τ sig (Elt F)) : val1 V0 (Proc.devRef .tc main_arg0) = (V0 (Proc.devRef .tc main_arg0)) :=
  (val1_keep V0 main_arg0 (by decide)).trans (val0_main_arg0 V0)
theorem val1_main_arg1 (V0 : Valuation τ sig (Elt F)) : val1 V0 (Proc.devRef .tc main_arg1) = (V0 (Proc.devRef .tc main_arg1)) :=
  (val1_keep V0 main_arg1 (by decide)).trans (val0_main_arg1 V0)
theorem val1_main_arg2 (V0 : Valuation τ sig (Elt F)) : val1 V0 (Proc.devRef .tc main_arg2) = (V0 (Proc.devRef .tc main_arg2)) :=
  (val1_keep V0 main_arg2 (by decide)).trans (val0_main_arg2 V0)
theorem val1_main_arg3 (V0 : Valuation τ sig (Elt F)) : val1 V0 (Proc.devRef .tc main_arg3) = (V0 (Proc.devRef .tc main_arg3)) :=
  (val1_keep V0 main_arg3 (by decide)).trans (val0_main_arg3 V0)
theorem val1_main_arg4 (V0 : Valuation τ sig (Elt F)) : val1 V0 (Proc.devRef .tc main_arg4) = (V0 (Proc.devRef .tc main_arg4)) :=
  (val1_keep V0 main_arg4 (by decide)).trans (val0_main_arg4 V0)
theorem val1_main_arg5 (V0 : Valuation τ sig (Elt F)) : val1 V0 (Proc.devRef .tc main_arg5) = (V0 (Proc.devRef .tc main_arg5)) :=
  (val1_keep V0 main_arg5 (by decide)).trans (val0_main_arg5 V0)
theorem val1_main_arg6 (V0 : Valuation τ sig (Elt F)) : val1 V0 (Proc.devRef .tc main_arg6) = (V0 (Proc.devRef .tc main_arg6)) :=
  (val1_keep V0 main_arg6 (by decide)).trans (val0_main_arg6 V0)
theorem val1_main_arg7 (V0 : Valuation τ sig (Elt F)) : val1 V0 (Proc.devRef .tc main_arg7) = (V0 (Proc.devRef .tc main_arg7)) :=
  (val1_keep V0 main_arg7 (by decide)).trans (val0_main_arg7 V0)
theorem val1_main_arg8 (V0 : Valuation τ sig (Elt F)) : val1 V0 (Proc.devRef .tc main_arg8) = (V0 (Proc.devRef .tc main_arg8)) :=
  (val1_keep V0 main_arg8 (by decide)).trans (val0_main_arg8 V0)
theorem val1_main_arg9 (V0 : Valuation τ sig (Elt F)) : val1 V0 (Proc.devRef .tc main_arg9) = (V0 (Proc.devRef .tc main_arg9)) :=
  (val1_keep V0 main_arg9 (by decide)).trans (val0_main_arg9 V0)
theorem val1_main_arg10 (V0 : Valuation τ sig (Elt F)) : val1 V0 (Proc.devRef .tc main_arg10) = (V0 (Proc.devRef .tc main_arg10)) :=
  (val1_keep V0 main_arg10 (by decide)).trans (val0_main_arg10 V0)
theorem val1_main_arg11 (V0 : Valuation τ sig (Elt F)) : val1 V0 (Proc.devRef .tc main_arg11) = (V0 (Proc.devRef .tc main_arg11)) :=
  (val1_keep V0 main_arg11 (by decide)).trans (val0_main_arg11 V0)
theorem val1_main_arg12 (V0 : Valuation τ sig (Elt F)) : val1 V0 (Proc.devRef .tc main_arg12) = (V0 (Proc.devRef .tc main_arg12)) :=
  (val1_keep V0 main_arg12 (by decide)).trans (val0_main_arg12 V0)
theorem val1_main_arg13 (V0 : Valuation τ sig (Elt F)) : val1 V0 (Proc.devRef .tc main_arg13) = (V0 (Proc.devRef .tc main_arg13)) :=
  (val1_keep V0 main_arg13 (by decide)).trans (val0_main_arg13 V0)
theorem val1_main_arg14 (V0 : Valuation τ sig (Elt F)) : val1 V0 (Proc.devRef .tc main_arg14) = (V0 (Proc.devRef .tc main_arg14)) :=
  (val1_keep V0 main_arg14 (by decide)).trans (val0_main_arg14 V0)
theorem val1_main_arg15 (V0 : Valuation τ sig (Elt F)) : val1 V0 (Proc.devRef .tc main_arg15) = (V0 (Proc.devRef .tc main_arg15)) :=
  (val1_keep V0 main_arg15 (by decide)).trans (val0_main_arg15 V0)
theorem val1_main_v0 (V0 : Valuation τ sig (Elt F)) : val1 V0 (Proc.devRef .tc main_v0) = Cert.Spec.x2 (V0 (Proc.devRef .tc main_arg0)) (V0 (Proc.devRef .tc main_arg1)) :=
  (w01_main_v0 (val0 V0)).trans (by rw [val0_main_arg0 V0, val0_main_arg1 V0]; first | done | rfl)
theorem val1_main_v18 (V0 : Valuation τ sig (Elt F)) : val1 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (w01_main_v18 (val0 V0)).trans (by rw [val0_main_arg0 V0, val0_main_arg1 V0, val0_main_arg2 V0, val0_main_arg3 V0, val0_main_arg4 V0, val0_main_arg5 V0, val0_main_arg6 V0]; first | done | rfl)

/-- The buffers' contents after the first 2 steps: the online graph convolution of the unperturbed features. -/
def val2 (V0 : Valuation τ sig (Elt F)) : Valuation τ sig (Elt F) := after k02 (val1 V0)
theorem val2_keep (V0 : Valuation τ sig (Elt F)) (r : Ref sig .tc) (h0 : r ∉ k02_W) :
    val2 V0 (Proc.devRef .tc r) = val1 V0 (Proc.devRef .tc r) :=
  k02_keep _ r h0
theorem val2_main_arg0 (V0 : Valuation τ sig (Elt F)) : val2 V0 (Proc.devRef .tc main_arg0) = (V0 (Proc.devRef .tc main_arg0)) :=
  (val2_keep V0 main_arg0 (by decide)).trans (val1_main_arg0 V0)
theorem val2_main_arg1 (V0 : Valuation τ sig (Elt F)) : val2 V0 (Proc.devRef .tc main_arg1) = (V0 (Proc.devRef .tc main_arg1)) :=
  (val2_keep V0 main_arg1 (by decide)).trans (val1_main_arg1 V0)
theorem val2_main_arg2 (V0 : Valuation τ sig (Elt F)) : val2 V0 (Proc.devRef .tc main_arg2) = (V0 (Proc.devRef .tc main_arg2)) :=
  (val2_keep V0 main_arg2 (by decide)).trans (val1_main_arg2 V0)
theorem val2_main_arg3 (V0 : Valuation τ sig (Elt F)) : val2 V0 (Proc.devRef .tc main_arg3) = (V0 (Proc.devRef .tc main_arg3)) :=
  (val2_keep V0 main_arg3 (by decide)).trans (val1_main_arg3 V0)
theorem val2_main_arg4 (V0 : Valuation τ sig (Elt F)) : val2 V0 (Proc.devRef .tc main_arg4) = (V0 (Proc.devRef .tc main_arg4)) :=
  (val2_keep V0 main_arg4 (by decide)).trans (val1_main_arg4 V0)
theorem val2_main_arg5 (V0 : Valuation τ sig (Elt F)) : val2 V0 (Proc.devRef .tc main_arg5) = (V0 (Proc.devRef .tc main_arg5)) :=
  (val2_keep V0 main_arg5 (by decide)).trans (val1_main_arg5 V0)
theorem val2_main_arg6 (V0 : Valuation τ sig (Elt F)) : val2 V0 (Proc.devRef .tc main_arg6) = (V0 (Proc.devRef .tc main_arg6)) :=
  (val2_keep V0 main_arg6 (by decide)).trans (val1_main_arg6 V0)
theorem val2_main_arg7 (V0 : Valuation τ sig (Elt F)) : val2 V0 (Proc.devRef .tc main_arg7) = (V0 (Proc.devRef .tc main_arg7)) :=
  (val2_keep V0 main_arg7 (by decide)).trans (val1_main_arg7 V0)
theorem val2_main_arg8 (V0 : Valuation τ sig (Elt F)) : val2 V0 (Proc.devRef .tc main_arg8) = (V0 (Proc.devRef .tc main_arg8)) :=
  (val2_keep V0 main_arg8 (by decide)).trans (val1_main_arg8 V0)
theorem val2_main_arg9 (V0 : Valuation τ sig (Elt F)) : val2 V0 (Proc.devRef .tc main_arg9) = (V0 (Proc.devRef .tc main_arg9)) :=
  (val2_keep V0 main_arg9 (by decide)).trans (val1_main_arg9 V0)
theorem val2_main_arg10 (V0 : Valuation τ sig (Elt F)) : val2 V0 (Proc.devRef .tc main_arg10) = (V0 (Proc.devRef .tc main_arg10)) :=
  (val2_keep V0 main_arg10 (by decide)).trans (val1_main_arg10 V0)
theorem val2_main_arg11 (V0 : Valuation τ sig (Elt F)) : val2 V0 (Proc.devRef .tc main_arg11) = (V0 (Proc.devRef .tc main_arg11)) :=
  (val2_keep V0 main_arg11 (by decide)).trans (val1_main_arg11 V0)
theorem val2_main_arg12 (V0 : Valuation τ sig (Elt F)) : val2 V0 (Proc.devRef .tc main_arg12) = (V0 (Proc.devRef .tc main_arg12)) :=
  (val2_keep V0 main_arg12 (by decide)).trans (val1_main_arg12 V0)
theorem val2_main_arg13 (V0 : Valuation τ sig (Elt F)) : val2 V0 (Proc.devRef .tc main_arg13) = (V0 (Proc.devRef .tc main_arg13)) :=
  (val2_keep V0 main_arg13 (by decide)).trans (val1_main_arg13 V0)
theorem val2_main_arg14 (V0 : Valuation τ sig (Elt F)) : val2 V0 (Proc.devRef .tc main_arg14) = (V0 (Proc.devRef .tc main_arg14)) :=
  (val2_keep V0 main_arg14 (by decide)).trans (val1_main_arg14 V0)
theorem val2_main_arg15 (V0 : Valuation τ sig (Elt F)) : val2 V0 (Proc.devRef .tc main_arg15) = (V0 (Proc.devRef .tc main_arg15)) :=
  (val2_keep V0 main_arg15 (by decide)).trans (val1_main_arg15 V0)
theorem val2_main_v0 (V0 : Valuation τ sig (Elt F)) : val2 V0 (Proc.devRef .tc main_v0) = Cert.Spec.x2 (V0 (Proc.devRef .tc main_arg0)) (V0 (Proc.devRef .tc main_arg1)) :=
  (val2_keep V0 main_v0 (by decide)).trans (val1_main_v0 V0)
theorem val2_main_v18 (V0 : Valuation τ sig (Elt F)) : val2 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val2_keep V0 main_v18 (by decide)).trans (val1_main_v18 V0)
theorem val2_main_v35 (V0 : Valuation τ sig (Elt F)) : val2 V0 (Proc.devRef .tc main_v35) = Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4)) :=
  (w02_main_v35 (val1 V0)).trans (by rw [val1_main_arg0 V0, val1_main_arg5 V0, val1_main_arg6 V0, val1_main_arg2 V0, val1_main_arg3 V0, val1_main_arg4 V0]; first | done | rfl)

/-- The buffers' contents after the first 3 steps: the online graph convolution of the perturbed features. -/
def val3 (V0 : Valuation τ sig (Elt F)) : Valuation τ sig (Elt F) := after k04 (after k03 (val2 V0))
theorem val3_keep (V0 : Valuation τ sig (Elt F)) (r : Ref sig .tc) (h0 : r ∉ k03_W) (h1 : r ∉ k04_W) :
    val3 V0 (Proc.devRef .tc r) = val2 V0 (Proc.devRef .tc r) :=
  (k04_keep _ r h1).trans (k03_keep _ r h0)
theorem val3_main_arg0 (V0 : Valuation τ sig (Elt F)) : val3 V0 (Proc.devRef .tc main_arg0) = (V0 (Proc.devRef .tc main_arg0)) :=
  (val3_keep V0 main_arg0 (by decide) (by decide)).trans (val2_main_arg0 V0)
theorem val3_main_arg1 (V0 : Valuation τ sig (Elt F)) : val3 V0 (Proc.devRef .tc main_arg1) = (V0 (Proc.devRef .tc main_arg1)) :=
  (val3_keep V0 main_arg1 (by decide) (by decide)).trans (val2_main_arg1 V0)
theorem val3_main_arg2 (V0 : Valuation τ sig (Elt F)) : val3 V0 (Proc.devRef .tc main_arg2) = (V0 (Proc.devRef .tc main_arg2)) :=
  (val3_keep V0 main_arg2 (by decide) (by decide)).trans (val2_main_arg2 V0)
theorem val3_main_arg3 (V0 : Valuation τ sig (Elt F)) : val3 V0 (Proc.devRef .tc main_arg3) = (V0 (Proc.devRef .tc main_arg3)) :=
  (val3_keep V0 main_arg3 (by decide) (by decide)).trans (val2_main_arg3 V0)
theorem val3_main_arg4 (V0 : Valuation τ sig (Elt F)) : val3 V0 (Proc.devRef .tc main_arg4) = (V0 (Proc.devRef .tc main_arg4)) :=
  (val3_keep V0 main_arg4 (by decide) (by decide)).trans (val2_main_arg4 V0)
theorem val3_main_arg5 (V0 : Valuation τ sig (Elt F)) : val3 V0 (Proc.devRef .tc main_arg5) = (V0 (Proc.devRef .tc main_arg5)) :=
  (val3_keep V0 main_arg5 (by decide) (by decide)).trans (val2_main_arg5 V0)
theorem val3_main_arg6 (V0 : Valuation τ sig (Elt F)) : val3 V0 (Proc.devRef .tc main_arg6) = (V0 (Proc.devRef .tc main_arg6)) :=
  (val3_keep V0 main_arg6 (by decide) (by decide)).trans (val2_main_arg6 V0)
theorem val3_main_arg7 (V0 : Valuation τ sig (Elt F)) : val3 V0 (Proc.devRef .tc main_arg7) = (V0 (Proc.devRef .tc main_arg7)) :=
  (val3_keep V0 main_arg7 (by decide) (by decide)).trans (val2_main_arg7 V0)
theorem val3_main_arg8 (V0 : Valuation τ sig (Elt F)) : val3 V0 (Proc.devRef .tc main_arg8) = (V0 (Proc.devRef .tc main_arg8)) :=
  (val3_keep V0 main_arg8 (by decide) (by decide)).trans (val2_main_arg8 V0)
theorem val3_main_arg9 (V0 : Valuation τ sig (Elt F)) : val3 V0 (Proc.devRef .tc main_arg9) = (V0 (Proc.devRef .tc main_arg9)) :=
  (val3_keep V0 main_arg9 (by decide) (by decide)).trans (val2_main_arg9 V0)
theorem val3_main_arg10 (V0 : Valuation τ sig (Elt F)) : val3 V0 (Proc.devRef .tc main_arg10) = (V0 (Proc.devRef .tc main_arg10)) :=
  (val3_keep V0 main_arg10 (by decide) (by decide)).trans (val2_main_arg10 V0)
theorem val3_main_arg11 (V0 : Valuation τ sig (Elt F)) : val3 V0 (Proc.devRef .tc main_arg11) = (V0 (Proc.devRef .tc main_arg11)) :=
  (val3_keep V0 main_arg11 (by decide) (by decide)).trans (val2_main_arg11 V0)
theorem val3_main_arg12 (V0 : Valuation τ sig (Elt F)) : val3 V0 (Proc.devRef .tc main_arg12) = (V0 (Proc.devRef .tc main_arg12)) :=
  (val3_keep V0 main_arg12 (by decide) (by decide)).trans (val2_main_arg12 V0)
theorem val3_main_arg13 (V0 : Valuation τ sig (Elt F)) : val3 V0 (Proc.devRef .tc main_arg13) = (V0 (Proc.devRef .tc main_arg13)) :=
  (val3_keep V0 main_arg13 (by decide) (by decide)).trans (val2_main_arg13 V0)
theorem val3_main_arg14 (V0 : Valuation τ sig (Elt F)) : val3 V0 (Proc.devRef .tc main_arg14) = (V0 (Proc.devRef .tc main_arg14)) :=
  (val3_keep V0 main_arg14 (by decide) (by decide)).trans (val2_main_arg14 V0)
theorem val3_main_arg15 (V0 : Valuation τ sig (Elt F)) : val3 V0 (Proc.devRef .tc main_arg15) = (V0 (Proc.devRef .tc main_arg15)) :=
  (val3_keep V0 main_arg15 (by decide) (by decide)).trans (val2_main_arg15 V0)
theorem val3_main_v0 (V0 : Valuation τ sig (Elt F)) : val3 V0 (Proc.devRef .tc main_v0) = Cert.Spec.x2 (V0 (Proc.devRef .tc main_arg0)) (V0 (Proc.devRef .tc main_arg1)) :=
  (val3_keep V0 main_v0 (by decide) (by decide)).trans (val2_main_v0 V0)
theorem val3_main_v18 (V0 : Valuation τ sig (Elt F)) : val3 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val3_keep V0 main_v18 (by decide) (by decide)).trans (val2_main_v18 V0)
theorem val3_main_v35 (V0 : Valuation τ sig (Elt F)) : val3 V0 (Proc.devRef .tc main_v35) = Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4)) :=
  (val3_keep V0 main_v35 (by decide) (by decide)).trans (val2_main_v35 V0)
theorem val3_main_v52 (V0 : Valuation τ sig (Elt F)) : val3 V0 (Proc.devRef .tc main_v52) = Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4)) :=
  (w03_main_v52 (val2 V0)).trans (by rw [val2_main_v0 V0, val2_main_arg5 V0, val2_main_arg6 V0, val2_main_arg2 V0, val2_main_arg3 V0, val2_main_arg4 V0]; first | done | rfl)

/-- The buffers' contents after the first 4 steps: the target graph convolution of the unperturbed features. -/
def val4 (V0 : Valuation τ sig (Elt F)) : Valuation τ sig (Elt F) := after k05 (val3 V0)
theorem val4_keep (V0 : Valuation τ sig (Elt F)) (r : Ref sig .tc) (h0 : r ∉ k05_W) :
    val4 V0 (Proc.devRef .tc r) = val3 V0 (Proc.devRef .tc r) :=
  k05_keep _ r h0
theorem val4_main_arg0 (V0 : Valuation τ sig (Elt F)) : val4 V0 (Proc.devRef .tc main_arg0) = (V0 (Proc.devRef .tc main_arg0)) :=
  (val4_keep V0 main_arg0 (by decide)).trans (val3_main_arg0 V0)
theorem val4_main_arg1 (V0 : Valuation τ sig (Elt F)) : val4 V0 (Proc.devRef .tc main_arg1) = (V0 (Proc.devRef .tc main_arg1)) :=
  (val4_keep V0 main_arg1 (by decide)).trans (val3_main_arg1 V0)
theorem val4_main_arg2 (V0 : Valuation τ sig (Elt F)) : val4 V0 (Proc.devRef .tc main_arg2) = (V0 (Proc.devRef .tc main_arg2)) :=
  (val4_keep V0 main_arg2 (by decide)).trans (val3_main_arg2 V0)
theorem val4_main_arg3 (V0 : Valuation τ sig (Elt F)) : val4 V0 (Proc.devRef .tc main_arg3) = (V0 (Proc.devRef .tc main_arg3)) :=
  (val4_keep V0 main_arg3 (by decide)).trans (val3_main_arg3 V0)
theorem val4_main_arg4 (V0 : Valuation τ sig (Elt F)) : val4 V0 (Proc.devRef .tc main_arg4) = (V0 (Proc.devRef .tc main_arg4)) :=
  (val4_keep V0 main_arg4 (by decide)).trans (val3_main_arg4 V0)
theorem val4_main_arg5 (V0 : Valuation τ sig (Elt F)) : val4 V0 (Proc.devRef .tc main_arg5) = (V0 (Proc.devRef .tc main_arg5)) :=
  (val4_keep V0 main_arg5 (by decide)).trans (val3_main_arg5 V0)
theorem val4_main_arg6 (V0 : Valuation τ sig (Elt F)) : val4 V0 (Proc.devRef .tc main_arg6) = (V0 (Proc.devRef .tc main_arg6)) :=
  (val4_keep V0 main_arg6 (by decide)).trans (val3_main_arg6 V0)
theorem val4_main_arg7 (V0 : Valuation τ sig (Elt F)) : val4 V0 (Proc.devRef .tc main_arg7) = (V0 (Proc.devRef .tc main_arg7)) :=
  (val4_keep V0 main_arg7 (by decide)).trans (val3_main_arg7 V0)
theorem val4_main_arg8 (V0 : Valuation τ sig (Elt F)) : val4 V0 (Proc.devRef .tc main_arg8) = (V0 (Proc.devRef .tc main_arg8)) :=
  (val4_keep V0 main_arg8 (by decide)).trans (val3_main_arg8 V0)
theorem val4_main_arg9 (V0 : Valuation τ sig (Elt F)) : val4 V0 (Proc.devRef .tc main_arg9) = (V0 (Proc.devRef .tc main_arg9)) :=
  (val4_keep V0 main_arg9 (by decide)).trans (val3_main_arg9 V0)
theorem val4_main_arg10 (V0 : Valuation τ sig (Elt F)) : val4 V0 (Proc.devRef .tc main_arg10) = (V0 (Proc.devRef .tc main_arg10)) :=
  (val4_keep V0 main_arg10 (by decide)).trans (val3_main_arg10 V0)
theorem val4_main_arg11 (V0 : Valuation τ sig (Elt F)) : val4 V0 (Proc.devRef .tc main_arg11) = (V0 (Proc.devRef .tc main_arg11)) :=
  (val4_keep V0 main_arg11 (by decide)).trans (val3_main_arg11 V0)
theorem val4_main_arg12 (V0 : Valuation τ sig (Elt F)) : val4 V0 (Proc.devRef .tc main_arg12) = (V0 (Proc.devRef .tc main_arg12)) :=
  (val4_keep V0 main_arg12 (by decide)).trans (val3_main_arg12 V0)
theorem val4_main_arg13 (V0 : Valuation τ sig (Elt F)) : val4 V0 (Proc.devRef .tc main_arg13) = (V0 (Proc.devRef .tc main_arg13)) :=
  (val4_keep V0 main_arg13 (by decide)).trans (val3_main_arg13 V0)
theorem val4_main_arg14 (V0 : Valuation τ sig (Elt F)) : val4 V0 (Proc.devRef .tc main_arg14) = (V0 (Proc.devRef .tc main_arg14)) :=
  (val4_keep V0 main_arg14 (by decide)).trans (val3_main_arg14 V0)
theorem val4_main_arg15 (V0 : Valuation τ sig (Elt F)) : val4 V0 (Proc.devRef .tc main_arg15) = (V0 (Proc.devRef .tc main_arg15)) :=
  (val4_keep V0 main_arg15 (by decide)).trans (val3_main_arg15 V0)
theorem val4_main_v0 (V0 : Valuation τ sig (Elt F)) : val4 V0 (Proc.devRef .tc main_v0) = Cert.Spec.x2 (V0 (Proc.devRef .tc main_arg0)) (V0 (Proc.devRef .tc main_arg1)) :=
  (val4_keep V0 main_v0 (by decide)).trans (val3_main_v0 V0)
theorem val4_main_v18 (V0 : Valuation τ sig (Elt F)) : val4 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val4_keep V0 main_v18 (by decide)).trans (val3_main_v18 V0)
theorem val4_main_v35 (V0 : Valuation τ sig (Elt F)) : val4 V0 (Proc.devRef .tc main_v35) = Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4)) :=
  (val4_keep V0 main_v35 (by decide)).trans (val3_main_v35 V0)
theorem val4_main_v52 (V0 : Valuation τ sig (Elt F)) : val4 V0 (Proc.devRef .tc main_v52) = Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4)) :=
  (val4_keep V0 main_v52 (by decide)).trans (val3_main_v52 V0)
theorem val4_main_v69 (V0 : Valuation τ sig (Elt F)) : val4 V0 (Proc.devRef .tc main_v69) = Cert.Spec.gcn (V0 (Proc.devRef .tc main_arg0)) (V0 (Proc.devRef .tc main_arg7)) (V0 (Proc.devRef .tc main_arg8)) (V0 (Proc.devRef .tc main_arg2)) (V0 (Proc.devRef .tc main_arg3)) (V0 (Proc.devRef .tc main_arg4)) :=
  (w04_main_v69 (val3 V0)).trans (by rw [val3_main_arg0 V0, val3_main_arg7 V0, val3_main_arg8 V0, val3_main_arg2 V0, val3_main_arg3 V0, val3_main_arg4 V0]; first | done | rfl)

/-- The buffers' contents after the first 5 steps: the target graph convolution of the perturbed features. -/
def val5 (V0 : Valuation τ sig (Elt F)) : Valuation τ sig (Elt F) := after k06 (val4 V0)
theorem val5_keep (V0 : Valuation τ sig (Elt F)) (r : Ref sig .tc) (h0 : r ∉ k06_W) :
    val5 V0 (Proc.devRef .tc r) = val4 V0 (Proc.devRef .tc r) :=
  k06_keep _ r h0
theorem val5_main_arg0 (V0 : Valuation τ sig (Elt F)) : val5 V0 (Proc.devRef .tc main_arg0) = (V0 (Proc.devRef .tc main_arg0)) :=
  (val5_keep V0 main_arg0 (by decide)).trans (val4_main_arg0 V0)
theorem val5_main_arg1 (V0 : Valuation τ sig (Elt F)) : val5 V0 (Proc.devRef .tc main_arg1) = (V0 (Proc.devRef .tc main_arg1)) :=
  (val5_keep V0 main_arg1 (by decide)).trans (val4_main_arg1 V0)
theorem val5_main_arg2 (V0 : Valuation τ sig (Elt F)) : val5 V0 (Proc.devRef .tc main_arg2) = (V0 (Proc.devRef .tc main_arg2)) :=
  (val5_keep V0 main_arg2 (by decide)).trans (val4_main_arg2 V0)
theorem val5_main_arg3 (V0 : Valuation τ sig (Elt F)) : val5 V0 (Proc.devRef .tc main_arg3) = (V0 (Proc.devRef .tc main_arg3)) :=
  (val5_keep V0 main_arg3 (by decide)).trans (val4_main_arg3 V0)
theorem val5_main_arg4 (V0 : Valuation τ sig (Elt F)) : val5 V0 (Proc.devRef .tc main_arg4) = (V0 (Proc.devRef .tc main_arg4)) :=
  (val5_keep V0 main_arg4 (by decide)).trans (val4_main_arg4 V0)
theorem val5_main_arg5 (V0 : Valuation τ sig (Elt F)) : val5 V0 (Proc.devRef .tc main_arg5) = (V0 (Proc.devRef .tc main_arg5)) :=
  (val5_keep V0 main_arg5 (by decide)).trans (val4_main_arg5 V0)
theorem val5_main_arg6 (V0 : Valuation τ sig (Elt F)) : val5 V0 (Proc.devRef .tc main_arg6) = (V0 (Proc.devRef .tc main_arg6)) :=
  (val5_keep V0 main_arg6 (by decide)).trans (val4_main_arg6 V0)
theorem val5_main_arg7 (V0 : Valuation τ sig (Elt F)) : val5 V0 (Proc.devRef .tc main_arg7) = (V0 (Proc.devRef .tc main_arg7)) :=
  (val5_keep V0 main_arg7 (by decide)).trans (val4_main_arg7 V0)
theorem val5_main_arg8 (V0 : Valuation τ sig (Elt F)) : val5 V0 (Proc.devRef .tc main_arg8) = (V0 (Proc.devRef .tc main_arg8)) :=
  (val5_keep V0 main_arg8 (by decide)).trans (val4_main_arg8 V0)
theorem val5_main_arg9 (V0 : Valuation τ sig (Elt F)) : val5 V0 (Proc.devRef .tc main_arg9) = (V0 (Proc.devRef .tc main_arg9)) :=
  (val5_keep V0 main_arg9 (by decide)).trans (val4_main_arg9 V0)
theorem val5_main_arg10 (V0 : Valuation τ sig (Elt F)) : val5 V0 (Proc.devRef .tc main_arg10) = (V0 (Proc.devRef .tc main_arg10)) :=
  (val5_keep V0 main_arg10 (by decide)).trans (val4_main_arg10 V0)
theorem val5_main_arg11 (V0 : Valuation τ sig (Elt F)) : val5 V0 (Proc.devRef .tc main_arg11) = (V0 (Proc.devRef .tc main_arg11)) :=
  (val5_keep V0 main_arg11 (by decide)).trans (val4_main_arg11 V0)
theorem val5_main_arg12 (V0 : Valuation τ sig (Elt F)) : val5 V0 (Proc.devRef .tc main_arg12) = (V0 (Proc.devRef .tc main_arg12)) :=
  (val5_keep V0 main_arg12 (by decide)).trans (val4_main_arg12 V0)
theorem val5_main_arg13 (V0 : Valuation τ sig (Elt F)) : val5 V0 (Proc.devRef .tc main_arg13) = (V0 (Proc.devRef .tc main_arg13)) :=
  (val5_keep V0 main_arg13 (by decide)).trans (val4_main_arg13 V0)
theorem val5_main_arg14 (V0 : Valuation τ sig (Elt F)) : val5 V0 (Proc.devRef .tc main_arg14) = (V0 (Proc.devRef .tc main_arg14)) :=
  (val5_keep V0 main_arg14 (by decide)).trans (val4_main_arg14 V0)
theorem val5_main_arg15 (V0 : Valuation τ sig (Elt F)) : val5 V0 (Proc.devRef .tc main_arg15) = (V0 (Proc.devRef .tc main_arg15)) :=
  (val5_keep V0 main_arg15 (by decide)).trans (val4_main_arg15 V0)
theorem val5_main_v18 (V0 : Valuation τ sig (Elt F)) : val5 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val5_keep V0 main_v18 (by decide)).trans (val4_main_v18 V0)
theorem val5_main_v35 (V0 : Valuation τ sig (Elt F)) : val5 V0 (Proc.devRef .tc main_v35) = Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4)) :=
  (val5_keep V0 main_v35 (by decide)).trans (val4_main_v35 V0)
theorem val5_main_v52 (V0 : Valuation τ sig (Elt F)) : val5 V0 (Proc.devRef .tc main_v52) = Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4)) :=
  (val5_keep V0 main_v52 (by decide)).trans (val4_main_v52 V0)
theorem val5_main_v69 (V0 : Valuation τ sig (Elt F)) : val5 V0 (Proc.devRef .tc main_v69) = Cert.Spec.gcn (V0 (Proc.devRef .tc main_arg0)) (V0 (Proc.devRef .tc main_arg7)) (V0 (Proc.devRef .tc main_arg8)) (V0 (Proc.devRef .tc main_arg2)) (V0 (Proc.devRef .tc main_arg3)) (V0 (Proc.devRef .tc main_arg4)) :=
  (val5_keep V0 main_v69 (by decide)).trans (val4_main_v69 V0)
theorem val5_main_v86 (V0 : Valuation τ sig (Elt F)) : val5 V0 (Proc.devRef .tc main_v86) = Cert.Spec.gcn (Cert.Spec.x2 (V0 (Proc.devRef .tc main_arg0)) (V0 (Proc.devRef .tc main_arg1))) (V0 (Proc.devRef .tc main_arg7)) (V0 (Proc.devRef .tc main_arg8)) (V0 (Proc.devRef .tc main_arg2)) (V0 (Proc.devRef .tc main_arg3)) (V0 (Proc.devRef .tc main_arg4)) :=
  (w05_main_v86 (val4 V0)).trans (by rw [val4_main_v0 V0, val4_main_arg7 V0, val4_main_arg8 V0, val4_main_arg2 V0, val4_main_arg3 V0, val4_main_arg4 V0]; first | done | rfl)

/-- The buffers' contents after the first 6 steps: the first dense layer of the predictor on the first online convolution, with its column means and variances. -/
def val6 (V0 : Valuation τ sig (Elt F)) : Valuation τ sig (Elt F) := after k07 (val5 V0)
theorem val6_keep (V0 : Valuation τ sig (Elt F)) (r : Ref sig .tc) (h0 : r ∉ k07_W) :
    val6 V0 (Proc.devRef .tc r) = val5 V0 (Proc.devRef .tc r) :=
  k07_keep _ r h0
theorem val6_main_arg0 (V0 : Valuation τ sig (Elt F)) : val6 V0 (Proc.devRef .tc main_arg0) = (V0 (Proc.devRef .tc main_arg0)) :=
  (val6_keep V0 main_arg0 (by decide)).trans (val5_main_arg0 V0)
theorem val6_main_arg1 (V0 : Valuation τ sig (Elt F)) : val6 V0 (Proc.devRef .tc main_arg1) = (V0 (Proc.devRef .tc main_arg1)) :=
  (val6_keep V0 main_arg1 (by decide)).trans (val5_main_arg1 V0)
theorem val6_main_arg2 (V0 : Valuation τ sig (Elt F)) : val6 V0 (Proc.devRef .tc main_arg2) = (V0 (Proc.devRef .tc main_arg2)) :=
  (val6_keep V0 main_arg2 (by decide)).trans (val5_main_arg2 V0)
theorem val6_main_arg3 (V0 : Valuation τ sig (Elt F)) : val6 V0 (Proc.devRef .tc main_arg3) = (V0 (Proc.devRef .tc main_arg3)) :=
  (val6_keep V0 main_arg3 (by decide)).trans (val5_main_arg3 V0)
theorem val6_main_arg4 (V0 : Valuation τ sig (Elt F)) : val6 V0 (Proc.devRef .tc main_arg4) = (V0 (Proc.devRef .tc main_arg4)) :=
  (val6_keep V0 main_arg4 (by decide)).trans (val5_main_arg4 V0)
theorem val6_main_arg5 (V0 : Valuation τ sig (Elt F)) : val6 V0 (Proc.devRef .tc main_arg5) = (V0 (Proc.devRef .tc main_arg5)) :=
  (val6_keep V0 main_arg5 (by decide)).trans (val5_main_arg5 V0)
theorem val6_main_arg6 (V0 : Valuation τ sig (Elt F)) : val6 V0 (Proc.devRef .tc main_arg6) = (V0 (Proc.devRef .tc main_arg6)) :=
  (val6_keep V0 main_arg6 (by decide)).trans (val5_main_arg6 V0)
theorem val6_main_arg7 (V0 : Valuation τ sig (Elt F)) : val6 V0 (Proc.devRef .tc main_arg7) = (V0 (Proc.devRef .tc main_arg7)) :=
  (val6_keep V0 main_arg7 (by decide)).trans (val5_main_arg7 V0)
theorem val6_main_arg8 (V0 : Valuation τ sig (Elt F)) : val6 V0 (Proc.devRef .tc main_arg8) = (V0 (Proc.devRef .tc main_arg8)) :=
  (val6_keep V0 main_arg8 (by decide)).trans (val5_main_arg8 V0)
theorem val6_main_arg9 (V0 : Valuation τ sig (Elt F)) : val6 V0 (Proc.devRef .tc main_arg9) = (V0 (Proc.devRef .tc main_arg9)) :=
  (val6_keep V0 main_arg9 (by decide)).trans (val5_main_arg9 V0)
theorem val6_main_arg10 (V0 : Valuation τ sig (Elt F)) : val6 V0 (Proc.devRef .tc main_arg10) = (V0 (Proc.devRef .tc main_arg10)) :=
  (val6_keep V0 main_arg10 (by decide)).trans (val5_main_arg10 V0)
theorem val6_main_arg11 (V0 : Valuation τ sig (Elt F)) : val6 V0 (Proc.devRef .tc main_arg11) = (V0 (Proc.devRef .tc main_arg11)) :=
  (val6_keep V0 main_arg11 (by decide)).trans (val5_main_arg11 V0)
theorem val6_main_arg12 (V0 : Valuation τ sig (Elt F)) : val6 V0 (Proc.devRef .tc main_arg12) = (V0 (Proc.devRef .tc main_arg12)) :=
  (val6_keep V0 main_arg12 (by decide)).trans (val5_main_arg12 V0)
theorem val6_main_arg13 (V0 : Valuation τ sig (Elt F)) : val6 V0 (Proc.devRef .tc main_arg13) = (V0 (Proc.devRef .tc main_arg13)) :=
  (val6_keep V0 main_arg13 (by decide)).trans (val5_main_arg13 V0)
theorem val6_main_arg14 (V0 : Valuation τ sig (Elt F)) : val6 V0 (Proc.devRef .tc main_arg14) = (V0 (Proc.devRef .tc main_arg14)) :=
  (val6_keep V0 main_arg14 (by decide)).trans (val5_main_arg14 V0)
theorem val6_main_arg15 (V0 : Valuation τ sig (Elt F)) : val6 V0 (Proc.devRef .tc main_arg15) = (V0 (Proc.devRef .tc main_arg15)) :=
  (val6_keep V0 main_arg15 (by decide)).trans (val5_main_arg15 V0)
theorem val6_main_v18 (V0 : Valuation τ sig (Elt F)) : val6 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val6_keep V0 main_v18 (by decide)).trans (val5_main_v18 V0)
theorem val6_main_v52 (V0 : Valuation τ sig (Elt F)) : val6 V0 (Proc.devRef .tc main_v52) = Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4)) :=
  (val6_keep V0 main_v52 (by decide)).trans (val5_main_v52 V0)
theorem val6_main_v69 (V0 : Valuation τ sig (Elt F)) : val6 V0 (Proc.devRef .tc main_v69) = Cert.Spec.gcn (V0 (Proc.devRef .tc main_arg0)) (V0 (Proc.devRef .tc main_arg7)) (V0 (Proc.devRef .tc main_arg8)) (V0 (Proc.devRef .tc main_arg2)) (V0 (Proc.devRef .tc main_arg3)) (V0 (Proc.devRef .tc main_arg4)) :=
  (val6_keep V0 main_v69 (by decide)).trans (val5_main_v69 V0)
theorem val6_main_v86 (V0 : Valuation τ sig (Elt F)) : val6 V0 (Proc.devRef .tc main_v86) = Cert.Spec.gcn (Cert.Spec.x2 (V0 (Proc.devRef .tc main_arg0)) (V0 (Proc.devRef .tc main_arg1))) (V0 (Proc.devRef .tc main_arg7)) (V0 (Proc.devRef .tc main_arg8)) (V0 (Proc.devRef .tc main_arg2)) (V0 (Proc.devRef .tc main_arg3)) (V0 (Proc.devRef .tc main_arg4)) :=
  (val6_keep V0 main_v86 (by decide)).trans (val5_main_v86 V0)
theorem val6_main_v90 (V0 : Valuation τ sig (Elt F)) : val6 V0 (Proc.devRef .tc main_v90) = Cert.Spec.lin (Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) :=
  (w06_main_v90 (val5 V0)).trans (by rw [val5_main_v35 V0, val5_main_arg9 V0, val5_main_arg10 V0]; first | done | rfl)
theorem val6_main_v93 (V0 : Valuation τ sig (Elt F)) : val6 V0 (Proc.devRef .tc main_v93) = Cert.Spec.mean (Cert.Spec.lin (Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10))) :=
  (w06_main_v93 (val5 V0)).trans (by rw [val5_main_v35 V0, val5_main_arg9 V0, val5_main_arg10 V0]; first | done | rfl)
theorem val6_main_v94 (V0 : Valuation τ sig (Elt F)) : val6 V0 (Proc.devRef .tc main_v94) = Cert.Spec.var (Cert.Spec.lin (Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10))) :=
  (w06_main_v94 (val5 V0)).trans (by rw [val5_main_v35 V0, val5_main_arg9 V0, val5_main_arg10 V0]; first | done | rfl)

/-- The buffers' contents after the first 7 steps: the first predictor output: batch normalisation, leaky rectifier and second dense layer of that first layer. -/
def val7 (V0 : Valuation τ sig (Elt F)) : Valuation τ sig (Elt F) := after k09 (after k08 (val6 V0))
theorem val7_keep (V0 : Valuation τ sig (Elt F)) (r : Ref sig .tc) (h0 : r ∉ k08_W) (h1 : r ∉ k09_W) :
    val7 V0 (Proc.devRef .tc r) = val6 V0 (Proc.devRef .tc r) :=
  (k09_keep _ r h1).trans (k08_keep _ r h0)
theorem val7_main_arg0 (V0 : Valuation τ sig (Elt F)) : val7 V0 (Proc.devRef .tc main_arg0) = (V0 (Proc.devRef .tc main_arg0)) :=
  (val7_keep V0 main_arg0 (by decide) (by decide)).trans (val6_main_arg0 V0)
theorem val7_main_arg1 (V0 : Valuation τ sig (Elt F)) : val7 V0 (Proc.devRef .tc main_arg1) = (V0 (Proc.devRef .tc main_arg1)) :=
  (val7_keep V0 main_arg1 (by decide) (by decide)).trans (val6_main_arg1 V0)
theorem val7_main_arg2 (V0 : Valuation τ sig (Elt F)) : val7 V0 (Proc.devRef .tc main_arg2) = (V0 (Proc.devRef .tc main_arg2)) :=
  (val7_keep V0 main_arg2 (by decide) (by decide)).trans (val6_main_arg2 V0)
theorem val7_main_arg3 (V0 : Valuation τ sig (Elt F)) : val7 V0 (Proc.devRef .tc main_arg3) = (V0 (Proc.devRef .tc main_arg3)) :=
  (val7_keep V0 main_arg3 (by decide) (by decide)).trans (val6_main_arg3 V0)
theorem val7_main_arg4 (V0 : Valuation τ sig (Elt F)) : val7 V0 (Proc.devRef .tc main_arg4) = (V0 (Proc.devRef .tc main_arg4)) :=
  (val7_keep V0 main_arg4 (by decide) (by decide)).trans (val6_main_arg4 V0)
theorem val7_main_arg5 (V0 : Valuation τ sig (Elt F)) : val7 V0 (Proc.devRef .tc main_arg5) = (V0 (Proc.devRef .tc main_arg5)) :=
  (val7_keep V0 main_arg5 (by decide) (by decide)).trans (val6_main_arg5 V0)
theorem val7_main_arg6 (V0 : Valuation τ sig (Elt F)) : val7 V0 (Proc.devRef .tc main_arg6) = (V0 (Proc.devRef .tc main_arg6)) :=
  (val7_keep V0 main_arg6 (by decide) (by decide)).trans (val6_main_arg6 V0)
theorem val7_main_arg7 (V0 : Valuation τ sig (Elt F)) : val7 V0 (Proc.devRef .tc main_arg7) = (V0 (Proc.devRef .tc main_arg7)) :=
  (val7_keep V0 main_arg7 (by decide) (by decide)).trans (val6_main_arg7 V0)
theorem val7_main_arg8 (V0 : Valuation τ sig (Elt F)) : val7 V0 (Proc.devRef .tc main_arg8) = (V0 (Proc.devRef .tc main_arg8)) :=
  (val7_keep V0 main_arg8 (by decide) (by decide)).trans (val6_main_arg8 V0)
theorem val7_main_arg9 (V0 : Valuation τ sig (Elt F)) : val7 V0 (Proc.devRef .tc main_arg9) = (V0 (Proc.devRef .tc main_arg9)) :=
  (val7_keep V0 main_arg9 (by decide) (by decide)).trans (val6_main_arg9 V0)
theorem val7_main_arg10 (V0 : Valuation τ sig (Elt F)) : val7 V0 (Proc.devRef .tc main_arg10) = (V0 (Proc.devRef .tc main_arg10)) :=
  (val7_keep V0 main_arg10 (by decide) (by decide)).trans (val6_main_arg10 V0)
theorem val7_main_arg11 (V0 : Valuation τ sig (Elt F)) : val7 V0 (Proc.devRef .tc main_arg11) = (V0 (Proc.devRef .tc main_arg11)) :=
  (val7_keep V0 main_arg11 (by decide) (by decide)).trans (val6_main_arg11 V0)
theorem val7_main_arg12 (V0 : Valuation τ sig (Elt F)) : val7 V0 (Proc.devRef .tc main_arg12) = (V0 (Proc.devRef .tc main_arg12)) :=
  (val7_keep V0 main_arg12 (by decide) (by decide)).trans (val6_main_arg12 V0)
theorem val7_main_arg13 (V0 : Valuation τ sig (Elt F)) : val7 V0 (Proc.devRef .tc main_arg13) = (V0 (Proc.devRef .tc main_arg13)) :=
  (val7_keep V0 main_arg13 (by decide) (by decide)).trans (val6_main_arg13 V0)
theorem val7_main_arg14 (V0 : Valuation τ sig (Elt F)) : val7 V0 (Proc.devRef .tc main_arg14) = (V0 (Proc.devRef .tc main_arg14)) :=
  (val7_keep V0 main_arg14 (by decide) (by decide)).trans (val6_main_arg14 V0)
theorem val7_main_arg15 (V0 : Valuation τ sig (Elt F)) : val7 V0 (Proc.devRef .tc main_arg15) = (V0 (Proc.devRef .tc main_arg15)) :=
  (val7_keep V0 main_arg15 (by decide) (by decide)).trans (val6_main_arg15 V0)
theorem val7_main_v18 (V0 : Valuation τ sig (Elt F)) : val7 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val7_keep V0 main_v18 (by decide) (by decide)).trans (val6_main_v18 V0)
theorem val7_main_v52 (V0 : Valuation τ sig (Elt F)) : val7 V0 (Proc.devRef .tc main_v52) = Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4)) :=
  (val7_keep V0 main_v52 (by decide) (by decide)).trans (val6_main_v52 V0)
theorem val7_main_v69 (V0 : Valuation τ sig (Elt F)) : val7 V0 (Proc.devRef .tc main_v69) = Cert.Spec.gcn (V0 (Proc.devRef .tc main_arg0)) (V0 (Proc.devRef .tc main_arg7)) (V0 (Proc.devRef .tc main_arg8)) (V0 (Proc.devRef .tc main_arg2)) (V0 (Proc.devRef .tc main_arg3)) (V0 (Proc.devRef .tc main_arg4)) :=
  (val7_keep V0 main_v69 (by decide) (by decide)).trans (val6_main_v69 V0)
theorem val7_main_v86 (V0 : Valuation τ sig (Elt F)) : val7 V0 (Proc.devRef .tc main_v86) = Cert.Spec.gcn (Cert.Spec.x2 (V0 (Proc.devRef .tc main_arg0)) (V0 (Proc.devRef .tc main_arg1))) (V0 (Proc.devRef .tc main_arg7)) (V0 (Proc.devRef .tc main_arg8)) (V0 (Proc.devRef .tc main_arg2)) (V0 (Proc.devRef .tc main_arg3)) (V0 (Proc.devRef .tc main_arg4)) :=
  (val7_keep V0 main_v86 (by decide) (by decide)).trans (val6_main_v86 V0)
theorem val7_main_v119 (V0 : Valuation τ sig (Elt F)) : val7 V0 (Proc.devRef .tc main_v119) = Cert.Spec.predictor (Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (w07_main_v119 (val6 V0)).trans (by rw [val6_main_v90 V0, val6_main_v93 V0, val6_main_v94 V0, val6_main_arg11 V0, val6_main_arg12 V0, val6_main_arg13 V0, val6_main_arg14 V0, val6_main_arg15 V0]; first | done | rfl)

/-- The buffers' contents after the first 8 steps: the first dense layer of the predictor on the second online convolution, with its column means and variances. -/
def val8 (V0 : Valuation τ sig (Elt F)) : Valuation τ sig (Elt F) := after k10 (val7 V0)
theorem val8_keep (V0 : Valuation τ sig (Elt F)) (r : Ref sig .tc) (h0 : r ∉ k10_W) :
    val8 V0 (Proc.devRef .tc r) = val7 V0 (Proc.devRef .tc r) :=
  k10_keep _ r h0
theorem val8_main_arg0 (V0 : Valuation τ sig (Elt F)) : val8 V0 (Proc.devRef .tc main_arg0) = (V0 (Proc.devRef .tc main_arg0)) :=
  (val8_keep V0 main_arg0 (by decide)).trans (val7_main_arg0 V0)
theorem val8_main_arg1 (V0 : Valuation τ sig (Elt F)) : val8 V0 (Proc.devRef .tc main_arg1) = (V0 (Proc.devRef .tc main_arg1)) :=
  (val8_keep V0 main_arg1 (by decide)).trans (val7_main_arg1 V0)
theorem val8_main_arg2 (V0 : Valuation τ sig (Elt F)) : val8 V0 (Proc.devRef .tc main_arg2) = (V0 (Proc.devRef .tc main_arg2)) :=
  (val8_keep V0 main_arg2 (by decide)).trans (val7_main_arg2 V0)
theorem val8_main_arg3 (V0 : Valuation τ sig (Elt F)) : val8 V0 (Proc.devRef .tc main_arg3) = (V0 (Proc.devRef .tc main_arg3)) :=
  (val8_keep V0 main_arg3 (by decide)).trans (val7_main_arg3 V0)
theorem val8_main_arg4 (V0 : Valuation τ sig (Elt F)) : val8 V0 (Proc.devRef .tc main_arg4) = (V0 (Proc.devRef .tc main_arg4)) :=
  (val8_keep V0 main_arg4 (by decide)).trans (val7_main_arg4 V0)
theorem val8_main_arg5 (V0 : Valuation τ sig (Elt F)) : val8 V0 (Proc.devRef .tc main_arg5) = (V0 (Proc.devRef .tc main_arg5)) :=
  (val8_keep V0 main_arg5 (by decide)).trans (val7_main_arg5 V0)
theorem val8_main_arg6 (V0 : Valuation τ sig (Elt F)) : val8 V0 (Proc.devRef .tc main_arg6) = (V0 (Proc.devRef .tc main_arg6)) :=
  (val8_keep V0 main_arg6 (by decide)).trans (val7_main_arg6 V0)
theorem val8_main_arg7 (V0 : Valuation τ sig (Elt F)) : val8 V0 (Proc.devRef .tc main_arg7) = (V0 (Proc.devRef .tc main_arg7)) :=
  (val8_keep V0 main_arg7 (by decide)).trans (val7_main_arg7 V0)
theorem val8_main_arg8 (V0 : Valuation τ sig (Elt F)) : val8 V0 (Proc.devRef .tc main_arg8) = (V0 (Proc.devRef .tc main_arg8)) :=
  (val8_keep V0 main_arg8 (by decide)).trans (val7_main_arg8 V0)
theorem val8_main_arg9 (V0 : Valuation τ sig (Elt F)) : val8 V0 (Proc.devRef .tc main_arg9) = (V0 (Proc.devRef .tc main_arg9)) :=
  (val8_keep V0 main_arg9 (by decide)).trans (val7_main_arg9 V0)
theorem val8_main_arg10 (V0 : Valuation τ sig (Elt F)) : val8 V0 (Proc.devRef .tc main_arg10) = (V0 (Proc.devRef .tc main_arg10)) :=
  (val8_keep V0 main_arg10 (by decide)).trans (val7_main_arg10 V0)
theorem val8_main_arg11 (V0 : Valuation τ sig (Elt F)) : val8 V0 (Proc.devRef .tc main_arg11) = (V0 (Proc.devRef .tc main_arg11)) :=
  (val8_keep V0 main_arg11 (by decide)).trans (val7_main_arg11 V0)
theorem val8_main_arg12 (V0 : Valuation τ sig (Elt F)) : val8 V0 (Proc.devRef .tc main_arg12) = (V0 (Proc.devRef .tc main_arg12)) :=
  (val8_keep V0 main_arg12 (by decide)).trans (val7_main_arg12 V0)
theorem val8_main_arg13 (V0 : Valuation τ sig (Elt F)) : val8 V0 (Proc.devRef .tc main_arg13) = (V0 (Proc.devRef .tc main_arg13)) :=
  (val8_keep V0 main_arg13 (by decide)).trans (val7_main_arg13 V0)
theorem val8_main_arg14 (V0 : Valuation τ sig (Elt F)) : val8 V0 (Proc.devRef .tc main_arg14) = (V0 (Proc.devRef .tc main_arg14)) :=
  (val8_keep V0 main_arg14 (by decide)).trans (val7_main_arg14 V0)
theorem val8_main_arg15 (V0 : Valuation τ sig (Elt F)) : val8 V0 (Proc.devRef .tc main_arg15) = (V0 (Proc.devRef .tc main_arg15)) :=
  (val8_keep V0 main_arg15 (by decide)).trans (val7_main_arg15 V0)
theorem val8_main_v18 (V0 : Valuation τ sig (Elt F)) : val8 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val8_keep V0 main_v18 (by decide)).trans (val7_main_v18 V0)
theorem val8_main_v69 (V0 : Valuation τ sig (Elt F)) : val8 V0 (Proc.devRef .tc main_v69) = Cert.Spec.gcn (V0 (Proc.devRef .tc main_arg0)) (V0 (Proc.devRef .tc main_arg7)) (V0 (Proc.devRef .tc main_arg8)) (V0 (Proc.devRef .tc main_arg2)) (V0 (Proc.devRef .tc main_arg3)) (V0 (Proc.devRef .tc main_arg4)) :=
  (val8_keep V0 main_v69 (by decide)).trans (val7_main_v69 V0)
theorem val8_main_v86 (V0 : Valuation τ sig (Elt F)) : val8 V0 (Proc.devRef .tc main_v86) = Cert.Spec.gcn (Cert.Spec.x2 (V0 (Proc.devRef .tc main_arg0)) (V0 (Proc.devRef .tc main_arg1))) (V0 (Proc.devRef .tc main_arg7)) (V0 (Proc.devRef .tc main_arg8)) (V0 (Proc.devRef .tc main_arg2)) (V0 (Proc.devRef .tc main_arg3)) (V0 (Proc.devRef .tc main_arg4)) :=
  (val8_keep V0 main_v86 (by decide)).trans (val7_main_v86 V0)
theorem val8_main_v119 (V0 : Valuation τ sig (Elt F)) : val8 V0 (Proc.devRef .tc main_v119) = Cert.Spec.predictor (Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val8_keep V0 main_v119 (by decide)).trans (val7_main_v119 V0)
theorem val8_main_v123 (V0 : Valuation τ sig (Elt F)) : val8 V0 (Proc.devRef .tc main_v123) = Cert.Spec.lin (Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) :=
  (w08_main_v123 (val7 V0)).trans (by rw [val7_main_v52 V0, val7_main_arg9 V0, val7_main_arg10 V0]; first | done | rfl)
theorem val8_main_v126 (V0 : Valuation τ sig (Elt F)) : val8 V0 (Proc.devRef .tc main_v126) = Cert.Spec.mean (Cert.Spec.lin (Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10))) :=
  (w08_main_v126 (val7 V0)).trans (by rw [val7_main_v52 V0, val7_main_arg9 V0, val7_main_arg10 V0]; first | done | rfl)
theorem val8_main_v127 (V0 : Valuation τ sig (Elt F)) : val8 V0 (Proc.devRef .tc main_v127) = Cert.Spec.var (Cert.Spec.lin (Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10))) :=
  (w08_main_v127 (val7 V0)).trans (by rw [val7_main_v52 V0, val7_main_arg9 V0, val7_main_arg10 V0]; first | done | rfl)

/-- The buffers' contents after the first 9 steps: the second predictor output. -/
def val9 (V0 : Valuation τ sig (Elt F)) : Valuation τ sig (Elt F) := after k11 (val8 V0)
theorem val9_keep (V0 : Valuation τ sig (Elt F)) (r : Ref sig .tc) (h0 : r ∉ k11_W) :
    val9 V0 (Proc.devRef .tc r) = val8 V0 (Proc.devRef .tc r) :=
  k11_keep _ r h0
theorem val9_main_arg0 (V0 : Valuation τ sig (Elt F)) : val9 V0 (Proc.devRef .tc main_arg0) = (V0 (Proc.devRef .tc main_arg0)) :=
  (val9_keep V0 main_arg0 (by decide)).trans (val8_main_arg0 V0)
theorem val9_main_arg1 (V0 : Valuation τ sig (Elt F)) : val9 V0 (Proc.devRef .tc main_arg1) = (V0 (Proc.devRef .tc main_arg1)) :=
  (val9_keep V0 main_arg1 (by decide)).trans (val8_main_arg1 V0)
theorem val9_main_arg2 (V0 : Valuation τ sig (Elt F)) : val9 V0 (Proc.devRef .tc main_arg2) = (V0 (Proc.devRef .tc main_arg2)) :=
  (val9_keep V0 main_arg2 (by decide)).trans (val8_main_arg2 V0)
theorem val9_main_arg3 (V0 : Valuation τ sig (Elt F)) : val9 V0 (Proc.devRef .tc main_arg3) = (V0 (Proc.devRef .tc main_arg3)) :=
  (val9_keep V0 main_arg3 (by decide)).trans (val8_main_arg3 V0)
theorem val9_main_arg4 (V0 : Valuation τ sig (Elt F)) : val9 V0 (Proc.devRef .tc main_arg4) = (V0 (Proc.devRef .tc main_arg4)) :=
  (val9_keep V0 main_arg4 (by decide)).trans (val8_main_arg4 V0)
theorem val9_main_arg5 (V0 : Valuation τ sig (Elt F)) : val9 V0 (Proc.devRef .tc main_arg5) = (V0 (Proc.devRef .tc main_arg5)) :=
  (val9_keep V0 main_arg5 (by decide)).trans (val8_main_arg5 V0)
theorem val9_main_arg6 (V0 : Valuation τ sig (Elt F)) : val9 V0 (Proc.devRef .tc main_arg6) = (V0 (Proc.devRef .tc main_arg6)) :=
  (val9_keep V0 main_arg6 (by decide)).trans (val8_main_arg6 V0)
theorem val9_main_arg7 (V0 : Valuation τ sig (Elt F)) : val9 V0 (Proc.devRef .tc main_arg7) = (V0 (Proc.devRef .tc main_arg7)) :=
  (val9_keep V0 main_arg7 (by decide)).trans (val8_main_arg7 V0)
theorem val9_main_arg8 (V0 : Valuation τ sig (Elt F)) : val9 V0 (Proc.devRef .tc main_arg8) = (V0 (Proc.devRef .tc main_arg8)) :=
  (val9_keep V0 main_arg8 (by decide)).trans (val8_main_arg8 V0)
theorem val9_main_arg9 (V0 : Valuation τ sig (Elt F)) : val9 V0 (Proc.devRef .tc main_arg9) = (V0 (Proc.devRef .tc main_arg9)) :=
  (val9_keep V0 main_arg9 (by decide)).trans (val8_main_arg9 V0)
theorem val9_main_arg10 (V0 : Valuation τ sig (Elt F)) : val9 V0 (Proc.devRef .tc main_arg10) = (V0 (Proc.devRef .tc main_arg10)) :=
  (val9_keep V0 main_arg10 (by decide)).trans (val8_main_arg10 V0)
theorem val9_main_arg11 (V0 : Valuation τ sig (Elt F)) : val9 V0 (Proc.devRef .tc main_arg11) = (V0 (Proc.devRef .tc main_arg11)) :=
  (val9_keep V0 main_arg11 (by decide)).trans (val8_main_arg11 V0)
theorem val9_main_arg12 (V0 : Valuation τ sig (Elt F)) : val9 V0 (Proc.devRef .tc main_arg12) = (V0 (Proc.devRef .tc main_arg12)) :=
  (val9_keep V0 main_arg12 (by decide)).trans (val8_main_arg12 V0)
theorem val9_main_arg13 (V0 : Valuation τ sig (Elt F)) : val9 V0 (Proc.devRef .tc main_arg13) = (V0 (Proc.devRef .tc main_arg13)) :=
  (val9_keep V0 main_arg13 (by decide)).trans (val8_main_arg13 V0)
theorem val9_main_arg14 (V0 : Valuation τ sig (Elt F)) : val9 V0 (Proc.devRef .tc main_arg14) = (V0 (Proc.devRef .tc main_arg14)) :=
  (val9_keep V0 main_arg14 (by decide)).trans (val8_main_arg14 V0)
theorem val9_main_arg15 (V0 : Valuation τ sig (Elt F)) : val9 V0 (Proc.devRef .tc main_arg15) = (V0 (Proc.devRef .tc main_arg15)) :=
  (val9_keep V0 main_arg15 (by decide)).trans (val8_main_arg15 V0)
theorem val9_main_v18 (V0 : Valuation τ sig (Elt F)) : val9 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val9_keep V0 main_v18 (by decide)).trans (val8_main_v18 V0)
theorem val9_main_v69 (V0 : Valuation τ sig (Elt F)) : val9 V0 (Proc.devRef .tc main_v69) = Cert.Spec.gcn (V0 (Proc.devRef .tc main_arg0)) (V0 (Proc.devRef .tc main_arg7)) (V0 (Proc.devRef .tc main_arg8)) (V0 (Proc.devRef .tc main_arg2)) (V0 (Proc.devRef .tc main_arg3)) (V0 (Proc.devRef .tc main_arg4)) :=
  (val9_keep V0 main_v69 (by decide)).trans (val8_main_v69 V0)
theorem val9_main_v86 (V0 : Valuation τ sig (Elt F)) : val9 V0 (Proc.devRef .tc main_v86) = Cert.Spec.gcn (Cert.Spec.x2 (V0 (Proc.devRef .tc main_arg0)) (V0 (Proc.devRef .tc main_arg1))) (V0 (Proc.devRef .tc main_arg7)) (V0 (Proc.devRef .tc main_arg8)) (V0 (Proc.devRef .tc main_arg2)) (V0 (Proc.devRef .tc main_arg3)) (V0 (Proc.devRef .tc main_arg4)) :=
  (val9_keep V0 main_v86 (by decide)).trans (val8_main_v86 V0)
theorem val9_main_v119 (V0 : Valuation τ sig (Elt F)) : val9 V0 (Proc.devRef .tc main_v119) = Cert.Spec.predictor (Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val9_keep V0 main_v119 (by decide)).trans (val8_main_v119 V0)
theorem val9_main_v152 (V0 : Valuation τ sig (Elt F)) : val9 V0 (Proc.devRef .tc main_v152) = Cert.Spec.predictor (Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (w09_main_v152 (val8 V0)).trans (by rw [val8_main_v123 V0, val8_main_v126 V0, val8_main_v127 V0, val8_main_arg11 V0, val8_main_arg12 V0, val8_main_arg13 V0, val8_main_arg14 V0, val8_main_arg15 V0]; first | done | rfl)

/-- The buffers' contents after the first 10 steps: the row loss of the first predictor output against the target convolution of the perturbed features. -/
def val10 (V0 : Valuation τ sig (Elt F)) : Valuation τ sig (Elt F) := after k13 (after k12 (val9 V0))
theorem val10_keep (V0 : Valuation τ sig (Elt F)) (r : Ref sig .tc) (h0 : r ∉ k12_W) (h1 : r ∉ k13_W) :
    val10 V0 (Proc.devRef .tc r) = val9 V0 (Proc.devRef .tc r) :=
  (k13_keep _ r h1).trans (k12_keep _ r h0)
theorem val10_main_arg0 (V0 : Valuation τ sig (Elt F)) : val10 V0 (Proc.devRef .tc main_arg0) = (V0 (Proc.devRef .tc main_arg0)) :=
  (val10_keep V0 main_arg0 (by decide) (by decide)).trans (val9_main_arg0 V0)
theorem val10_main_arg1 (V0 : Valuation τ sig (Elt F)) : val10 V0 (Proc.devRef .tc main_arg1) = (V0 (Proc.devRef .tc main_arg1)) :=
  (val10_keep V0 main_arg1 (by decide) (by decide)).trans (val9_main_arg1 V0)
theorem val10_main_arg2 (V0 : Valuation τ sig (Elt F)) : val10 V0 (Proc.devRef .tc main_arg2) = (V0 (Proc.devRef .tc main_arg2)) :=
  (val10_keep V0 main_arg2 (by decide) (by decide)).trans (val9_main_arg2 V0)
theorem val10_main_arg3 (V0 : Valuation τ sig (Elt F)) : val10 V0 (Proc.devRef .tc main_arg3) = (V0 (Proc.devRef .tc main_arg3)) :=
  (val10_keep V0 main_arg3 (by decide) (by decide)).trans (val9_main_arg3 V0)
theorem val10_main_arg4 (V0 : Valuation τ sig (Elt F)) : val10 V0 (Proc.devRef .tc main_arg4) = (V0 (Proc.devRef .tc main_arg4)) :=
  (val10_keep V0 main_arg4 (by decide) (by decide)).trans (val9_main_arg4 V0)
theorem val10_main_arg5 (V0 : Valuation τ sig (Elt F)) : val10 V0 (Proc.devRef .tc main_arg5) = (V0 (Proc.devRef .tc main_arg5)) :=
  (val10_keep V0 main_arg5 (by decide) (by decide)).trans (val9_main_arg5 V0)
theorem val10_main_arg6 (V0 : Valuation τ sig (Elt F)) : val10 V0 (Proc.devRef .tc main_arg6) = (V0 (Proc.devRef .tc main_arg6)) :=
  (val10_keep V0 main_arg6 (by decide) (by decide)).trans (val9_main_arg6 V0)
theorem val10_main_arg7 (V0 : Valuation τ sig (Elt F)) : val10 V0 (Proc.devRef .tc main_arg7) = (V0 (Proc.devRef .tc main_arg7)) :=
  (val10_keep V0 main_arg7 (by decide) (by decide)).trans (val9_main_arg7 V0)
theorem val10_main_arg8 (V0 : Valuation τ sig (Elt F)) : val10 V0 (Proc.devRef .tc main_arg8) = (V0 (Proc.devRef .tc main_arg8)) :=
  (val10_keep V0 main_arg8 (by decide) (by decide)).trans (val9_main_arg8 V0)
theorem val10_main_arg9 (V0 : Valuation τ sig (Elt F)) : val10 V0 (Proc.devRef .tc main_arg9) = (V0 (Proc.devRef .tc main_arg9)) :=
  (val10_keep V0 main_arg9 (by decide) (by decide)).trans (val9_main_arg9 V0)
theorem val10_main_arg10 (V0 : Valuation τ sig (Elt F)) : val10 V0 (Proc.devRef .tc main_arg10) = (V0 (Proc.devRef .tc main_arg10)) :=
  (val10_keep V0 main_arg10 (by decide) (by decide)).trans (val9_main_arg10 V0)
theorem val10_main_arg11 (V0 : Valuation τ sig (Elt F)) : val10 V0 (Proc.devRef .tc main_arg11) = (V0 (Proc.devRef .tc main_arg11)) :=
  (val10_keep V0 main_arg11 (by decide) (by decide)).trans (val9_main_arg11 V0)
theorem val10_main_arg12 (V0 : Valuation τ sig (Elt F)) : val10 V0 (Proc.devRef .tc main_arg12) = (V0 (Proc.devRef .tc main_arg12)) :=
  (val10_keep V0 main_arg12 (by decide) (by decide)).trans (val9_main_arg12 V0)
theorem val10_main_arg13 (V0 : Valuation τ sig (Elt F)) : val10 V0 (Proc.devRef .tc main_arg13) = (V0 (Proc.devRef .tc main_arg13)) :=
  (val10_keep V0 main_arg13 (by decide) (by decide)).trans (val9_main_arg13 V0)
theorem val10_main_arg14 (V0 : Valuation τ sig (Elt F)) : val10 V0 (Proc.devRef .tc main_arg14) = (V0 (Proc.devRef .tc main_arg14)) :=
  (val10_keep V0 main_arg14 (by decide) (by decide)).trans (val9_main_arg14 V0)
theorem val10_main_arg15 (V0 : Valuation τ sig (Elt F)) : val10 V0 (Proc.devRef .tc main_arg15) = (V0 (Proc.devRef .tc main_arg15)) :=
  (val10_keep V0 main_arg15 (by decide) (by decide)).trans (val9_main_arg15 V0)
theorem val10_main_v18 (V0 : Valuation τ sig (Elt F)) : val10 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val10_keep V0 main_v18 (by decide) (by decide)).trans (val9_main_v18 V0)
theorem val10_main_v69 (V0 : Valuation τ sig (Elt F)) : val10 V0 (Proc.devRef .tc main_v69) = Cert.Spec.gcn (V0 (Proc.devRef .tc main_arg0)) (V0 (Proc.devRef .tc main_arg7)) (V0 (Proc.devRef .tc main_arg8)) (V0 (Proc.devRef .tc main_arg2)) (V0 (Proc.devRef .tc main_arg3)) (V0 (Proc.devRef .tc main_arg4)) :=
  (val10_keep V0 main_v69 (by decide) (by decide)).trans (val9_main_v69 V0)
theorem val10_main_v152 (V0 : Valuation τ sig (Elt F)) : val10 V0 (Proc.devRef .tc main_v152) = Cert.Spec.predictor (Cert.Spec.gcn (Cert.Spec.x2 (V0 (Proc.devRef .tc main_arg0)) (V0 (Proc.devRef .tc main_arg1))) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val10_keep V0 main_v152 (by decide) (by decide)).trans (val9_main_v152 V0)
theorem val10_main_v174 (V0 : Valuation τ sig (Elt F)) : val10 V0 (Proc.devRef .tc main_v174) = Cert.Spec.lossRow (Cert.Spec.predictor (Cert.Spec.gcn (V0 (Proc.devRef .tc main_arg0)) (V0 (Proc.devRef .tc main_arg5)) (V0 (Proc.devRef .tc main_arg6)) (V0 (Proc.devRef .tc main_arg2)) (V0 (Proc.devRef .tc main_arg3)) (V0 (Proc.devRef .tc main_arg4))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))) (Cert.Spec.gcn (Cert.Spec.x2 (V0 (Proc.devRef .tc main_arg0)) (V0 (Proc.devRef .tc main_arg1))) (V0 (Proc.devRef .tc main_arg7)) (V0 (Proc.devRef .tc main_arg8)) (V0 (Proc.devRef .tc main_arg2)) (V0 (Proc.devRef .tc main_arg3)) (V0 (Proc.devRef .tc main_arg4))) :=
  (w10_main_v174 (val9 V0)).trans (by rw [val9_main_v119 V0, val9_main_v86 V0]; first | done | rfl)

/-- The buffers' contents after the first 11 steps: the second result: the row loss of the second pair added to the first, summed over the rows and divided by their number. -/
def val11 (V0 : Valuation τ sig (Elt F)) : Valuation τ sig (Elt F) := after k15 (after k14 (val10 V0))
theorem val11_keep (V0 : Valuation τ sig (Elt F)) (r : Ref sig .tc) (h0 : r ∉ k14_W) (h1 : r ∉ k15_W) :
    val11 V0 (Proc.devRef .tc r) = val10 V0 (Proc.devRef .tc r) :=
  (k15_keep _ r h1).trans (k14_keep _ r h0)
theorem val11_main_arg0 (V0 : Valuation τ sig (Elt F)) : val11 V0 (Proc.devRef .tc main_arg0) = (V0 (Proc.devRef .tc main_arg0)) :=
  (val11_keep V0 main_arg0 (by decide) (by decide)).trans (val10_main_arg0 V0)
theorem val11_main_arg1 (V0 : Valuation τ sig (Elt F)) : val11 V0 (Proc.devRef .tc main_arg1) = (V0 (Proc.devRef .tc main_arg1)) :=
  (val11_keep V0 main_arg1 (by decide) (by decide)).trans (val10_main_arg1 V0)
theorem val11_main_arg2 (V0 : Valuation τ sig (Elt F)) : val11 V0 (Proc.devRef .tc main_arg2) = (V0 (Proc.devRef .tc main_arg2)) :=
  (val11_keep V0 main_arg2 (by decide) (by decide)).trans (val10_main_arg2 V0)
theorem val11_main_arg3 (V0 : Valuation τ sig (Elt F)) : val11 V0 (Proc.devRef .tc main_arg3) = (V0 (Proc.devRef .tc main_arg3)) :=
  (val11_keep V0 main_arg3 (by decide) (by decide)).trans (val10_main_arg3 V0)
theorem val11_main_arg4 (V0 : Valuation τ sig (Elt F)) : val11 V0 (Proc.devRef .tc main_arg4) = (V0 (Proc.devRef .tc main_arg4)) :=
  (val11_keep V0 main_arg4 (by decide) (by decide)).trans (val10_main_arg4 V0)
theorem val11_main_arg5 (V0 : Valuation τ sig (Elt F)) : val11 V0 (Proc.devRef .tc main_arg5) = (V0 (Proc.devRef .tc main_arg5)) :=
  (val11_keep V0 main_arg5 (by decide) (by decide)).trans (val10_main_arg5 V0)
theorem val11_main_arg6 (V0 : Valuation τ sig (Elt F)) : val11 V0 (Proc.devRef .tc main_arg6) = (V0 (Proc.devRef .tc main_arg6)) :=
  (val11_keep V0 main_arg6 (by decide) (by decide)).trans (val10_main_arg6 V0)
theorem val11_main_arg7 (V0 : Valuation τ sig (Elt F)) : val11 V0 (Proc.devRef .tc main_arg7) = (V0 (Proc.devRef .tc main_arg7)) :=
  (val11_keep V0 main_arg7 (by decide) (by decide)).trans (val10_main_arg7 V0)
theorem val11_main_arg8 (V0 : Valuation τ sig (Elt F)) : val11 V0 (Proc.devRef .tc main_arg8) = (V0 (Proc.devRef .tc main_arg8)) :=
  (val11_keep V0 main_arg8 (by decide) (by decide)).trans (val10_main_arg8 V0)
theorem val11_main_arg9 (V0 : Valuation τ sig (Elt F)) : val11 V0 (Proc.devRef .tc main_arg9) = (V0 (Proc.devRef .tc main_arg9)) :=
  (val11_keep V0 main_arg9 (by decide) (by decide)).trans (val10_main_arg9 V0)
theorem val11_main_arg10 (V0 : Valuation τ sig (Elt F)) : val11 V0 (Proc.devRef .tc main_arg10) = (V0 (Proc.devRef .tc main_arg10)) :=
  (val11_keep V0 main_arg10 (by decide) (by decide)).trans (val10_main_arg10 V0)
theorem val11_main_arg11 (V0 : Valuation τ sig (Elt F)) : val11 V0 (Proc.devRef .tc main_arg11) = (V0 (Proc.devRef .tc main_arg11)) :=
  (val11_keep V0 main_arg11 (by decide) (by decide)).trans (val10_main_arg11 V0)
theorem val11_main_arg12 (V0 : Valuation τ sig (Elt F)) : val11 V0 (Proc.devRef .tc main_arg12) = (V0 (Proc.devRef .tc main_arg12)) :=
  (val11_keep V0 main_arg12 (by decide) (by decide)).trans (val10_main_arg12 V0)
theorem val11_main_arg13 (V0 : Valuation τ sig (Elt F)) : val11 V0 (Proc.devRef .tc main_arg13) = (V0 (Proc.devRef .tc main_arg13)) :=
  (val11_keep V0 main_arg13 (by decide) (by decide)).trans (val10_main_arg13 V0)
theorem val11_main_arg14 (V0 : Valuation τ sig (Elt F)) : val11 V0 (Proc.devRef .tc main_arg14) = (V0 (Proc.devRef .tc main_arg14)) :=
  (val11_keep V0 main_arg14 (by decide) (by decide)).trans (val10_main_arg14 V0)
theorem val11_main_arg15 (V0 : Valuation τ sig (Elt F)) : val11 V0 (Proc.devRef .tc main_arg15) = (V0 (Proc.devRef .tc main_arg15)) :=
  (val11_keep V0 main_arg15 (by decide) (by decide)).trans (val10_main_arg15 V0)
theorem val11_main_v18 (V0 : Valuation τ sig (Elt F)) : val11 V0 (Proc.devRef .tc main_v18) = Cert.Spec.embed (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val11_keep V0 main_v18 (by decide) (by decide)).trans (val10_main_v18 V0)
theorem val11_main_v199 (V0 : Valuation τ sig (Elt F)) : val11 V0 (Proc.devRef .tc main_v199) = Cert.Spec.loss (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (w11_main_v199 (val10 V0)).trans (by rw [val10_main_v174 V0, val10_main_v152 V0, val10_main_v69 V0]; first | done | rfl)

/-- The buffers after the whole line are the buffers after the eleven steps. -/
theorem after_ops_val (V0 : Valuation τ sig (Elt F)) : after ops V0 = val11 V0 := after_ops V0

/-- On every device, for any float values, from any memory with zero counters: every weakly fair execution of the
    program terminates with the first result at the perturbed features plus their online graph convolution, the second at
    the mean row loss of the two predictor outputs against the two target convolutions, and the sixteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = Cert.Spec.embed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v199) = Cert.Spec.loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v18).trans (by rw [after_ops_val]; exact val11_main_v18 (launchContents m c)),
      (h c main_v199).trans (by rw [after_ops_val]; exact val11_main_v199 (launchContents m c)),
      (h c main_arg0).trans (by rw [after_ops_val]; exact val11_main_arg0 (launchContents m c)),
      (h c main_arg1).trans (by rw [after_ops_val]; exact val11_main_arg1 (launchContents m c)),
      (h c main_arg2).trans (by rw [after_ops_val]; exact val11_main_arg2 (launchContents m c)),
      (h c main_arg3).trans (by rw [after_ops_val]; exact val11_main_arg3 (launchContents m c)),
      (h c main_arg4).trans (by rw [after_ops_val]; exact val11_main_arg4 (launchContents m c)),
      (h c main_arg5).trans (by rw [after_ops_val]; exact val11_main_arg5 (launchContents m c)),
      (h c main_arg6).trans (by rw [after_ops_val]; exact val11_main_arg6 (launchContents m c)),
      (h c main_arg7).trans (by rw [after_ops_val]; exact val11_main_arg7 (launchContents m c)),
      (h c main_arg8).trans (by rw [after_ops_val]; exact val11_main_arg8 (launchContents m c)),
      (h c main_arg9).trans (by rw [after_ops_val]; exact val11_main_arg9 (launchContents m c)),
      (h c main_arg10).trans (by rw [after_ops_val]; exact val11_main_arg10 (launchContents m c)),
      (h c main_arg11).trans (by rw [after_ops_val]; exact val11_main_arg11 (launchContents m c)),
      (h c main_arg12).trans (by rw [after_ops_val]; exact val11_main_arg12 (launchContents m c)),
      (h c main_arg13).trans (by rw [after_ops_val]; exact val11_main_arg13 (launchContents m c)),
      (h c main_arg14).trans (by rw [after_ops_val]; exact val11_main_arg14 (launchContents m c)),
      (h c main_arg15).trans (by rw [after_ops_val]; exact val11_main_arg15 (launchContents m c))⟩)
    (run_seq scopedRefs_eq scopedSems_eq defs main (fun _ => ops) main_eq (fun _ => ops_sub) m ρ (fun _ => ops_fresh))

/-- The same run with the results dropped: every weakly fair execution terminates and the sixteen arguments end as
    launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => (h c).2.2) (run m ρ)

end Cert.ReferenceIdeal.RefRun

end
-- ==== Proof.LibHostBcast.lean ====
/-
  The host's broadcast_in_dim in the keepdims shapes of a pairwise computation, read at explicit coordinates, and the
  host's sums along the last axis on the extended reals.

  A length-a vector placed as an a x 1 column or a 1 x a row; such a column spread across columns, such a row spread
  down rows; an a x b matrix placed as an a x 1 x b or a 1 x a x b array; such arrays spread along their unit axis.
  The host's sum along the last axis of a matrix or of a cube is the initial value plus the sum over that axis.
-/
import Idealize.ShloMosaic.Lib.ValueIdx
import Idealize.ShloMosaic.Lib.Pipeline.Value
import Idealize.ShloMosaic.Lib.IdealHost
import Idealize.ShloMosaic.PureOps.Ideal.Laws

namespace Cert.LibHostBcast

open Idealize.ShloMosaic Idealize.ShloMosaic.ValueIdx

variable {α : Type}

/-- A vector as an a x 1 column: entry (i, u) is the vector's entry i. -/
theorem bid_a_a1_apply {a : ℕ} (dims : Fin 1 → Fin 2) (hd : dims 0 = 0) (x : (⟨1, ![a]⟩ : Shape).Idx → α)
    (h : (⟨1, ![a]⟩ : Shape).BroadcastsInDim ⟨2, ![a, 1]⟩ dims) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A vector as a 1 x a row: entry (u, i) is the vector's entry i. -/
theorem bid_a_1a_apply {a : ℕ} (dims : Fin 1 → Fin 2) (hd : dims 0 = 1) (x : (⟨1, ![a]⟩ : Shape).Idx → α)
    (h : (⟨1, ![a]⟩ : Shape).BroadcastsInDim ⟨2, ![1, a]⟩ dims) (u : Fin 1) (i : Fin a) :
    broadcastInDim ⟨2, ![1, a]⟩ dims h x (ix2 u i) = x (ix1 i) := by
  refine broadcastInDim_apply dims h x (ix2 u i) (ix1 i) fun ax => ?_
  match ax with
  | ⟨0, _⟩ =>
    show i.val = if a = 1 then 0 else ((ix2 u i : (⟨2, ![1, a]⟩ : Shape).Idx) (dims 0)).val
    rw [hd]
    split
    · have := i.isLt; omega
    · rfl

/-- An a x 1 column spread across b columns: entry (p, c) is the column's entry (p, 0). -/
theorem bid_a1_ab_apply {a b : ℕ} (dims : Fin 2 → Fin 2) (h0 : dims 0 = 0) (h1 : dims 1 = 1) (v : (⟨2, ![a, 1]⟩ : Shape).Idx → α)
    (h : (⟨2, ![a, 1]⟩ : Shape).BroadcastsInDim ⟨2, ![a, b]⟩ dims) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [h0]
    split
    · have := p.isLt; omega
    · rfl
  | ⟨1, _⟩ => rfl

/-- A 1 x b row spread down a rows: entry (p, c) is the row's entry (0, c). -/
theorem bid_1b_ab_apply {a b : ℕ} (dims : Fin 2 → Fin 2) (h0 : dims 0 = 0) (h1 : dims 1 = 1) (v : (⟨2, ![1, b]⟩ : Shape).Idx → α)
    (h : (⟨2, ![1, b]⟩ : Shape).BroadcastsInDim ⟨2, ![a, b]⟩ dims) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [h1]
    split
    · have := c.isLt; omega
    · rfl

/-- An a x b matrix as an a x 1 x b array: entry (i, u, j) is the matrix's entry (i, j). -/
theorem bid_ab_a1b_apply {a b : ℕ} (dims : Fin 2 → Fin 3) (h0 : dims 0 = 0) (h1 : dims 1 = 2) (x : (⟨2, ![a, b]⟩ : Shape).Idx → α)
    (h : (⟨2, ![a, b]⟩ : Shape).BroadcastsInDim ⟨3, ![a, 1, b]⟩ dims) (i : Fin a) (u : Fin 1) (j : Fin b) :
    broadcastInDim ⟨3, ![a, 1, b]⟩ dims h x (ix3 i u j) = x (ix2 i j) := by
  refine broadcastInDim_apply dims h x (ix3 i u j) (ix2 i j) fun ax => ?_
  match ax with
  | ⟨0, _⟩ =>
    show i.val = if a = 1 then 0 else ((ix3 i u j : (⟨3, ![a, 1, b]⟩ : Shape).Idx) (dims 0)).val
    rw [h0]
    split
    · have := i.isLt; omega
    · rfl
  | ⟨1, _⟩ =>
    show j.val = if b = 1 then 0 else ((ix3 i u j : (⟨3, ![a, 1, b]⟩ : Shape).Idx) (dims 1)).val
    rw [h1]
    split
    · have := j.isLt; omega
    · rfl

/-- An a x b matrix as a 1 x a x b array: entry (u, i, j) is the matrix's entry (i, j). -/
theorem bid_ab_1ab_apply {a b : ℕ} (dims : Fin 2 → Fin 3) (h0 : dims 0 = 1) (h1 : dims 1 = 2) (x : (⟨2, ![a, b]⟩ : Shape).Idx → α)
    (h : (⟨2, ![a, b]⟩ : Shape).BroadcastsInDim ⟨3, ![1, a, b]⟩ dims) (u : Fin 1) (i : Fin a) (j : Fin b) :
    broadcastInDim ⟨3, ![1, a, b]⟩ dims h x (ix3 u i j) = x (ix2 i j) := by
  refine broadcastInDim_apply dims h x (ix3 u i j) (ix2 i j) fun ax => ?_
  match ax with
  | ⟨0, _⟩ =>
    show i.val = if a = 1 then 0 else ((ix3 u i j : (⟨3, ![1, a, b]⟩ : Shape).Idx) (dims 0)).val
    rw [h0]
    split
    · have := i.isLt; omega
    · rfl
  | ⟨1, _⟩ =>
    show j.val = if b = 1 then 0 else ((ix3 u i j : (⟨3, ![1, a, b]⟩ : Shape).Idx) (dims 1)).val
    rw [h1]
    split
    · have := j.isLt; omega
    · rfl

/-- An a x 1 x b array spread along its middle axis: entry (i, k, j) is the array's entry (i, 0, j). -/
theorem bid_a1b_acb_apply {a b c : ℕ} (dims : Fin 3 → Fin 3) (h0 : dims 0 = 0) (h1 : dims 1 = 1) (h2 : dims 2 = 2)
    (v : (⟨3, ![a, 1, b]⟩ : Shape).Idx → α) (h : (⟨3, ![a, 1, b]⟩ : Shape).BroadcastsInDim ⟨3, ![a, c, b]⟩ dims)
    (i : Fin a) (k : Fin c) (j : Fin b) :
    broadcastInDim ⟨3, ![a, c, b]⟩ dims h v (ix3 i k j) = v (ix3 i (0 : Fin 1) j) := by
  refine broadcastInDim_apply dims h v (ix3 i k j) (ix3 i (0 : Fin 1) j) fun ax => ?_
  match ax with
  | ⟨0, _⟩ =>
    show i.val = if a = 1 then 0 else ((ix3 i k j : (⟨3, ![a, c, b]⟩ : Shape).Idx) (dims 0)).val
    rw [h0]
    split
    · have := i.isLt; omega
    · rfl
  | ⟨1, _⟩ => rfl
  | ⟨2, _⟩ =>
    show j.val = if b = 1 then 0 else ((ix3 i k j : (⟨3, ![a, c, b]⟩ : Shape).Idx) (dims 2)).val
    rw [h2]
    split
    · have := j.isLt; omega
    · rfl

/-- A 1 x a x b array spread along its first axis: entry (k, i, j) is the array's entry (0, i, j). -/
theorem bid_1ab_cab_apply {a b c : ℕ} (dims : Fin 3 → Fin 3) (h0 : dims 0 = 0) (h1 : dims 1 = 1) (h2 : dims 2 = 2)
    (v : (⟨3, ![1, a, b]⟩ : Shape).Idx → α) (h : (⟨3, ![1, a, b]⟩ : Shape).BroadcastsInDim ⟨3, ![c, a, b]⟩ dims)
    (k : Fin c) (i : Fin a) (j : Fin b) :
    broadcastInDim ⟨3, ![c, a, b]⟩ dims h v (ix3 k i j) = v (ix3 (0 : Fin 1) i j) := by
  refine broadcastInDim_apply dims h v (ix3 k i j) (ix3 (0 : Fin 1) i j) fun ax => ?_
  match ax with
  | ⟨0, _⟩ => rfl
  | ⟨1, _⟩ =>
    show i.val = if a = 1 then 0 else ((ix3 k i j : (⟨3, ![c, a, b]⟩ : Shape).Idx) (dims 1)).val
    rw [h1]
    split
    · have := i.isLt; omega
    · rfl
  | ⟨2, _⟩ =>
    show j.val = if b = 1 then 0 else ((ix3 k i j : (⟨3, ![c, a, b]⟩ : Shape).Idx) (dims 2)).val
    rw [h2]
    split
    · have := j.isLt; omega
    · rfl

/-- The index a last-axis reduction of a matrix reads. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The index a last-axis reduction of a cube reads. -/
theorem lift_last3 {A B S : ℕ} (h : (⟨3, ![A, B, S]⟩ : Shape).Reduces [2] ⟨2, ![A, B]⟩) (r : Fin A) (s : Fin B) (k : Fin S) :
    h.lift (ix2 r s) k = ix3 r s k :=
  funext fun a => Fin.ext (by
    match a with
    | ⟨0, _⟩ => rfl
    | ⟨1, _⟩ => rfl
    | ⟨2, _⟩ => rfl)

/-- The host's sum along the rows of a matrix, at r: the initial value plus the sum of row r. -/
theorem hostSum_last2_apply {A S : ℕ} {φ : FTy} (x : FVec Ideal ⟨2, ![A, S]⟩ φ) (init : (⟨0, ![]⟩ : Shape).Idx → Ideal φ)
    (h' : (⟨2, ![A, S]⟩ : Shape).ReducesTo [1] ⟨1, ![A]⟩) (h : (⟨2, ![A, S]⟩ : Shape).Reduces [1] ⟨1, ![A]⟩)
    (hu : 0 < (⟨0, ![]⟩ : Shape).numel) (r : Fin A) :
    Host.reduceAdd x init h' hu (ix1 r) = init ix0 + ∑ k : Fin S, x (ix2 r k) := by
  refine (hostReduceAdd_apply x init h' hu (ix1 r)).trans ?_
  refine (Ideal.hostReduceAdd_single h' h x _ (ix1 r)).trans ?_
  refine congrArg₂ HAdd.hAdd (congrArg init (funext fun a => a.elim0)) ?_
  exact Finset.sum_congr rfl fun k _ => congrArg x (lift_last2 h r k)

/-- The host's sum along the last axis of a cube, at (r, s): the initial value plus the sum over k of (r, s, k). -/
theorem hostSum_last3_apply {A B S : ℕ} {φ : FTy} (x : FVec Ideal ⟨3, ![A, B, S]⟩ φ) (init : (⟨0, ![]⟩ : Shape).Idx → Ideal φ)
    (h' : (⟨3, ![A, B, S]⟩ : Shape).ReducesTo [2] ⟨2, ![A, B]⟩) (h : (⟨3, ![A, B, S]⟩ : Shape).Reduces [2] ⟨2, ![A, B]⟩)
    (hu : 0 < (⟨0, ![]⟩ : Shape).numel) (r : Fin A) (s : Fin B) :
    Host.reduceAdd x init h' hu (ix2 r s) = init ix0 + ∑ k : Fin S, x (ix3 r s k) := by
  refine (hostReduceAdd_apply x init h' hu (ix2 r s)).trans ?_
  refine (Ideal.hostReduceAdd_single h' h x _ (ix2 r s)).trans ?_
  refine congrArg₂ HAdd.hAdd (congrArg init (funext fun a => a.elim0)) ?_
  exact Finset.sum_congr rfl fun k _ => congrArg x (lift_last3 h r s k)

end Cert.LibHostBcast
-- ==== Proof.LibHostColumnSum.lean ====
/-
  The host's sum down the columns of a matrix on the extended reals.

  Reducing an s × a matrix along its first axis with an add body leaves a length-a vector whose entry k is the initial
  value plus the sum of column k.
-/
import Idealize.ShloMosaic.Lib.ValueIdx
import Idealize.ShloMosaic.Lib.IdealHost
import Idealize.ShloMosaic.PureOps.Ideal.Laws

namespace Cert.LibHostColumnSum

open Idealize.ShloMosaic Idealize.ShloMosaic.ValueIdx

/-- The index a column reduction reads: the position along the column, then the kept column coordinate. -/
theorem lift_first2 {S A : ℕ} (h : (⟨2, ![S, A]⟩ : Shape).Reduces [0] ⟨1, ![A]⟩) (k : Fin A) (p : Fin S) :
    h.lift (ix1 k) p = ix2 p k :=
  funext fun a => Fin.ext (by
    match a with
    | ⟨0, _⟩ => rfl
    | ⟨1, _⟩ => rfl)

/-- The host's sum down the columns of a matrix, at k: the initial value plus the sum of column k. -/
theorem hostSum_first2_apply {S A : ℕ} {φ : FTy} (x : FVec Ideal ⟨2, ![S, A]⟩ φ) (init : (⟨0, ![]⟩ : Shape).Idx → Ideal φ)
    (h' : (⟨2, ![S, A]⟩ : Shape).ReducesTo [0] ⟨1, ![A]⟩) (hu : 0 < (⟨0, ![]⟩ : Shape).numel) (k : Fin A) :
    Host.reduceAdd x init h' hu (ix1 k) = init ix0 + ∑ p : Fin S, x (ix2 p k) := by
  have h : (⟨2, ![S, A]⟩ : Shape).Reduces [0] ⟨1, ![A]⟩ := ⟨h'.1, Nat.zero_lt_one, h'.2⟩
  refine (hostReduceAdd_apply x init h' hu (ix1 k)).trans ?_
  refine (Ideal.hostReduceAdd_single h' h x _ (ix1 k)).trans ?_
  refine congrArg₂ HAdd.hAdd (congrArg init (funext fun a => a.elim0)) ?_
  exact Finset.sum_congr rfl fun p _ => congrArg x (lift_first2 h k p)

end Cert.LibHostColumnSum
-- ==== Proof.Algebra.lean ====
/-
  The two spellings of the predictor agree on the extended reals.  The kernel multiplies a centred entry by the
  reciprocal square root of (variance + ε); the reference divides it by the square root.  A column variance is a mean of
  squares, so it is non-negative (a square of an extended real is, an infinite one included), variance + ε is positive
  (possibly +∞), and for a positive y — real or +∞ — x·rsqrt y = x / √y: both are x·(√y)⁻¹ on a real, both are 0 at
  +∞.  The shared slope reaches every column in both programs, so the leaky rectifier and the second dense layer are
  then the same function of the same entries.
-/
import proofs.«123214_j35218731827951_1_alg».proof.Proof.Spec
import proofs.«123214_j35218731827951_1_alg».proof.Proof.Gen.ReferenceIdeal
import proofs.«123214_j35218731827951_1_alg».proof.Proof.RegionSpecIdx
import proofs.«123214_j35218731827951_1_alg».proof.Proof.LibHostBcast
import proofs.«123214_j35218731827951_1_alg».proof.Proof.LibHostColumnSum
import Idealize.ShloMosaic.Lib.ValueIdx
import Idealize.ShloMosaic.Lib.IdealHost
import Idealize.ShloMosaic.PureOps.Ideal.Laws

noncomputable section

open scoped BigOperators
open Idealize.ShloMosaic Idealize.ShloMosaic.ValueIdx

namespace Cert.Algebra

open Cert.ReferenceIdeal Cert.ReferenceIdeal.Gen Cert.Spec Cert.KernelIdeal.RegionVal Cert.Spec.AtIdx

theorem mul_rsqrt_eq_div_sqrt (x y : EReal) (hy : 0 < y) : x * Ideal.rsqrt y = Ideal.div x (Ideal.sqrt y) := by
  induction y using EReal.rec with
  | bot => exact absurd hy (by simp)
  | top =>
    show x * 0 = Ideal.div x ⊤
    unfold Ideal.div
    rw [if_neg EReal.top_ne_zero, EReal.inv_top]
  | coe r =>
    have hr : 0 < r := by exact_mod_cast hy
    show x * (if r < 0 then (⊥ : EReal) else if r = 0 then (⊤ : EReal) else (((Real.sqrt r)⁻¹ : ℝ) : EReal)) = Ideal.div x (if r < 0 then (⊥ : EReal) else ((Real.sqrt r : ℝ) : EReal))
    rw [if_neg (not_lt.mpr hr.le), if_neg hr.ne', if_neg (not_lt.mpr hr.le)]
    unfold Ideal.div
    have hs : (Real.sqrt r : EReal) ≠ 0 := by exact_mod_cast (Real.sqrt_pos.mpr hr).ne'
    rw [if_neg hs, ← EReal.coe_inv]

theorem mul_self_nonneg' (x : EReal) : 0 ≤ x * x := by
  induction x using EReal.rec with
  | bot => simp
  | top => simp
  | coe r => exact_mod_cast mul_self_nonneg r

theorem eps_pos : (0 : EReal) < Ideal.ofBits .f32 0x3727C5AC#32 := by
  simp [Ideal.ofBits, Ideal.ieee, -EReal.coe_mul]

theorem fifty_thousand : Ideal.ofBits .f32 0x47435000#32 = ((50000 : ℝ) : EReal) := by
  simp [Ideal.ofBits, Ideal.ieee, -EReal.coe_mul]; norm_num

theorem var_nonneg (h : Mat Ideal) (k : Fin 128) : 0 ≤ Spec.var h (ix1 k) := by
  unfold Spec.var
  simp only [select_apply, hostDivf_apply]
  rw [broadcastInDim_scalar_apply, broadcastInDim_scalar_apply, broadcastInDim_scalar_apply]
  simp only [cmpf_apply, subf_apply, constant_apply, sitofp_apply]
  have hn : Ideal.ofBits FTy.f32 1195593728#32 - FloatOps.sitofp (F := Ideal) FTy.f32 (constantI S_ 32 (0#32) ix0) = ((50000 : ℝ) : EReal) := by
    rw [fifty_thousand]
    show ((50000:ℝ):EReal) - (((0#32 : BitVec 32).toInt : ℝ) : EReal) = _
    simp
  rw [hn, Ideal.ofBits_zero_f32]
  have hc : FloatOps.cmpf (F := Ideal) (φ := .f32) CmpFPredicate.ogt ((50000:ℝ):EReal) 0 = 1#1 := by
    show Ideal.cmp .ogt _ _ = 1#1
    unfold Ideal.cmp
    simp
  rw [hc, select_one]
  rw [Ideal.div_coe (by norm_num : (50000:ℝ) ≠ 0)]
  refine mul_nonneg ?_ (EReal.coe_nonneg.mpr (by norm_num))
  rw [show Host.reduceAdd _ _ _ _ (ix1 k) = _ from Cert.LibHostColumnSum.hostSum_first2_apply (S := 50000) (A := 128) _ _ reducesTo_S50000x128_S128_d0 h_S_ k]
  rw [constant_apply, Ideal.ofBits_zero_f32, zero_add]
  exact Finset.sum_nonneg fun p _ => by rw [mulf_apply]; exact mul_self_nonneg' _

/-- On a column whose variance is that of an array, the kernel's normalised entry is the reference's. -/
theorem norm_entry (x : EReal) (h : Mat Ideal) (k : Fin 128) :
    x * Ideal.rsqrt (Spec.var h (ix1 k) + Ideal.ofBits .f32 0x3727C5AC#32)
      = Ideal.div x (Ideal.sqrt (Spec.var h (ix1 k) + Ideal.ofBits .f32 0x3727C5AC#32)) :=
  mul_rsqrt_eq_div_sqrt x _ (lt_of_lt_of_le eps_pos (le_add_of_nonneg_left (var_nonneg h k)))

/-- The shared slope, a 1-vector placed as a 1×1 array and spread over the 50000×128 entries, is itself everywhere. -/
theorem slope_ref_apply (a : (⟨S1, .f32⟩ : BufTy).Contents (Elt Ideal)) (r : Fin 50000) (k : Fin 128) :
    broadcastInDim S50000x128 ![0, 1] bcast_S1x1_S50000x128_0_1 (broadcastInDim S1x1 ![1] bcast_S1_S1x1_1 a) (ix2 r k) = a (ix1 0) := by
  refine (broadcastInDim_apply ![0, 1] bcast_S1x1_S50000x128_0_1 _ (ix2 r k) (ix2 (0 : Fin 1) (0 : Fin 1)) fun ax => ?_).trans ?_
  · match ax with
    | ⟨0, _⟩ => rfl
    | ⟨1, _⟩ => rfl
  · exact Cert.LibHostBcast.bid_a_1a_apply (a := 1) ![1] rfl a bcast_S1_S1x1_1 0 0

/-- The reference's leaky rectifier of its batch norm, read at an entry, is the kernel's activated entry whenever
    the kernel's slope vector holds the shared slope in every column. -/
theorem prelu_bn_apply (h : Mat Ideal) (mu g beta : V128 Ideal) (a : (⟨S1, .f32⟩ : BufTy).Contents (Elt Ideal))
    (sl : V128 Ideal) (hsl : ∀ k : Fin 128, sl (ix1 k) = a (ix1 0)) (r : Fin 50000) (k : Fin 128) :
    prelu (bn h mu (Spec.var h) g beta) a (ix2 r k)
      = actS (h (ix2 r k)) (mu (ix1 k)) (Spec.var h (ix1 k)) (g (ix1 k)) (beta (ix1 k)) (sl (ix1 k)) := by
  unfold prelu bn zeroMat epsBN actS
  simp only [select_apply, cmpf_apply, mulf_apply, addf_apply, subf_apply, rowb_apply, hostDivf_apply]
  rw [broadcastInDim_scalar_apply, slope_ref_apply, constant_apply]
  rw [show Host.sqrt (addf (Spec.var h) (broadcastInDim S128 ![] bcast_S_S128 (constant S_ .f32 0x3727C5AC#32))) (ix1 k)
      = Ideal.sqrt (Spec.var h (ix1 k) + Ideal.ofBits .f32 0x3727C5AC#32) from by
    show Ideal.sqrt _ = _
    rw [addf_apply, broadcastInDim_scalar_apply, constant_apply]]
  rw [← norm_entry, hsl k]

/-- The kernel's predictor tail on the first layer's own statistics is the reference's predictor. -/
theorem tailK_eq_predictor (x : Mat Ideal) (W1 : Wt Ideal) (b1 g beta : V128 Ideal)
    (a : (⟨S1, .f32⟩ : BufTy).Contents (Elt Ideal)) (W2 : Wt Ideal) (b2 : V128 Ideal)
    (sl : V128 Ideal) (hsl : ∀ k : Fin 128, sl (ix1 k) = a (ix1 0)) :
    tailK (lin x W1 b1) (mean (lin x W1 b1)) (Spec.var (lin x W1 b1)) g beta sl W2 b2 = predictor x W1 b1 g beta a W2 b2 := by
  unfold predictor
  funext i
  obtain ⟨r, q, rfl⟩ : ∃ (r : Fin 50000) (q : Fin 128), i = ix2 r q := ⟨i 0, i 1, eq_ix2 i⟩
  rw [tailK_apply, lin_apply]
  refine congrArg (· + _) (Finset.sum_congr rfl fun k _ => congrArg (· * _) ?_)
  exact (prelu_bn_apply _ _ g beta a sl hsl r k).symm

end Cert.Algebra
end
-- ==== Proof.LibNormClamp.lean ====
/-
  Two spellings of a row normaliser on the extended reals.  For a sum of squares s in [0, ⊤] and a positive real D,
  the reciprocal square root of max(s, D²) is the inverse of max(√s, D): the square root is monotone, so it commutes
  with the maximum, and √(D²) = D; at s = ⊤ both sides are 0.  Multiplying by that reciprocal is then dividing by
  max(√s, D), which is never zero.
-/
import Idealize.ShloMosaic.PureOps.Ideal

noncomputable section

namespace Cert.LibNormClamp

open Idealize.ShloMosaic

/-- The real coercion commutes with the maximum. -/
theorem coe_max (a b : ℝ) : ((max a b : ℝ) : EReal) = max (a : EReal) (b : EReal) :=
  EReal.coe_strictMono.monotone.map_max

/-- √(max r D²) = max √r D for r ≥ 0 and D > 0. -/
theorem sqrt_max_sq (r D : ℝ) (hr : 0 ≤ r) (hD : 0 < D) : Real.sqrt (max r (D * D)) = max (Real.sqrt r) D := by
  rcases le_total r (D * D) with h | h
  · have h1 : Real.sqrt r ≤ D := (Real.sqrt_le_sqrt h).trans_eq (Real.sqrt_mul_self hD.le)
    rw [max_eq_right h, max_eq_right h1, Real.sqrt_mul_self hD.le]
  · have h1 : D ≤ Real.sqrt r := (Real.sqrt_mul_self hD.le).symm.trans_le (Real.sqrt_le_sqrt h)
    rw [max_eq_left h, max_eq_left h1]

/-- The square root of a nonnegative real, at the extended reals. -/
theorem sqrt_coe_of_nonneg (r : ℝ) (hr : 0 ≤ r) : Ideal.sqrt (r : EReal) = ((Real.sqrt r : ℝ) : EReal) :=
  if_neg (not_lt.mpr hr)

/-- The reciprocal square root of the floored sum of squares is the inverse of the floored norm. -/
theorem rsqrt_max_sq (s : EReal) (hs : 0 ≤ s) (D : ℝ) (hD : 0 < D) :
    Ideal.rsqrt (max s ((D * D : ℝ) : EReal)) = (max (Ideal.sqrt s) (D : EReal))⁻¹ := by
  induction s using EReal.rec with
  | bot => exact absurd hs (by simp)
  | top =>
    rw [max_eq_left le_top]
    show (0 : EReal) = (max (⊤ : EReal) (D : EReal))⁻¹
    rw [max_eq_left le_top, EReal.inv_top]
  | coe r =>
    have hr : 0 ≤ r := by exact_mod_cast hs
    have hm : 0 < max r (D * D) := lt_max_of_lt_right (mul_pos hD hD)
    rw [← coe_max, Ideal.rsqrt_coe, if_neg (not_lt.mpr hm.le), if_neg hm.ne', sqrt_coe_of_nonneg r hr, ← coe_max,
      ← EReal.coe_inv, sqrt_max_sq r D hr hD]

/-- The floored norm is positive, so never zero. -/
theorem max_sqrt_ne_zero (s : EReal) (D : ℝ) (hD : 0 < D) : max (Ideal.sqrt s) (D : EReal) ≠ 0 :=
  (lt_of_lt_of_le (by exact_mod_cast hD : (0 : EReal) < (D : EReal)) (le_max_right _ _)).ne'

/-- Multiplying by the reciprocal square root of the floored sum of squares is dividing by the floored norm. -/
theorem mul_rsqrt_max_sq (x s : EReal) (hs : 0 ≤ s) (D : ℝ) (hD : 0 < D) :
    x * Ideal.rsqrt (max s ((D * D : ℝ) : EReal)) = Ideal.div x (max (Ideal.sqrt s) (D : EReal)) := by
  rw [rsqrt_max_sq s hs D hD]
  unfold Ideal.div
  rw [if_neg (max_sqrt_ne_zero s D hD)]

end Cert.LibNormClamp

end
-- ==== Proof.LossBridge.lean ====
/-
  The reference's loss read as the row formula of the specification.  The reference normalises a row by dividing each
  entry by max(‖row‖, D), D the float nearest 1e-12; the specification multiplies by the reciprocal square root of
  max(‖row‖², D²).  A row's sum of squares of extended reals lies in [0, ⊤] (a square is never negative, ⊥·⊥ = ⊤), and
  on that range the two normalisers agree.  The reference's sums start from the float zero, which is the real 0.  So
  the reference's row term is the specification's, and its loss is the sum over the 50000 rows of the two pairs' terms,
  divided by the float 50000.
-/
import proofs.«123214_j35218731827951_1_alg».proof.Proof.Spec
import proofs.«123214_j35218731827951_1_alg».proof.Proof.Gen.ReferenceIdeal
import proofs.«123214_j35218731827951_1_alg».proof.Proof.LossSpec
import proofs.«123214_j35218731827951_1_alg».proof.Proof.LibNormClamp
import proofs.«123214_j35218731827951_1_alg».proof.Proof.LibHostBcast
import Idealize.ShloMosaic.Lib.ValueIdx
import Idealize.ShloMosaic.Lib.IdealHost
import Idealize.ShloMosaic.PureOps.Ideal.Laws

noncomputable section

open scoped BigOperators
open Idealize.ShloMosaic Idealize.ShloMosaic.ValueIdx

namespace Cert.LossBridge

open Cert.ReferenceIdeal Cert.ReferenceIdeal.Gen Cert.Spec Cert.LossSpec Cert.LibHostBcast Cert.LibNormClamp

/-- The float nearest 1e-12, as a real: 2305843 · 2⁻⁶¹. -/
def D : ℝ := 2305843 / 2 ^ 61

theorem D_pos : 0 < D := by unfold D; positivity

theorem ofBits_D : Ideal.ofBits .f32 0x2B8CBCCC#32 = ((D : ℝ) : EReal) := by
  unfold D
  simp [Ideal.ofBits, Ideal.ieee, -EReal.coe_mul]
  norm_num

/-- The specification's floor is the square of that float. -/
theorem epsSq_eq : epsSq = ((D * D : ℝ) : EReal) := by
  unfold epsSq D
  norm_num

/-- A square of an extended real is never negative. -/
theorem mul_self_nonneg (x : EReal) : 0 ≤ x * x := by
  induction x using EReal.rec with
  | bot => simp
  | top => simp
  | coe r => exact_mod_cast _root_.mul_self_nonneg r

/-- So a row's sum of squares lies in [0, ⊤]. -/
theorem sumSq_nonneg (a : Fin 128 → EReal) : 0 ≤ sumSq a := Finset.sum_nonneg fun j _ => mul_self_nonneg (a j)

/-- A sum over the indices of a vector is the sum over its coordinate. -/
def idxEquiv1 {n : ℕ} : (⟨1, ![n]⟩ : Shape).Idx ≃ Fin n where
  toFun j := j 0
  invFun a := ix1 a
  left_inv j := (eq_ix1 j).symm
  right_inv a := rfl

theorem sum_idx1 {M : Type*} [AddCommMonoid M] {n : ℕ} (f : (⟨1, ![n]⟩ : Shape).Idx → M) :
    ∑ j, f j = ∑ a : Fin n, f (ix1 a) :=
  (Equiv.sum_comp idxEquiv1.symm f).symm

/-- The host's square root of a vector, at an index. -/
theorem hostSqrt_apply {s : Shape} {φ : FTy} (a : FVec Ideal s φ) (i : s.Idx) : Host.sqrt a i = Ideal.sqrt (a i) := rfl

/-- The reference's row sums of squares. -/
theorem rowSq_apply (x : Mat Ideal) (n : Fin 50000) : rowSq x (ix1 n) = sumSq (row x n) := by
  unfold rowSq
  have h : S50000x128.Reduces [1] S50000 :=
    ⟨reducesTo_S50000x128_S50000_d1.1, Nat.zero_lt_one, reducesTo_S50000x128_S50000_d1.2⟩
  refine (hostSum_last2_apply (A := 50000) (S := 128) (φ := .f32) (mulf x x) _ _ h _ n).trans ?_
  rw [constant_apply, Ideal.ofBits_zero_f32, zero_add]
  rfl

/-- The reference's normalised entry is the specification's. -/
theorem l2n_apply (x : Mat Ideal) (n : Fin 50000) (k : Fin 128) : l2n x (ix2 n k) = unit epsSq (row x n) k := by
  unfold l2n
  rw [hostDivf_apply, bid_a1_ab_apply ![0, 1] rfl rfl, maximumf_apply, hostSqrt_apply, bid_a_a1_apply ![0] rfl,
    broadcastInDim_scalar_apply, constant_apply, rowSq_apply, ofBits_D]
  unfold unit
  rw [epsSq_eq]
  exact (mul_rsqrt_max_sq (x (ix2 n k)) (sumSq (row x n)) (sumSq_nonneg _) D D_pos).symm

/-- The reference's row term is the specification's. -/
theorem lossRow_apply (p t : Mat Ideal) (n : Fin 50000) : lossRow p t (ix1 n) = rowTerm (N := 50000) epsSq p t n := by
  unfold lossRow
  have h : S50000x128.Reduces [1] S50000 :=
    ⟨reducesTo_S50000x128_S50000_d1.1, Nat.zero_lt_one, reducesTo_S50000x128_S50000_d1.2⟩
  rw [subf_apply, mulf_apply, broadcastInDim_scalar_apply, constant_apply,
    hostSum_last2_apply (A := 50000) (S := 128) (φ := .f32) (mulf (l2n p) (l2n t)) _ _ h _ n,
    constant_apply, Ideal.ofBits_zero_f32, zero_add]
  refine congrArg (fun s : EReal => two - two * s) (Finset.sum_congr rfl fun k _ => ?_)
  rw [mulf_apply, l2n_apply, l2n_apply]

/-- THE REFERENCE'S LOSS: the sum over the rows of the two pairs' terms, over the float 50000. -/
theorem lossOf_apply (px tx py ty : Mat Ideal) :
    lossOf px tx py ty ix0
      = Ideal.div (∑ n : Fin 50000, (rowTerm (N := 50000) epsSq px tx n + rowTerm (N := 50000) epsSq py ty n))
          (Ideal.ofBits .f32 0x47435000#32) := by
  unfold lossOf
  rw [hostDivf_apply, constant_apply]
  refine congrArg (fun s : EReal => Ideal.div s (Ideal.ofBits .f32 0x47435000#32)) ?_
  refine (hostReduceAdd_apply _ _ _ _ ix0).trans ?_
  refine (Ideal.hostReduceAdd_total _ (fun b => b.elim0) _ _ ix0).trans ?_
  rw [sum_idx1, constant_apply, Ideal.ofBits_zero_f32, zero_add]
  refine Finset.sum_congr rfl fun n _ => ?_
  rw [addf_apply, lossRow_apply, lossRow_apply]

end Cert.LossBridge

end
-- ==== Proof.lean ====
/-
  The claim.  Three frames: the word-level kernel program and its idealization terminate without a fault and leave the
  argument arrays as launched (the runs of the nine regions among the host stretches); the reference, a host program,
  does so by its own run.  The idealization is sanctioned: its one rewrite names the floor 1e-24 under a row's sum of
  squares as the exact square of the float nearest 1e-12, four times.  At the extended reals the two programs then
  end with equal results.  The first result, x₂ + conv(x₂), is the same function of the arguments on both sides once
  each dense product a region leaves is read as the product the host computes.  The second is the mean over rows of
  the two row losses: the kernel's predictor multiplies by a reciprocal square root where the reference divides by a
  square root (equal, the variance being a mean of squares), the kernel normalises a row by the reciprocal square root
  of max(‖row‖², D²) where the reference divides by max(‖row‖, D) (equal, the square root being monotone), and the
  kernel's 25 tiles of 2000 rows are the reference's 50000 rows.
-/
import proofs.«123214_j35218731827951_1_alg».proof.Defs
import proofs.«123214_j35218731827951_1_alg».proof.Proof.Gen.Kernel
import proofs.«123214_j35218731827951_1_alg».proof.Proof.Gen.Kernel.Frame
import proofs.«123214_j35218731827951_1_alg».proof.Proof.Gen.KernelIdeal
import proofs.«123214_j35218731827951_1_alg».proof.Proof.Gen.KernelIdeal.Frame
import proofs.«123214_j35218731827951_1_alg».proof.Proof.Gen.ReferenceIdeal
import proofs.«123214_j35218731827951_1_alg».proof.Proof.Gen.Pre_finite_inputs
import proofs.«123214_j35218731827951_1_alg».proof.Proof.KRun
import proofs.«123214_j35218731827951_1_alg».proof.Proof.KChainC
import proofs.«123214_j35218731827951_1_alg».proof.Proof.RefRun
import proofs.«123214_j35218731827951_1_alg».proof.Proof.Algebra
import proofs.«123214_j35218731827951_1_alg».proof.Proof.LossBridge
import Idealize.ShloMosaic.Adequacy
import Idealize.ShloMosaic.Init

set_option maxRecDepth 16384

noncomputable section

namespace Cert.Proof

open Idealize.ShloMosaic Idealize.ShloMosaic.ValueIdx Idealize.SL.Sem

/-- The shared slope, a 1-vector spread over the 128 columns, is itself in every column. -/
theorem slope_apply (m : (ℓ : Loc Cert.KernelIdeal.nD Cert.KernelIdeal.τ Cert.KernelIdeal.sig) → Buf (Elt Ideal) ℓ)
    (c : Dev Cert.KernelIdeal.nD) (k : Fin 128) :
    Cert.KernelIdeal.KChain.k70 m c (ix1 k) = Cert.KernelIdeal.KChain.A13 m c (ix1 0) := by
  unfold Cert.KernelIdeal.KChain.k70
  refine broadcastInDim_apply ![0] Cert.KernelIdeal.Facts₀.bcast_S1_S128_0 _ (ix1 k) (ix1 (0 : Fin 1)) fun ax => ?_
  match ax with
  | ⟨0, _⟩ => rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m g _ => Cert.ReferenceIdeal.RefRun.frame (F := Ideal) m g

/-- The one rewrite, at its four sites: the certificate's table gives the floor's name the square of the float
    nearest 1e-12, and the printed constant is that value at the extended reals. -/
theorem preserves : Cert.preserves_Kernel_KernelIdeal :=
  have s := IdealRules.named_const.statement Cert.KernelIdeal.κ "eps_norm_sq" .f32 0x179ABE15#32
    ((5316911940649 / 5316911983139663491615228241121378304 : ℝ) : EReal) rfl
  ⟨s, s, s, s⟩

open Cert.KernelIdeal.KChain in
/-- The kernel program's second result is the specification's loss of the arguments. -/
theorem loss_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W19 m ρ c (Proc.devRef .tc Cert.KernelIdeal.main_v86)
      = Cert.Spec.loss (F := Ideal) (A0 m c) (A1 m c) (A2 m c) (A3 m c) (A4 m c) (A5 m c) (A6 m c) (A7 m c) (A8 m c)
          (A9 m c) (A10 m c) (A11 m c) (A12 m c) (A13 m c) (A14 m c) (A15 m c) := by
  funext i
  rw [eq_ix0 i, W19_v86, W18_v83]
  unfold Cert.Spec.loss
  rw [Cert.LossBridge.lossOf_apply]
  have h76 : k76 m c = Cert.Spec.predictor (F := Ideal) (Cert.Spec.gcn (A0 m c) (A5 m c) (A6 m c) (A2 m c) (A3 m c) (A4 m c))
      (A9 m c) (A10 m c) (A11 m c) (A12 m c) (A13 m c) (A14 m c) (A15 m c) :=
    Cert.Algebra.tailK_eq_predictor (k35 m c) (A9 m c) (A10 m c) (A11 m c) (A12 m c) (A13 m c) (A14 m c) (A15 m c)
      (k70 m c) (slope_apply m c)
  have h82 : k82 m c = Cert.Spec.predictor (F := Ideal)
      (Cert.Spec.gcn (Cert.Spec.x2 (A0 m c) (A1 m c)) (A5 m c) (A6 m c) (A2 m c) (A3 m c) (A4 m c))
      (A9 m c) (A10 m c) (A11 m c) (A12 m c) (A13 m c) (A14 m c) (A15 m c) :=
    Cert.Algebra.tailK_eq_predictor (k17 m c) (A9 m c) (A10 m c) (A11 m c) (A12 m c) (A13 m c) (A14 m c) (A15 m c)
      (k70 m c) (slope_apply m c)
  rw [h76, h82]
  rfl

theorem algebraic : Cert.algebraic_KernelIdeal_ReferenceIdeal := by
  intro m ρ m' ρ' _ hagree
  refine ⟨fun c => Cert.Spec.embed (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.loss (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run (Cert.KernelIdeal.defs (F := Ideal)) _ _).mono (fun r h c => ?_) (Cert.KernelIdeal.KRun.run (F := Ideal) m ρ)
    obtain ⟨h18, h86, hargs⟩ := h c
    exact ⟨h18.trans (Cert.KernelIdeal.KChain.W19_v18 m ρ c), h86.trans (loss_eq m ρ c), hargs⟩
  · refine (θ_run (Cert.ReferenceIdeal.defs (F := Ideal)) _ _).mono (fun r h c => ?_) (Cert.ReferenceIdeal.RefRun.run (F := Ideal) m' ρ')
    obtain ⟨h18, h199, hargs⟩ := h c
    obtain ⟨e0, e1, e2, e3, e4, e5, e6, e7, e8, e9, e10, e11, e12, e13, e14, e15⟩ := hagree c
    refine ⟨h18.trans ?_, h199.trans ?_, hargs⟩
    · rw [e0, e1, e2, e3, e4, e5, e6]
    · rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
